-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2x512 : Shape := ⟨2, ![2, 512]⟩
abbrev S15x512 : Shape := ⟨2, ![15, 512]⟩
abbrev S40x512 : Shape := ⟨2, ![40, 512]⟩
abbrev S24x512 : Shape := ⟨2, ![24, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S15x512 : S_.BroadcastsInDim S15x512 (![] : Fin 0 → Fin S15x512.rank)
  reducesTo_S15x512_S_d0_1 : S15x512.ReducesTo [0, 1] S_
  bcast_S_S40x512 : S_.BroadcastsInDim S40x512 (![] : Fin 0 → Fin S40x512.rank)
  reducesTo_S40x512_S_d0_1 : S40x512.ReducesTo [0, 1] S_
  bcast_S_S24x512 : S_.BroadcastsInDim S24x512 (![] : Fin 0 → Fin S24x512.rank)
  reducesTo_S24x512_S_d0_1 : S24x512.ReducesTo [0, 1] S_

variable [Facts]

def fn_part1 {F : FTy → Type} [FloatOps F] (main_arg4 : FVec F S40x512 .f32) (main_arg5 : FVec F S24x512 .f32) (main_v13 : IVec S_ 1) (main_v16 : IVec S40x512 1) : IVec S_ 1 :=
  let main_c_5 : IVec S_ 1 := constantI S_ 1 1#1
  let main_v17 : IVec S_ 1 := (fun x v => Host.reduce IntOp.andi x v reducesTo_S40x512_S_d0_1 h_S_) main_v16 main_c_5
  let main_v18 : IVec S_ 1 := andi main_v13 main_v17
  let main_v19 : FVec F S40x512 .f32 := Host.absf main_arg4
  let main_cst_6 : FVec F S_ .f32 := constant S_ .f32 0x7F800000#32
  let main_v20 : FVec F S40x512 .f32 := broadcastInDim S40x512 ![] bcast_S_S40x512 main_cst_6
  let main_v21 : IVec S40x512 1 := cmpf .olt main_v19 main_v20
  let main_c_7 : IVec S_ 1 := constantI S_ 1 1#1
  let main_v22 : IVec S_ 1 := (fun x v => Host.reduce IntOp.andi x v reducesTo_S40x512_S_d0_1 h_S_) main_v21 main_c_7
  let main_v23 : IVec S_ 1 := andi main_v18 main_v22
  let main_v24 : FVec F S24x512 .f32 := Host.absf main_arg5
  let main_cst_8 : FVec F S_ .f32 := constant S_ .f32 0x7F800000#32
  let main_v25 : FVec F S24x512 .f32 := broadcastInDim S24x512 ![] bcast_S_S24x512 main_cst_8
  let main_v26 : IVec S24x512 1 := cmpf .olt main_v24 main_v25
  let main_c_9 : IVec S_ 1 := constantI S_ 1 1#1
  let main_v27 : IVec S_ 1 := (fun x v => Host.reduce IntOp.andi x v reducesTo_S24x512_S_d0_1 h_S_) main_v26 main_c_9
  let main_v28 : IVec S_ 1 := andi main_v23 main_v27
  main_v28

def fn {F : FTy → Type} [FloatOps F] (main_arg0 : FVec F S32768x512 .f32) (main_arg1 : FVec F S2x512 .f32) (main_arg2 : FVec F S15x512 .f32) (main_arg3 : FVec F S40x512 .f32) (main_arg4 : FVec F S40x512 .f32) (main_arg5 : FVec F S24x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S15x512 .f32 := Host.absf main_arg2
  let main_cst_2 : FVec F S_ .f32 := constant S_ .f32 0x7F800000#32
  let main_v10 : FVec F S15x512 .f32 := broadcastInDim S15x512 ![] bcast_S_S15x512 main_cst_2
  let main_v11 : IVec S15x512 1 := cmpf .olt main_v9 main_v10
  let main_c_3 : IVec S_ 1 := constantI S_ 1 1#1
  let main_v12 : IVec S_ 1 := (fun x v => Host.reduce IntOp.andi x v reducesTo_S15x512_S_d0_1 h_S_) main_v11 main_c_3
  let main_v13 : IVec S_ 1 := andi main_v8 main_v12
  let main_v14 : FVec F S40x512 .f32 := Host.absf main_arg3
  let main_cst_4 : FVec F S_ .f32 := constant S_ .f32 0x7F800000#32
  let main_v15 : FVec F S40x512 .f32 := broadcastInDim S40x512 ![] bcast_S_S40x512 main_cst_4
  let main_v16 : IVec S40x512 1 := cmpf .olt main_v14 main_v15
  fn_part1 (F := F) main_arg4 main_arg5 main_v13 main_v16
-- ==== Kernel.lean ====
abbrev S32768x512 : Shape := ⟨2, ![32768, 512]⟩
abbrev S2x512 : Shape := ⟨2, ![2, 512]⟩
abbrev S15x512 : Shape := ⟨2, ![15, 512]⟩
abbrev S40x512 : Shape := ⟨2, ![40, 512]⟩
abbrev S24x512 : Shape := ⟨2, ![24, 512]⟩
abbrev S2x2 : Shape := ⟨2, ![2, 2]⟩
abbrev S15x15 : Shape := ⟨2, ![15, 15]⟩
abbrev S40x40 : Shape := ⟨2, ![40, 40]⟩
abbrev S24x24 : Shape := ⟨2, ![24, 24]⟩
abbrev S32768x2560 : Shape := ⟨2, ![32768, 2560]⟩
abbrev S2048x512 : Shape := ⟨2, ![2048, 512]⟩
abbrev S2048x2560 : Shape := ⟨2, ![2048, 2560]⟩
abbrev S2048 : Shape := ⟨1, ![2048]⟩
abbrev S2048x1 : Shape := ⟨2, ![2048, 1]⟩
abbrev S2 : Shape := ⟨1, ![2]⟩
abbrev S2x1 : Shape := ⟨2, ![2, 1]⟩
abbrev S512x2 : Shape := ⟨2, ![512, 2]⟩
abbrev S2048x2 : Shape := ⟨2, ![2048, 2]⟩
abbrev S15 : Shape := ⟨1, ![15]⟩
abbrev S15x1 : Shape := ⟨2, ![15, 1]⟩
abbrev S512x15 : Shape := ⟨2, ![512, 15]⟩
abbrev S2048x15 : Shape := ⟨2, ![2048, 15]⟩
abbrev S40 : Shape := ⟨1, ![40]⟩
abbrev S40x1 : Shape := ⟨2, ![40, 1]⟩
abbrev S512x40 : Shape := ⟨2, ![512, 40]⟩
abbrev S2048x40 : Shape := ⟨2, ![2048, 40]⟩
abbrev S24 : Shape := ⟨1, ![24]⟩
abbrev S24x1 : Shape := ⟨2, ![24, 1]⟩
abbrev S512x24 : Shape := ⟨2, ![512, 24]⟩
abbrev S2048x24 : Shape := ⟨2, ![2048, 24]⟩
abbrev S32768x5x512 : Shape := ⟨3, ![32768, 5, 512]⟩

abbrev nBuf : Space → Nat
  | .hbm => 13
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S2x512, .f32⟩
  | .hbm, ⟨2, _⟩ => ⟨S15x512, .f32⟩
  | .hbm, ⟨3, _⟩ => ⟨S40x512, .f32⟩
  | .hbm, ⟨4, _⟩ => ⟨S40x512, .f32⟩
  | .hbm, ⟨5, _⟩ => ⟨S24x512, .f32⟩
  | .hbm, ⟨6, _⟩ => ⟨S2x2, .f32⟩
  | .hbm, ⟨7, _⟩ => ⟨S15x15, .f32⟩
  | .hbm, ⟨8, _⟩ => ⟨S40x40, .f32⟩
  | .hbm, ⟨9, _⟩ => ⟨S40x40, .f32⟩
  | .hbm, ⟨10, _⟩ => ⟨S24x24, .f32⟩
  | .hbm, ⟨11, _⟩ => ⟨S32768x2560, .f32⟩
  | .hbm, ⟨12, _⟩ => ⟨S32768x5x512, .f32⟩
  | .local _ .vmem, ⟨0, _⟩ => ⟨S2048x512, .f32⟩
  | .local _ .vmem, ⟨1, _⟩ => ⟨S2048x512, .f32⟩
  | .local _ .vmem, ⟨2, _⟩ => ⟨S2x512, .f32⟩
  | .local _ .vmem, ⟨3, _⟩ => ⟨S15x512, .f32⟩
  | .local _ .vmem, ⟨4, _⟩ => ⟨S40x512, .f32⟩
  | .local _ .vmem, ⟨5, _⟩ => ⟨S40x512, .f32⟩
  | .local _ .vmem, ⟨6, _⟩ => ⟨S24x512, .f32⟩
  | .local _ .vmem, ⟨7, _⟩ => ⟨S2x2, .f32⟩
  | .local _ .vmem, ⟨8, _⟩ => ⟨S15x15, .f32⟩
  | .local _ .vmem, ⟨9, _⟩ => ⟨S40x40, .f32⟩
  | .local _ .vmem, ⟨10, _⟩ => ⟨S40x40, .f32⟩
  | .local _ .vmem, ⟨11, _⟩ => ⟨S24x24, .f32⟩
  | .local _ .vmem, ⟨12, _⟩ => ⟨S2048x2560, .f32⟩
  | .local _ .vmem, ⟨13, _⟩ => ⟨S2048x2560, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S24x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x2560 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  inb_S2x512_S2x512_0_0 : ∀ a, (![0, 0] : Fin 2 → Nat) a + S2x512.size a ≤ S2x512.size a
  h_S2x512 : 0 < S2x512.numel
  reduces_S2x512_S2 : S2x512.Reduces [1] S2
  shapeCasts_S2_S2x1 : S2.ShapeCasts S2x1
  broadcasts_S2x1_S2x512 : S2x1.Broadcasts S2x512
  transposes_S2x512_p1_0_S512x2 : S2x512.Transposes [1, 0] S512x2
  reduces_S2048x2_S2048 : S2048x2.Reduces [1] S2048
  broadcasts_S2048x1_S2048x2 : S2048x1.Broadcasts S2048x2
  inb_S2x2_S2x2_0_0 : ∀ a, (![0, 0] : Fin 2 → Nat) a + S2x2.size a ≤ S2x2.size a
  h_S2x2 : 0 < S2x2.numel
  inb_S2048x2560_S2048x512_0_0 : ∀ a, (![0, 0] : Fin 2 → Nat) a + S2048x512.size a ≤ S2048x2560.size a
  inb_S15x512_S15x512_0_0 : ∀ a, (![0, 0] : Fin 2 → Nat) a + S15x512.size a ≤ S15x512.size a
  h_S15x512 : 0 < S15x512.numel
  reduces_S15x512_S15 : S15x512.Reduces [1] S15
  shapeCasts_S15_S15x1 : S15.ShapeCasts S15x1
  broadcasts_S15x1_S15x512 : S15x1.Broadcasts S15x512
  transposes_S15x512_p1_0_S512x15 : S15x512.Transposes [1, 0] S512x15
  reduces_S2048x15_S2048 : S2048x15.Reduces [1] S2048
  broadcasts_S2048x1_S2048x15 : S2048x1.Broadcasts S2048x15
  inb_S15x15_S15x15_0_0 : ∀ a, (![0, 0] : Fin 2 → Nat) a + S15x15.size a ≤ S15x15.size a
  h_S15x15 : 0 < S15x15.numel
  inb_S2048x2560_S2048x512_0_512 : ∀ a, (![0, 512] : Fin 2 → Nat) a + S2048x512.size a ≤ S2048x2560.size a
  inb_S40x512_S40x512_0_0 : ∀ a, (![0, 0] : Fin 2 → Nat) a + S40x512.size a ≤ S40x512.size a
  h_S40x512 : 0 < S40x512.numel
  reduces_S40x512_S40 : S40x512.Reduces [1] S40
  shapeCasts_S40_S40x1 : S40.ShapeCasts S40x1
  broadcasts_S40x1_S40x512 : S40x1.Broadcasts S40x512
  transposes_S40x512_p1_0_S512x40 : S40x512.Transposes [1, 0] S512x40
  reduces_S2048x40_S2048 : S2048x40.Reduces [1] S2048
  broadcasts_S2048x1_S2048x40 : S2048x1.Broadcasts S2048x40
  inb_S40x40_S40x40_0_0 : ∀ a, (![0, 0] : Fin 2 → Nat) a + S40x40.size a ≤ S40x40.size a
  h_S40x40 : 0 < S40x40.numel
  inb_S2048x2560_S2048x512_0_1024 : ∀ a, (![0, 1024] : Fin 2 → Nat) a + S2048x512.size a ≤ S2048x2560.size a
  inb_S2048x2560_S2048x512_0_1536 : ∀ a, (![0, 1536] : Fin 2 → Nat) a + S2048x512.size a ≤ S2048x2560.size a
  inb_S24x512_S24x512_0_0 : ∀ a, (![0, 0] : Fin 2 → Nat) a + S24x512.size a ≤ S24x512.size a
  h_S24x512 : 0 < S24x512.numel
  reduces_S24x512_S24 : S24x512.Reduces [1] S24
  shapeCasts_S24_S24x1 : S24.ShapeCasts S24x1
  broadcasts_S24x1_S24x512 : S24x1.Broadcasts S24x512
  transposes_S24x512_p1_0_S512x24 : S24x512.Transposes [1, 0] S512x24
  reduces_S2048x24_S2048 : S2048x24.Reduces [1] S2048
  broadcasts_S2048x1_S2048x24 : S2048x1.Broadcasts S2048x24
  inb_S24x24_S24x24_0_0 : ∀ a, (![0, 0] : Fin 2 → Nat) a + S24x24.size a ≤ S24x24.size a
  h_S24x24 : 0 < S24x24.numel
  inb_S2048x2560_S2048x512_0_2048 : ∀ a, (![0, 2048] : Fin 2 → Nat) a + S2048x512.size a ≤ S2048x2560.size a
  shapeCasts_S32768x2560_S32768x5x512 : S32768x2560.ShapeCasts S32768x5x512
  dot_S2048x512_S512x2_S2048x2_1_0_0_1_n_n_wf : DotDims.WF S2048x512 S512x2 S2048x2 [1] [0] [0] [1] [] []
  dot_S2048x2_S2x2_S2048x2_1_0_0_1_n_n_wf : DotDims.WF S2048x2 S2x2 S2048x2 [1] [0] [0] [1] [] []
  dot_S2048x2_S2x512_S2048x512_1_0_0_1_n_n_wf : DotDims.WF S2048x2 S2x512 S2048x512 [1] [0] [0] [1] [] []
  dot_S2048x512_S512x15_S2048x15_1_0_0_1_n_n_wf : DotDims.WF S2048x512 S512x15 S2048x15 [1] [0] [0] [1] [] []
  dot_S2048x15_S15x15_S2048x15_1_0_0_1_n_n_wf : DotDims.WF S2048x15 S15x15 S2048x15 [1] [0] [0] [1] [] []
  dot_S2048x15_S15x512_S2048x512_1_0_0_1_n_n_wf : DotDims.WF S2048x15 S15x512 S2048x512 [1] [0] [0] [1] [] []
  dot_S2048x512_S512x40_S2048x40_1_0_0_1_n_n_wf : DotDims.WF S2048x512 S512x40 S2048x40 [1] [0] [0] [1] [] []
  dot_S2048x40_S40x40_S2048x40_1_0_0_1_n_n_wf : DotDims.WF S2048x40 S40x40 S2048x40 [1] [0] [0] [1] [] []
  dot_S2048x40_S40x512_S2048x512_1_0_0_1_n_n_wf : DotDims.WF S2048x40 S40x512 S2048x512 [1] [0] [0] [1] [] []
  dot_S2048x512_S512x24_S2048x24_1_0_0_1_n_n_wf : DotDims.WF S2048x512 S512x24 S2048x24 [1] [0] [0] [1] [] []
  dot_S2048x24_S24x24_S2048x24_1_0_0_1_n_n_wf : DotDims.WF S2048x24 S24x24 S2048x24 [1] [0] [0] [1] [] []
  dot_S2048x24_S24x512_S2048x512_1_0_0_1_n_n_wf : DotDims.WF S2048x24 S24x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x512.size a
  hwx0_1 : ∀ i : grid0.Coords, EltTy.bits .f32 = 32 ∨ (Rect.block (s := S2x512) S2x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x512.size a ≤ S15x512.size a
  hwx0_2 : ∀ i : grid0.Coords, EltTy.bits .f32 = 32 ∨ (Rect.block (s := S15x512) S15x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x512.size a ≤ S40x512.size a
  hwx0_3 : ∀ i : grid0.Coords, EltTy.bits .f32 = 32 ∨ (Rect.block (s := S40x512) S40x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x512.size a ≤ S40x512.size a
  hwx0_4 : ∀ i : grid0.Coords, EltTy.bits .f32 = 32 ∨ (Rect.block (s := S40x512) S40x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x512.size a ≤ S24x512.size a
  hwx0_5 : ∀ i : grid0.Coords, EltTy.bits .f32 = 32 ∨ (Rect.block (s := S24x512) S24x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x2.size a ≤ S2x2.size a
  hwx0_6 : ∀ i : grid0.Coords, EltTy.bits .f32 = 32 ∨ (Rect.block (s := S2x2) S2x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x15.size a ≤ S15x15.size a
  hwx0_7 : ∀ i : grid0.Coords, EltTy.bits .f32 = 32 ∨ (Rect.block (s := S15x15) S15x15.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40x40.size a ≤ S40x40.size a
  hwx0_8 : ∀ i : grid0.Coords, EltTy.bits .f32 = 32 ∨ (Rect.block (s := S40x40) S40x40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S40x40.size a ≤ S40x40.size a
  hwx0_9 : ∀ i : grid0.Coords, EltTy.bits .f32 = 32 ∨ (Rect.block (s := S40x40) S40x40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S24x24.size a ≤ S24x24.size a
  hwx0_10 : ∀ i : grid0.Coords, EltTy.bits .f32 = 32 ∨ (Rect.block (s := S24x24) S24x24.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x2560.size a ≤ S32768x2560.size a
  hwx0_11 : ∀ i : grid0.Coords, EltTy.bits .f32 = 32 ∨ (Rect.block (s := S32768x2560) S2048x2560.size (cc0_transform_11 i) (hinb0_11 i)).WholeWords (EltTy.packing .f32)

variable [Facts₀]

def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf
def dot_S2048x2_S2x2_S2048x2_1_0_0_1_n_n : DotDims S2048x2 S2x2 S2048x2 where
  lhsContracting := [1]
  rhsContracting := [0]
  lhsNonContracting := [0]
  rhsNonContracting := [1]
  lhsBatch := []
  rhsBatch := []
  wf := dot_S2048x2_S2x2_S2048x2_1_0_0_1_n_n_wf
def dot_S2048x2_S2x512_S2048x512_1_0_0_1_n_n : DotDims S2048x2 S2x512 S2048x512 where
  lhsContracting := [1]
  rhsContracting := [0]
  lhsNonContracting := [0]
  rhsNonContracting := [1]
  lhsBatch := []
  rhsBatch := []
  wf := dot_S2048x2_S2x512_S2048x512_1_0_0_1_n_n_wf
def dot_S2048x512_S512x15_S2048x15_1_0_0_1_n_n : DotDims S2048x512 S512x15 S2048x15 where
  lhsContracting := [1]
  rhsContracting := [0]
  lhsNonContracting := [0]
  rhsNonContracting := [1]
  lhsBatch := []
  rhsBatch := []
  wf := dot_S2048x512_S512x15_S2048x15_1_0_0_1_n_n_wf
def dot_S2048x15_S15x15_S2048x15_1_0_0_1_n_n : DotDims S2048x15 S15x15 S2048x15 where
  lhsContracting := [1]
  rhsContracting := [0]
  lhsNonContracting := [0]
  rhsNonContracting := [1]
  lhsBatch := []
  rhsBatch := []
  wf := dot_S2048x15_S15x15_S2048x15_1_0_0_1_n_n_wf
def dot_S2048x15_S15x512_S2048x512_1_0_0_1_n_n : DotDims S2048x15 S15x512 S2048x512 where
  lhsContracting := [1]
  rhsContracting := [0]
  lhsNonContracting := [0]
  rhsNonContracting := [1]
  lhsBatch := []
  rhsBatch := []
  wf := dot_S2048x15_S15x512_S2048x512_1_0_0_1_n_n_wf
def dot_S2048x512_S512x40_S2048x40_1_0_0_1_n_n : DotDims S2048x512 S512x40 S2048x40 where
  lhsContracting := [1]
  rhsContracting := [0]
  lhsNonContracting := [0]
  rhsNonContracting := [1]
  lhsBatch := []
  rhsBatch := []
  wf := dot_S2048x512_S512x40_S2048x40_1_0_0_1_n_n_wf
def dot_S2048x40_S40x40_S2048x40_1_0_0_1_n_n : DotDims S2048x40 S40x40 S2048x40 where
  lhsContracting := [1]
  rhsContracting := [0]
  lhsNonContracting := [0]
  rhsNonContracting := [1]
  lhsBatch := []
  rhsBatch := []
  wf := dot_S2048x40_S40x40_S2048x40_1_0_0_1_n_n_wf
def dot_S2048x40_S40x512_S2048x512_1_0_0_1_n_n : DotDims S2048x40 S40x512 S2048x512 where
  lhsContracting := [1]
  rhsContracting := [0]
  lhsNonContracting := [0]
  rhsNonContracting := [1]
  lhsBatch := []
  rhsBatch := []
  wf := dot_S2048x40_S40x512_S2048x512_1_0_0_1_n_n_wf
def dot_S2048x512_S512x24_S2048x24_1_0_0_1_n_n : DotDims S2048x512 S512x24 S2048x24 where
  lhsContracting := [1]
  rhsContracting := [0]
  lhsNonContracting := [0]
  rhsNonContracting := [1]
  lhsBatch := []
  rhsBatch := []
  wf := dot_S2048x512_S512x24_S2048x24_1_0_0_1_n_n_wf
def dot_S2048x24_S24x24_S2048x24_1_0_0_1_n_n : DotDims S2048x24 S24x24 S2048x24 where
  lhsContracting := [1]
  rhsContracting := [0]
  lhsNonContracting := [0]
  rhsNonContracting := [1]
  lhsBatch := []
  rhsBatch := []
  wf := dot_S2048x24_S24x24_S2048x24_1_0_0_1_n_n_wf
def dot_S2048x24_S24x512_S2048x512_1_0_0_1_n_n : DotDims S2048x24 S24x512 S2048x512 where
  lhsContracting := [1]
  rhsContracting := [0]
  lhsNonContracting := [0]
  rhsNonContracting := [1]
  lhsBatch := []
  rhsBatch := []
  wf := dot_S2048x24_S24x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S15x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S40x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S40x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S2x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst_0) S15x15.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst_1) S40x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst_2) S40x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_cst_3) S24x24.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S2048x2560.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S2x512 : Shape := ⟨2, ![2, 512]⟩
abbrev S15x512 : Shape := ⟨2, ![15, 512]⟩
abbrev S40x512 : Shape := ⟨2, ![40, 512]⟩
abbrev S24x512 : Shape := ⟨2, ![24, 512]⟩
abbrev S2x2 : Shape := ⟨2, ![2, 2]⟩
abbrev S15x15 : Shape := ⟨2, ![15, 15]⟩
abbrev S40x40 : Shape := ⟨2, ![40, 40]⟩
abbrev S24x24 : Shape := ⟨2, ![24, 24]⟩
abbrev S_ : Shape := ⟨0, ![]⟩
abbrev S32768 : Shape := ⟨1, ![32768]⟩
abbrev S32768x1 : Shape := ⟨2, ![32768, 1]⟩
abbrev S2 : Shape := ⟨1, ![2]⟩
abbrev S2x1 : Shape := ⟨2, ![2, 1]⟩
abbrev S512x2 : Shape := ⟨2, ![512, 2]⟩
abbrev S32768x2 : Shape := ⟨2, ![32768, 2]⟩
abbrev S15 : Shape := ⟨1, ![15]⟩
abbrev S15x1 : Shape := ⟨2, ![15, 1]⟩
abbrev S512x15 : Shape := ⟨2, ![512, 15]⟩
abbrev S32768x15 : Shape := ⟨2, ![32768, 15]⟩
abbrev S40 : Shape := ⟨1, ![40]⟩
abbrev S40x1 : Shape := ⟨2, ![40, 1]⟩
abbrev S512x40 : Shape := ⟨2, ![512, 40]⟩
abbrev S32768x40 : Shape := ⟨2, ![32768, 40]⟩
abbrev S24 : Shape := ⟨1, ![24]⟩
abbrev S24x1 : Shape := ⟨2, ![24, 1]⟩
abbrev S512x24 : Shape := ⟨2, ![512, 24]⟩
abbrev S32768x24 : Shape := ⟨2, ![32768, 24]⟩
abbrev S32768x1x512 : Shape := ⟨3, ![32768, 1, 512]⟩
abbrev S32768x5x512 : Shape := ⟨3, ![32768, 5, 512]⟩

abbrev nBuf : Space → Nat
  | .hbm => 222
  | .vmem => 0
  | .smem => 0
  | _ => 0

abbrev hbmTy0_0 (i : Nat) : BufTy := match i % 128 with
  | 0 => ⟨S32768x512, .f32⟩
  | 1 => ⟨S2x512, .f32⟩
  | 2 => ⟨S15x512, .f32⟩
  | 3 => ⟨S40x512, .f32⟩
  | 4 => ⟨S40x512, .f32⟩
  | 5 => ⟨S24x512, .f32⟩
  | 6 => ⟨S2x2, .f32⟩
  | 7 => ⟨S15x15, .f32⟩
  | 8 => ⟨S40x40, .f32⟩
  | 9 => ⟨S40x40, .f32⟩
  | 10 => ⟨S24x24, .f32⟩
  | 11 => ⟨S32768x512, .f32⟩
  | 12 => ⟨S_, .f32⟩
  | 13 => ⟨S32768, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x512, .f32⟩
  | 20 => ⟨S32768x512, .f32⟩
  | 21 => ⟨S2x512, .f32⟩
  | 22 => ⟨S_, .f32⟩
  | 23 => ⟨S2, .f32⟩
  | 24 => ⟨S2x1, .f32⟩
  | 25 => ⟨S2x1, .f32⟩
  | 26 => ⟨S_, .f32⟩
  | 27 => ⟨S2x1, .f32⟩
  | 28 => ⟨S2x1, .f32⟩
  | 29 => ⟨S2x512, .f32⟩
  | 30 => ⟨S2x512, .f32⟩
  | 31 => ⟨S512x2, .f32⟩
  | 32 => ⟨S32768x2, .f32⟩
  | 33 => ⟨S_, .f32⟩
  | 34 => ⟨S32768x2, .f32⟩
  | 35 => ⟨S32768x2, .f32⟩
  | 36 => ⟨S_, .f32⟩
  | 37 => ⟨S32768, .f32⟩
  | 38 => ⟨S_, .f32⟩
  | 39 => ⟨S32768, .f32⟩
  | 40 => ⟨S32768, .f32⟩
  | 41 => ⟨S32768x1, .f32⟩
  | 42 => ⟨S32768x2, .f32⟩
  | 43 => ⟨S32768x2, .f32⟩
  | 44 => ⟨S32768x2, .f32⟩
  | 45 => ⟨S_, .f32⟩
  | 46 => ⟨S32768, .f32⟩
  | 47 => ⟨S32768x1, .f32⟩
  | 48 => ⟨S32768x2, .f32⟩
  | 49 => ⟨S32768x2, .f32⟩
  | 50 => ⟨S32768x2, .f32⟩
  | 51 => ⟨S_, .f32⟩
  | 52 => ⟨S32768, .f32⟩
  | 53 => ⟨S32768x1, .f32⟩
  | 54 => ⟨S_, .f32⟩
  | 55 => ⟨S32768x1, .f32⟩
  | 56 => ⟨S32768x1, .f32⟩
  | 57 => ⟨S32768x2, .f32⟩
  | 58 => ⟨S32768x2, .f32⟩
  | 59 => ⟨S32768x512, .f32⟩
  | 60 => ⟨S15x512, .f32⟩
  | 61 => ⟨S_, .f32⟩
  | 62 => ⟨S15, .f32⟩
  | 63 => ⟨S15x1, .f32⟩
  | 64 => ⟨S15x1, .f32⟩
  | 65 => ⟨S_, .f32⟩
  | 66 => ⟨S15x1, .f32⟩
  | 67 => ⟨S15x1, .f32⟩
  | 68 => ⟨S15x512, .f32⟩
  | 69 => ⟨S15x512, .f32⟩
  | 70 => ⟨S512x15, .f32⟩
  | 71 => ⟨S32768x15, .f32⟩
  | 72 => ⟨S_, .f32⟩
  | 73 => ⟨S32768x15, .f32⟩
  | 74 => ⟨S32768x15, .f32⟩
  | 75 => ⟨S_, .f32⟩
  | 76 => ⟨S32768, .f32⟩
  | 77 => ⟨S_, .f32⟩
  | 78 => ⟨S32768, .f32⟩
  | 79 => ⟨S32768, .f32⟩
  | 80 => ⟨S32768x1, .f32⟩
  | 81 => ⟨S32768x15, .f32⟩
  | 82 => ⟨S32768x15, .f32⟩
  | 83 => ⟨S32768x15, .f32⟩
  | 84 => ⟨S_, .f32⟩
  | 85 => ⟨S32768, .f32⟩
  | 86 => ⟨S32768x1, .f32⟩
  | 87 => ⟨S32768x15, .f32⟩
  | 88 => ⟨S32768x15, .f32⟩
  | 89 => ⟨S32768x15, .f32⟩
  | 90 => ⟨S_, .f32⟩
  | 91 => ⟨S32768, .f32⟩
  | 92 => ⟨S32768x1, .f32⟩
  | 93 => ⟨S_, .f32⟩
  | 94 => ⟨S32768x1, .f32⟩
  | 95 => ⟨S32768x1, .f32⟩
  | 96 => ⟨S32768x15, .f32⟩
  | 97 => ⟨S32768x15, .f32⟩
  | 98 => ⟨S32768x512, .f32⟩
  | 99 => ⟨S40x512, .f32⟩
  | 100 => ⟨S_, .f32⟩
  | 101 => ⟨S40, .f32⟩
  | 102 => ⟨S40x1, .f32⟩
  | 103 => ⟨S40x1, .f32⟩
  | 104 => ⟨S_, .f32⟩
  | 105 => ⟨S40x1, .f32⟩
  | 106 => ⟨S40x1, .f32⟩
  | 107 => ⟨S40x512, .f32⟩
  | 108 => ⟨S40x512, .f32⟩
  | 109 => ⟨S512x40, .f32⟩
  | 110 => ⟨S32768x40, .f32⟩
  | 111 => ⟨S_, .f32⟩
  | 112 => ⟨S32768x40, .f32⟩
  | 113 => ⟨S32768x40, .f32⟩
  | 114 => ⟨S_, .f32⟩
  | 115 => ⟨S32768, .f32⟩
  | 116 => ⟨S_, .f32⟩
  | 117 => ⟨S32768, .f32⟩
  | 118 => ⟨S32768, .f32⟩
  | 119 => ⟨S32768x1, .f32⟩
  | 120 => ⟨S32768x40, .f32⟩
  | 121 => ⟨S32768x40, .f32⟩
  | 122 => ⟨S32768x40, .f32⟩
  | 123 => ⟨S_, .f32⟩
  | 124 => ⟨S32768, .f32⟩
  | 125 => ⟨S32768x1, .f32⟩
  | 126 => ⟨S32768x40, .f32⟩
  | 127 => ⟨S32768x40, .f32⟩
  | _ => ⟨S32768x512, .f32⟩

abbrev hbmTy0_1 (i : Nat) : BufTy := match i % 128 with
  | 0 => ⟨S32768x40, .f32⟩
  | 1 => ⟨S_, .f32⟩
  | 2 => ⟨S32768, .f32⟩
  | 3 => ⟨S32768x1, .f32⟩
  | 4 => ⟨S_, .f32⟩
  | 5 => ⟨S32768x1, .f32⟩
  | 6 => ⟨S32768x1, .f32⟩
  | 7 => ⟨S32768x40, .f32⟩
  | 8 => ⟨S32768x40, .f32⟩
  | 9 => ⟨S32768x512, .f32⟩
  | 10 => ⟨S40x512, .f32⟩
  | 11 => ⟨S_, .f32⟩
  | 12 => ⟨S40, .f32⟩
  | 13 => ⟨S40x1, .f32⟩
  | 14 => ⟨S40x1, .f32⟩
  | 15 => ⟨S_, .f32⟩
  | 16 => ⟨S40x1, .f32⟩
  | 17 => ⟨S40x1, .f32⟩
  | 18 => ⟨S40x512, .f32⟩
  | 19 => ⟨S40x512, .f32⟩
  | 20 => ⟨S512x40, .f32⟩
  | 21 => ⟨S32768x40, .f32⟩
  | 22 => ⟨S_, .f32⟩
  | 23 => ⟨S32768x40, .f32⟩
  | 24 => ⟨S32768x40, .f32⟩
  | 25 => ⟨S_, .f32⟩
  | 26 => ⟨S32768, .f32⟩
  | 27 => ⟨S_, .f32⟩
  | 28 => ⟨S32768, .f32⟩
  | 29 => ⟨S32768, .f32⟩
  | 30 => ⟨S32768x1, .f32⟩
  | 31 => ⟨S32768x40, .f32⟩
  | 32 => ⟨S32768x40, .f32⟩
  | 33 => ⟨S32768x40, .f32⟩
  | 34 => ⟨S_, .f32⟩
  | 35 => ⟨S32768, .f32⟩
  | 36 => ⟨S32768x1, .f32⟩
  | 37 => ⟨S32768x40, .f32⟩
  | 38 => ⟨S32768x40, .f32⟩
  | 39 => ⟨S32768x40, .f32⟩
  | 40 => ⟨S_, .f32⟩
  | 41 => ⟨S32768, .f32⟩
  | 42 => ⟨S32768x1, .f32⟩
  | 43 => ⟨S_, .f32⟩
  | 44 => ⟨S32768x1, .f32⟩
  | 45 => ⟨S32768x1, .f32⟩
  | 46 => ⟨S32768x40, .f32⟩
  | 47 => ⟨S32768x40, .f32⟩
  | 48 => ⟨S32768x512, .f32⟩
  | 49 => ⟨S24x512, .f32⟩
  | 50 => ⟨S_, .f32⟩
  | 51 => ⟨S24, .f32⟩
  | 52 => ⟨S24x1, .f32⟩
  | 53 => ⟨S24x1, .f32⟩
  | 54 => ⟨S_, .f32⟩
  | 55 => ⟨S24x1, .f32⟩
  | 56 => ⟨S24x1, .f32⟩
  | 57 => ⟨S24x512, .f32⟩
  | 58 => ⟨S24x512, .f32⟩
  | 59 => ⟨S512x24, .f32⟩
  | 60 => ⟨S32768x24, .f32⟩
  | 61 => ⟨S_, .f32⟩
  | 62 => ⟨S32768x24, .f32⟩
  | 63 => ⟨S32768x24, .f32⟩
  | 64 => ⟨S_, .f32⟩
  | 65 => ⟨S32768, .f32⟩
  | 66 => ⟨S_, .f32⟩
  | 67 => ⟨S32768, .f32⟩
  | 68 => ⟨S32768, .f32⟩
  | 69 => ⟨S32768x1, .f32⟩
  | 70 => ⟨S32768x24, .f32⟩
  | 71 => ⟨S32768x24, .f32⟩
  | 72 => ⟨S32768x24, .f32⟩
  | 73 => ⟨S_, .f32⟩
  | 74 => ⟨S32768, .f32⟩
  | 75 => ⟨S32768x1, .f32⟩
  | 76 => ⟨S32768x24, .f32⟩
  | 77 => ⟨S32768x24, .f32⟩
  | 78 => ⟨S32768x24, .f32⟩
  | 79 => ⟨S_, .f32⟩
  | 80 => ⟨S32768, .f32⟩
  | 81 => ⟨S32768x1, .f32⟩
  | 82 => ⟨S_, .f32⟩
  | 83 => ⟨S32768x1, .f32⟩
  | 84 => ⟨S32768x1, .f32⟩
  | 85 => ⟨S32768x24, .f32⟩
  | 86 => ⟨S32768x24, .f32⟩
  | 87 => ⟨S32768x512, .f32⟩
  | 88 => ⟨S32768x1x512, .f32⟩
  | 89 => ⟨S32768x1x512, .f32⟩
  | 90 => ⟨S32768x1x512, .f32⟩
  | 91 => ⟨S32768x1x512, .f32⟩
  | 92 => ⟨S32768x1x512, .f32⟩
  | 93 => ⟨S32768x5x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_cst_4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_6 : Ref sig .tc := ⟨.hbm, 33, rfl⟩
abbrev main_v12 : Ref sig .tc := ⟨.hbm, 34, rfl⟩
abbrev main_v13 : Ref sig .tc := ⟨.hbm, 35, rfl⟩
abbrev main_cst_7 : Ref sig .tc := ⟨.hbm, 36, rfl⟩
abbrev main_v14 : Ref sig .tc := ⟨.hbm, 37, rfl⟩
abbrev main_cst_8 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_9 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_v27 : Ref sig .tc := ⟨.hbm, 53, rfl⟩
abbrev main_cst_11 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_call2_v2 : Ref sig .tc := ⟨.hbm, 63, rfl⟩
abbrev main_v33 : Ref sig .tc := ⟨.hbm, 64, rfl⟩
abbrev main_cst_12 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_v40 : Ref sig .tc := ⟨.hbm, 73, rfl⟩
abbrev main_v41 : Ref sig .tc := ⟨.hbm, 74, rfl⟩
abbrev main_cst_14 : Ref sig .tc := ⟨.hbm, 75, rfl⟩
abbrev main_v42 : Ref sig .tc := ⟨.hbm, 76, rfl⟩
abbrev main_cst_15 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_16 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_17 : Ref sig .tc := ⟨.hbm, 90, rfl⟩
abbrev main_v54 : Ref sig .tc := ⟨.hbm, 91, rfl⟩
abbrev main_v55 : Ref sig .tc := ⟨.hbm, 92, rfl⟩
abbrev main_cst_18 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_call3_v2 : Ref sig .tc := ⟨.hbm, 102, rfl⟩
abbrev main_v61 : Ref sig .tc := ⟨.hbm, 103, rfl⟩
abbrev main_cst_19 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_20 : Ref sig .tc := ⟨.hbm, 111, rfl⟩
abbrev main_v68 : Ref sig .tc := ⟨.hbm, 112, rfl⟩
abbrev main_v69 : Ref sig .tc := ⟨.hbm, 113, rfl⟩
abbrev main_cst_21 : Ref sig .tc := ⟨.hbm, 114, rfl⟩
abbrev main_v70 : Ref sig .tc := ⟨.hbm, 115, rfl⟩
abbrev main_cst_22 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_23 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_24 : Ref sig .tc := ⟨.hbm, 129, rfl⟩
abbrev main_v82 : Ref sig .tc := ⟨.hbm, 130, rfl⟩
abbrev main_v83 : Ref sig .tc := ⟨.hbm, 131, rfl⟩
abbrev main_cst_25 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_call4_v0 : Ref sig .tc := ⟨.hbm, 138, rfl⟩
abbrev main_call4_cst : Ref sig .tc := ⟨.hbm, 139, rfl⟩
abbrev main_call4_v1 : Ref sig .tc := ⟨.hbm, 140, rfl⟩
abbrev main_call4_v2 : Ref sig .tc := ⟨.hbm, 141, rfl⟩
abbrev main_v89 : Ref sig .tc := ⟨.hbm, 142, rfl⟩
abbrev main_cst_26 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_27 : Ref sig .tc := ⟨.hbm, 150, rfl⟩
abbrev main_v96 : Ref sig .tc := ⟨.hbm, 151, rfl⟩
abbrev main_v97 : Ref sig .tc := ⟨.hbm, 152, rfl⟩
abbrev main_cst_28 : Ref sig .tc := ⟨.hbm, 153, rfl⟩
abbrev main_v98 : Ref sig .tc := ⟨.hbm, 154, rfl⟩
abbrev main_cst_29 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_30 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_31 : Ref sig .tc := ⟨.hbm, 168, rfl⟩
abbrev main_v110 : Ref sig .tc := ⟨.hbm, 169, rfl⟩
abbrev main_v111 : Ref sig .tc := ⟨.hbm, 170, rfl⟩
abbrev main_cst_32 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_call5_v0 : Ref sig .tc := ⟨.hbm, 177, rfl⟩
abbrev main_call5_cst : Ref sig .tc := ⟨.hbm, 178, rfl⟩
abbrev main_call5_v1 : Ref sig .tc := ⟨.hbm, 179, rfl⟩
abbrev main_call5_v2 : Ref sig .tc := ⟨.hbm, 180, rfl⟩
abbrev main_v117 : Ref sig .tc := ⟨.hbm, 181, rfl⟩
abbrev main_cst_33 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_34 : Ref sig .tc := ⟨.hbm, 189, rfl⟩
abbrev main_v124 : Ref sig .tc := ⟨.hbm, 190, rfl⟩
abbrev main_v125 : Ref sig .tc := ⟨.hbm, 191, rfl⟩
abbrev main_cst_35 : Ref sig .tc := ⟨.hbm, 192, rfl⟩
abbrev main_v126 : Ref sig .tc := ⟨.hbm, 193, rfl⟩
abbrev main_cst_36 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_37 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_38 : Ref sig .tc := ⟨.hbm, 207, rfl⟩
abbrev main_v138 : Ref sig .tc := ⟨.hbm, 208, rfl⟩
abbrev main_v139 : Ref sig .tc := ⟨.hbm, 209, rfl⟩
abbrev main_cst_39 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  reducesTo_S2x512_S2_d1 : S2x512.ReducesTo [1] S2
  bcast_S2_S2x1_0 : S2.BroadcastsInDim S2x1 (![0] : Fin 1 → Fin S2x1.rank)
  bcast_S_S2x1 : S_.BroadcastsInDim S2x1 (![] : Fin 0 → Fin S2x1.rank)
  bcast_S2x1_S2x512_0_1 : S2x1.BroadcastsInDim S2x512 (![0, 1] : Fin 2 → Fin S2x512.rank)
  transposes_S2x512_S512x2_1_0 : S2x512.Transposes [1, 0] S512x2
  bcast_S_S32768x2 : S_.BroadcastsInDim S32768x2 (![] : Fin 0 → Fin S32768x2.rank)
  reducesTo_S32768x2_S32768_d1 : S32768x2.ReducesTo [1] S32768
  bcast_S_S32768 : S_.BroadcastsInDim S32768 (![] : Fin 0 → Fin S32768.rank)
  bcast_S32768x1_S32768x2_0_1 : S32768x1.BroadcastsInDim S32768x2 (![0, 1] : Fin 2 → Fin S32768x2.rank)
  reducesTo_S15x512_S15_d1 : S15x512.ReducesTo [1] S15
  bcast_S15_S15x1_0 : S15.BroadcastsInDim S15x1 (![0] : Fin 1 → Fin S15x1.rank)
  bcast_S_S15x1 : S_.BroadcastsInDim S15x1 (![] : Fin 0 → Fin S15x1.rank)
  bcast_S15x1_S15x512_0_1 : S15x1.BroadcastsInDim S15x512 (![0, 1] : Fin 2 → Fin S15x512.rank)
  transposes_S15x512_S512x15_1_0 : S15x512.Transposes [1, 0] S512x15
  bcast_S_S32768x15 : S_.BroadcastsInDim S32768x15 (![] : Fin 0 → Fin S32768x15.rank)
  reducesTo_S32768x15_S32768_d1 : S32768x15.ReducesTo [1] S32768
  bcast_S32768x1_S32768x15_0_1 : S32768x1.BroadcastsInDim S32768x15 (![0, 1] : Fin 2 → Fin S32768x15.rank)
  reducesTo_S40x512_S40_d1 : S40x512.ReducesTo [1] S40
  bcast_S40_S40x1_0 : S40.BroadcastsInDim S40x1 (![0] : Fin 1 → Fin S40x1.rank)
  bcast_S_S40x1 : S_.BroadcastsInDim S40x1 (![] : Fin 0 → Fin S40x1.rank)
  bcast_S40x1_S40x512_0_1 : S40x1.BroadcastsInDim S40x512 (![0, 1] : Fin 2 → Fin S40x512.rank)
  transposes_S40x512_S512x40_1_0 : S40x512.Transposes [1, 0] S512x40
  bcast_S_S32768x40 : S_.BroadcastsInDim S32768x40 (![] : Fin 0 → Fin S32768x40.rank)
  reducesTo_S32768x40_S32768_d1 : S32768x40.ReducesTo [1] S32768
  bcast_S32768x1_S32768x40_0_1 : S32768x1.BroadcastsInDim S32768x40 (![0, 1] : Fin 2 → Fin S32768x40.rank)
  reducesTo_S24x512_S24_d1 : S24x512.ReducesTo [1] S24
  bcast_S24_S24x1_0 : S24.BroadcastsInDim S24x1 (![0] : Fin 1 → Fin S24x1.rank)
  bcast_S_S24x1 : S_.BroadcastsInDim S24x1 (![] : Fin 0 → Fin S24x1.rank)
  bcast_S24x1_S24x512_0_1 : S24x1.BroadcastsInDim S24x512 (![0, 1] : Fin 2 → Fin S24x512.rank)
  transposes_S24x512_S512x24_1_0 : S24x512.Transposes [1, 0] S512x24
  bcast_S_S32768x24 : S_.BroadcastsInDim S32768x24 (![] : Fin 0 → Fin S32768x24.rank)
  reducesTo_S32768x24_S32768_d1 : S32768x24.ReducesTo [1] S32768
  bcast_S32768x1_S32768x24_0_1 : S32768x1.BroadcastsInDim S32768x24 (![0, 1] : Fin 2 → Fin S32768x24.rank)
  bcast_S32768x512_S32768x1x512_0_2 : S32768x512.BroadcastsInDim S32768x1x512 (![0, 2] : Fin 2 → Fin S32768x1x512.rank)
  concatenates_S32768x1x512_S32768x1x512_S32768x1x512_S32768x1x512_S32768x1x512_S32768x5x512_d1 : Shape.Concatenates [S32768x1x512, S32768x1x512, S32768x1x512, S32768x1x512, S32768x1x512] S32768x5x512 1
  dot_S32768x512_S512x2_S32768x2_1_0_0_1_n_n_wf : DotDims.WF S32768x512 S512x2 S32768x2 [1] [0] [0] [1] [] []
  dot_S32768x2_S2x2_S32768x2_1_0_0_1_n_n_wf : DotDims.WF S32768x2 S2x2 S32768x2 [1] [0] [0] [1] [] []
  dot_S32768x2_S2x512_S32768x512_1_0_0_1_n_n_wf : DotDims.WF S32768x2 S2x512 S32768x512 [1] [0] [0] [1] [] []
  dot_S32768x512_S512x15_S32768x15_1_0_0_1_n_n_wf : DotDims.WF S32768x512 S512x15 S32768x15 [1] [0] [0] [1] [] []
  dot_S32768x15_S15x15_S32768x15_1_0_0_1_n_n_wf : DotDims.WF S32768x15 S15x15 S32768x15 [1] [0] [0] [1] [] []
  dot_S32768x15_S15x512_S32768x512_1_0_0_1_n_n_wf : DotDims.WF S32768x15 S15x512 S32768x512 [1] [0] [0] [1] [] []
  dot_S32768x512_S512x40_S32768x40_1_0_0_1_n_n_wf : DotDims.WF S32768x512 S512x40 S32768x40 [1] [0] [0] [1] [] []
  dot_S32768x40_S40x40_S32768x40_1_0_0_1_n_n_wf : DotDims.WF S32768x40 S40x40 S32768x40 [1] [0] [0] [1] [] []
  dot_S32768x40_S40x512_S32768x512_1_0_0_1_n_n_wf : DotDims.WF S32768x40 S40x512 S32768x512 [1] [0] [0] [1] [] []
  dot_S32768x512_S512x24_S32768x24_1_0_0_1_n_n_wf : DotDims.WF S32768x512 S512x24 S32768x24 [1] [0] [0] [1] [] []
  dot_S32768x24_S24x24_S32768x24_1_0_0_1_n_n_wf : DotDims.WF S32768x24 S24x24 S32768x24 [1] [0] [0] [1] [] []
  dot_S32768x24_S24x512_S32768x512_1_0_0_1_n_n_wf : DotDims.WF S32768x24 S24x512 S32768x512 [1] [0] [0] [1] [] []

variable [Facts₀]

def dot_S32768x512_S512x2_S32768x2_1_0_0_1_n_n : DotDims S32768x512 S512x2 S32768x2 where
  lhsContracting := [1]
  rhsContracting := [0]
  lhsNonContracting := [0]
  rhsNonContracting := [1]
  lhsBatch := []
  rhsBatch := []
  wf := dot_S32768x512_S512x2_S32768x2_1_0_0_1_n_n_wf
def dot_S32768x2_S2x2_S32768x2_1_0_0_1_n_n : DotDims S32768x2 S2x2 S32768x2 where
  lhsContracting := [1]
  rhsContracting := [0]
  lhsNonContracting := [0]
  rhsNonContracting := [1]
  lhsBatch := []
  rhsBatch := []
  wf := dot_S32768x2_S2x2_S32768x2_1_0_0_1_n_n_wf
def dot_S32768x2_S2x512_S32768x512_1_0_0_1_n_n : DotDims S32768x2 S2x512 S32768x512 where
  lhsContracting := [1]
  rhsContracting := [0]
  lhsNonContracting := [0]
  rhsNonContracting := [1]
  lhsBatch := []
  rhsBatch := []
  wf := dot_S32768x2_S2x512_S32768x512_1_0_0_1_n_n_wf
def dot_S32768x512_S512x15_S32768x15_1_0_0_1_n_n : DotDims S32768x512 S512x15 S32768x15 where
  lhsContracting := [1]
  rhsContracting := [0]
  lhsNonContracting := [0]
  rhsNonContracting := [1]
  lhsBatch := []
  rhsBatch := []
  wf := dot_S32768x512_S512x15_S32768x15_1_0_0_1_n_n_wf
def dot_S32768x15_S15x15_S32768x15_1_0_0_1_n_n : DotDims S32768x15 S15x15 S32768x15 where
  lhsContracting := [1]
  rhsContracting := [0]
  lhsNonContracting := [0]
  rhsNonContracting := [1]
  lhsBatch := []
  rhsBatch := []
  wf := dot_S32768x15_S15x15_S32768x15_1_0_0_1_n_n_wf
def dot_S32768x15_S15x512_S32768x512_1_0_0_1_n_n : DotDims S32768x15 S15x512 S32768x512 where
  lhsContracting := [1]
  rhsContracting := [0]
  lhsNonContracting := [0]
  rhsNonContracting := [1]
  lhsBatch := []
  rhsBatch := []
  wf := dot_S32768x15_S15x512_S32768x512_1_0_0_1_n_n_wf
def dot_S32768x512_S512x40_S32768x40_1_0_0_1_n_n : DotDims S32768x512 S512x40 S32768x40 where
  lhsContracting := [1]
  rhsContracting := [0]
  lhsNonContracting := [0]
  rhsNonContracting := [1]
  lhsBatch := []
  rhsBatch := []
  wf := dot_S32768x512_S512x40_S32768x40_1_0_0_1_n_n_wf
def dot_S32768x40_S40x40_S32768x40_1_0_0_1_n_n : DotDims S32768x40 S40x40 S32768x40 where
  lhsContracting := [1]
  rhsContracting := [0]
  lhsNonContracting := [0]
  rhsNonContracting := [1]
  lhsBatch := []
  rhsBatch := []
  wf := dot_S32768x40_S40x40_S32768x40_1_0_0_1_n_n_wf
def dot_S32768x40_S40x512_S32768x512_1_0_0_1_n_n : DotDims S32768x40 S40x512 S32768x512 where
  lhsContracting := [1]
  rhsContracting := [0]
  lhsNonContracting := [0]
  rhsNonContracting := [1]
  lhsBatch := []
  rhsBatch := []
  wf := dot_S32768x40_S40x512_S32768x512_1_0_0_1_n_n_wf
def dot_S32768x512_S512x24_S32768x24_1_0_0_1_n_n : DotDims S32768x512 S512x24 S32768x24 where
  lhsContracting := [1]
  rhsContracting := [0]
  lhsNonContracting := [0]
  rhsNonContracting := [1]
  lhsBatch := []
  rhsBatch := []
  wf := dot_S32768x512_S512x24_S32768x24_1_0_0_1_n_n_wf
def dot_S32768x24_S24x24_S32768x24_1_0_0_1_n_n : DotDims S32768x24 S24x24 S32768x24 where
  lhsContracting := [1]
  rhsContracting := [0]
  lhsNonContracting := [0]
  rhsNonContracting := [1]
  lhsBatch := []
  rhsBatch := []
  wf := dot_S32768x24_S24x24_S32768x24_1_0_0_1_n_n_wf
def dot_S32768x24_S24x512_S32768x512_1_0_0_1_n_n : DotDims S32768x24 S24x512 S32768x512 where
  lhsContracting := [1]
  rhsContracting := [0]
  lhsNonContracting := [0]
  rhsNonContracting := [1]
  lhsBatch := []
  rhsBatch := []
  wf := dot_S32768x24_S24x512_S32768x512_1_0_0_1_n_n_wf

class Facts : Prop extends Facts₀ where

variable [Facts]
-- ==== Proof.RowSpec.lean ====
/-
  What both programs compute, as one function of the argument arrays.

  For a feature matrix x (one feature row per example), a prototype matrix P (one row per prototype) and a square
  affinity matrix A over the prototypes, every example is treated on its own. Its feature row and every prototype row are
  scaled to unit length (the divisor is the Euclidean norm plus a small constant); the scaled inner products of the example
  with the prototypes, divided by a temperature, are turned into weights by the exponential of their difference with their
  largest, normalised to sum to one; the weights are mixed through the affinity matrix and normalised again by their sum
  plus the small constant; and the result is that mixture of the prototype rows. Five prototype families give five such
  rows per example, stacked along a middle axis.

  The function is written twice: as a composition of whole-array stages (sum or maximum along each row kept as one column,
  a column spread along the rows, entrywise operations, matrix products), which is the form each program's operations are
  rewritten into, and one row at a time, which shows that a row of the result depends on the same row of x only. That is
  what lets a band of rows be computed on its own.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-- An M by N array of extended reals. -/
abbrev Mat (M N : ℕ) : Type := FVec Ideal ⟨2, ![M, N]⟩ .f32

/-- The small constant added to a norm or to a sum before dividing by it. -/
def eps : EReal := Ideal.ofBits .f32 0x358637BD#32
/-- The temperature the inner products are divided by. -/
def tau : EReal := Ideal.ofBits .f32 0x3D8F5C29#32
/-- The value a running maximum starts from. -/
def ninf : EReal := Ideal.ofBits .f32 0xFF800000#32

/-! ## Whole-array stages -/

/-- Each row's sum, as one column. -/
def colSum {M N : ℕ} (v : Mat M N) : Mat M 1 := fun i => ∑ k : Fin N, v (ix2 (n0 := M) (i 0) k)
/-- Each row's maximum, taken from `ninf`, as one column. -/
def colMax {M N : ℕ} (v : Mat M N) : Mat M 1 :=
  fun i => (Finset.univ : Finset (Fin N)).fold max ninf (fun k => v (ix2 (n0 := M) (i 0) k))
/-- A column repeated along the rows. -/
def spread {M : ℕ} (N : ℕ) (c : Mat M 1) : Mat M N := fun i => c (ix2 (n0 := M) (n1 := 1) (i 0) (0 : Fin 1))
/-- One value everywhere. -/
def splat (M N : ℕ) (a : EReal) : Mat M N := fun _ => a
/-- Rows and columns exchanged. -/
def tr {M N : ℕ} (v : Mat M N) : Mat N M := fun i => v (ix2 (n0 := M) (n1 := N) (i 1) (i 0))
/-- Entry (p, q) of the product: the sum over k of x (p, k) · w (k, q). -/
def matProd {M K N : ℕ} (x : Mat M K) (w : Mat K N) : Mat M N :=
  fun i => ∑ k : Fin K, x (ix2 (n0 := M) (i 0) k) * w (ix2 (n1 := N) k (i 1))

/-- Every row divided by its Euclidean norm plus `eps`. -/
def unitize {M D : ℕ} (x : Mat M D) : Mat M D :=
  divf x (spread D (addf (sqrt (colSum (mulf x x))) (splat M 1 eps)))
/-- The inner products of the rows of xn with the rows of pn, divided by the temperature. -/
def logits {M K D : ℕ} (xn : Mat M D) (pn : Mat K D) : Mat M K := divf (matProd xn (tr pn)) (splat M K tau)
/-- The exponentials of each row's differences with its maximum. -/
def expShift {M K : ℕ} (l : Mat M K) : Mat M K := exp (subf l (spread K (colMax l)))
/-- Each row's weights: those exponentials divided by their sum. -/
def softmax {M K : ℕ} (l : Mat M K) : Mat M K := divf (expShift l) (spread K (colSum (expShift l)))
/-- Each row divided by its sum plus `eps`. -/
def renorm {M K : ℕ} (q : Mat M K) : Mat M K := divf q (spread K (addf (colSum q) (splat M 1 eps)))
/-- One prototype family applied to rows already scaled to unit length. -/
def groupFrom {M K D : ℕ} (xn : Mat M D) (P : Mat K D) (A : Mat K K) : Mat M D :=
  matProd (renorm (matProd (softmax (logits xn (unitize P))) A)) P
/-- One prototype family applied to the feature rows. -/
def group {M K D : ℕ} (x : Mat M D) (P : Mat K D) (A : Mat K K) : Mat M D := groupFrom (unitize x) P A

/-- The g-th of five. -/
def pick5 {α : Type} (g : ℕ) (a0 a1 a2 a3 a4 : α) : α :=
  if g = 0 then a0 else if g = 1 then a1 else if g = 2 then a2 else if g = 3 then a3 else a4

/-- Five M by D arrays stacked along a middle axis. -/
def stack5 {M D : ℕ} (G0 G1 G2 G3 G4 : Mat M D) : FVec Ideal ⟨3, ![M, 5, D]⟩ .f32 :=
  fun i => pick5 (i 1).val G0 G1 G2 G3 G4 (ix2 (n0 := M) (n1 := D) (i 0) (i 2))

/-- The whole result: the five families' outputs stacked. -/
def out5 {M D K0 K1 K2 K3 K4 : ℕ} (x : Mat M D) (P0 : Mat K0 D) (P1 : Mat K1 D) (P2 : Mat K2 D) (P3 : Mat K3 D) (P4 : Mat K4 D)
    (A0 : Mat K0 K0) (A1 : Mat K1 K1) (A2 : Mat K2 K2) (A3 : Mat K3 K3) (A4 : Mat K4 K4) : FVec Ideal ⟨3, ![M, 5, D]⟩ .f32 :=
  stack5 (group x P0 A0) (group x P1 A1) (group x P2 A2) (group x P3 A3) (group x P4 A4)

/-! ## One row at a time -/

/-- Row p of an array. -/
def row {M N : ℕ} (x : Mat M N) (p : Fin M) : Fin N → EReal := fun k => x (ix2 p k)

/-- A row divided by its Euclidean norm plus `eps`. -/
def unitRow {D : ℕ} (r : Fin D → EReal) : Fin D → EReal :=
  fun d => Ideal.div (r d) (Ideal.sqrt (∑ k : Fin D, r k * r k) + eps)
/-- A row's inner products with the rows of pn, divided by the temperature. -/
def logitRow {K D : ℕ} (pn : Mat K D) (r : Fin D → EReal) : Fin K → EReal :=
  fun k => Ideal.div (∑ d : Fin D, r d * pn (ix2 k d)) tau
/-- The exponentials of a row's differences with its maximum. -/
def expShiftRow {K : ℕ} (l : Fin K → EReal) : Fin K → EReal :=
  fun k => Ideal.exp (l k - (Finset.univ : Finset (Fin K)).fold max ninf l)
/-- A row's weights. -/
def softRow {K : ℕ} (l : Fin K → EReal) : Fin K → EReal :=
  fun k => Ideal.div (expShiftRow l k) (∑ j : Fin K, expShiftRow l j)
/-- A row mixed through a matrix. -/
def mixRow {K N : ℕ} (w : Mat K N) (q : Fin K → EReal) : Fin N → EReal := fun j => ∑ k : Fin K, q k * w (ix2 k j)
/-- A row divided by its sum plus `eps`. -/
def renormRow {K : ℕ} (q : Fin K → EReal) : Fin K → EReal := fun j => Ideal.div (q j) (∑ k : Fin K, q k + eps)
/-- One prototype family applied to one row already scaled to unit length. -/
def groupFromRow {K D : ℕ} (P : Mat K D) (A : Mat K K) (r : Fin D → EReal) : Fin D → EReal :=
  mixRow P (renormRow (mixRow A (softRow (logitRow (unitize P) r))))
/-- One prototype family applied to one feature row. -/
def groupRow {K D : ℕ} (P : Mat K D) (A : Mat K K) (r : Fin D → EReal) : Fin D → EReal := groupFromRow P A (unitRow r)

theorem row_unitize {M D : ℕ} (x : Mat M D) (p : Fin M) : row (unitize x) p = unitRow (row x p) := rfl
theorem row_logits {M K D : ℕ} (xn : Mat M D) (pn : Mat K D) (p : Fin M) : row (logits xn pn) p = logitRow pn (row xn p) := rfl
theorem row_expShift {M K : ℕ} (l : Mat M K) (p : Fin M) : row (expShift l) p = expShiftRow (row l p) := rfl
theorem row_softmax {M K : ℕ} (l : Mat M K) (p : Fin M) : row (softmax l) p = softRow (row l p) := rfl
theorem row_matProd {M K N : ℕ} (q : Mat M K) (w : Mat K N) (p : Fin M) : row (matProd q w) p = mixRow w (row q p) := rfl
theorem row_renorm {M K : ℕ} (q : Mat M K) (p : Fin M) : row (renorm q) p = renormRow (row q p) := rfl

/-- A row of a family's output is the row function of the same row of the scaled features. -/
theorem row_groupFrom {M K D : ℕ} (xn : Mat M D) (P : Mat K D) (A : Mat K K) (p : Fin M) :
    row (groupFrom xn P A) p = groupFromRow P A (row xn p) := by
  unfold groupFrom groupFromRow
  rw [row_matProd, row_renorm, row_matProd, row_softmax, row_logits]

/-- A row of a family's output is the row function of the same feature row. -/
theorem row_group {M K D : ℕ} (x : Mat M D) (P : Mat K D) (A : Mat K K) (p : Fin M) :
    row (group x P A) p = groupRow P A (row x p) := by
  unfold group groupRow
  rw [row_groupFrom, row_unitize]

/-- Two arrays with a common row give the same output row: a band of examples can be treated on its own. -/
theorem group_apply_of_row {M M' K D : ℕ} (x : Mat M D) (X : Mat M' D) (P : Mat K D) (A : Mat K K) (p : Fin M) (p' : Fin M')
    (h : row x p = row X p') (d : Fin D) : group x P A (ix2 p d) = group X P A (ix2 p' d) := by
  have e := row_group x P A p
  have e' := row_group X P A p'
  rw [h] at e
  exact congrFun (e.trans e'.symm) d

end Cert.RowSpec

end
-- ==== Proof.KernelBlocks.lean ====
/-
  The kernel's blocks. Each of the sixteen grid points reads 2048 consecutive rows of the feature matrix and the whole of
  every prototype and affinity matrix, and writes the same 2048 rows of a 2560-column array whose five bands of 512
  columns hold the five families' outputs. The affinity matrices are constants the program writes before the launch.
-/
import proofs.«174165_j62843961475556_2_alg».proof.Proof.Gen.KernelIdeal.Frame
import proofs.«174165_j62843961475556_2_alg».proof.Proof.RowSpec
import Idealize.ShloMosaic.Lib.Pipeline.Value
import Idealize.ShloMosaic.Lib.StableHlo.Run

noncomputable section

namespace Cert.KernelBlocks

open Cert.KernelIdeal Cert.KernelIdeal.Gen Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

/-! ## The affinity matrices -/

/-- The affinity matrix of the first family, as the program writes it. -/
def aff0 : FVec Ideal S2x2 .f32 := fun i => FloatOps.ofBits .f32 (lit0 (S2x2.rowMajor i))
/-- The affinity matrix of the second family. -/
def aff1 : FVec Ideal S15x15 .f32 := fun i => FloatOps.ofBits .f32 (lit1 (S15x15.rowMajor i))
/-- The affinity matrix of the third family. -/
def aff2 : FVec Ideal S40x40 .f32 := fun i => FloatOps.ofBits .f32 (lit2 (S40x40.rowMajor i))
/-- The affinity matrix of the fourth family. -/
def aff3 : FVec Ideal S40x40 .f32 := fun i => FloatOps.ofBits .f32 (lit3 (S40x40.rowMajor i))
/-- The affinity matrix of the fifth family. -/
def aff4 : FVec Ideal S24x24 .f32 := fun i => FloatOps.ofBits .f32 (lit4 (S24x24.rowMajor i))

/-- When the launch begins the first constant's buffer holds the first affinity matrix. -/
theorem V_cst (c : Dev nD) : (V m c main_cst : S2x2.Idx → EReal) = aff0 := by
  show StableHlo.after hostOps0 (fun b => m (c, b)) (Proc.devRef .tc main_cst) = _
  after_results
  rfl
/-- The second constant's buffer holds the second affinity matrix. -/
theorem V_cst_0 (c : Dev nD) : (V m c main_cst_0 : S15x15.Idx → EReal) = aff1 := by
  show StableHlo.after hostOps0 (fun b => m (c, b)) (Proc.devRef .tc main_cst_0) = _
  after_results
  rfl
/-- The third constant's buffer holds the third affinity matrix. -/
theorem V_cst_1 (c : Dev nD) : (V m c main_cst_1 : S40x40.Idx → EReal) = aff2 := by
  show StableHlo.after hostOps0 (fun b => m (c, b)) (Proc.devRef .tc main_cst_1) = _
  after_results
  rfl
/-- The fourth constant's buffer holds the fourth affinity matrix. -/
theorem V_cst_2 (c : Dev nD) : (V m c main_cst_2 : S40x40.Idx → EReal) = aff3 := by
  show StableHlo.after hostOps0 (fun b => m (c, b)) (Proc.devRef .tc main_cst_2) = _
  after_results
  rfl
/-- The fifth constant's buffer holds the fifth affinity matrix. -/
theorem V_cst_3 (c : Dev nD) : (V m c main_cst_3 : S24x24.Idx → EReal) = aff4 := by
  show StableHlo.after hostOps0 (fun b => m (c, b)) (Proc.devRef .tc main_cst_3) = _
  after_results
  rfl

/-! ## Where each window's block sits

The feature window and the output window sit at block row t, block column 0; every other window stays at (0, 0). Each
fact is decided over the sixteen points. -/

theorem at0 : ∀ t : Fin cfg0.N, win0_0.index t (0 : Fin 2) = t.val ∧ win0_0.index t (1 : Fin 2) = 0 :=
  (by decide +kernel : ∀ t : Fin grid0.N, _)
theorem at11 : ∀ t : Fin cfg0.N, win0_11.index t (0 : Fin 2) = t.val ∧ win0_11.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)
theorem at10 : ∀ t : Fin cfg0.N, win0_10.index t (0 : Fin 2) = 0 ∧ win0_10.index t (1 : Fin 2) = 0 :=
  (by decide +kernel : ∀ t : Fin grid0.N, _)

/-! ## The blocks read off the arrays

A block's index is its window's block index times the block's extent plus the index inside the block, axis by axis. -/

/-- Row p of the feature block at point t is row 2048·t + p of the feature matrix. -/
theorem xblk_row (c : Dev nD) (t : Fin cfg0.N) (p : Fin 2048) (hp : t.val * 2048 + p.val < 32768) :
    row (iblk m c 0 t : Mat 2048 512) p = row (V m c main_arg0 : Mat 32768 512) ⟨t.val * 2048 + p.val, hp⟩ := by
  obtain ⟨e0, e1⟩ := at0 t
  funext k
  show V m c main_arg0 (((cfg0.win 0).blk t).view.emb (ix2 p k)) = V m c main_arg0 (ix2 (⟨t.val * 2048 + p.val, hp⟩ : Fin 32768) k)
  have h : ((cfg0.win 0).blk t).view.emb (ix2 p k) = ix2 (⟨t.val * 2048 + p.val, hp⟩ : Fin 32768) k := by
    funext a; apply Fin.ext
    match a with
    | ⟨0, _⟩ => show win0_0.index t (0 : Fin 2) * 2048 + 1 * p.val = t.val * 2048 + p.val; omega
    | ⟨1, _⟩ => show win0_0.index t (1 : Fin 2) * 512 + 1 * k.val = k.val; omega
  rw [h]

/-- The first family's prototype block is the whole prototype matrix. -/
theorem blk1 (c : Dev nD) (t : Fin cfg0.N) : (iblk m c 1 t : S2x512.Idx → EReal) = (V m c main_arg1 : S2x512.Idx → EReal) := by
  obtain ⟨e0, e1⟩ := at1 t
  funext j
  show V m c main_arg1 (((cfg0.win 1).blk t).view.emb j) = V m c main_arg1 j
  have h : ((cfg0.win 1).blk t).view.emb j = j := by
    funext a; apply Fin.ext
    match a with
    | ⟨0, _⟩ => show win0_1.index t (0 : Fin 2) * 2 + 1 * (j 0).val = (j 0).val; omega
    | ⟨1, _⟩ => show win0_1.index t (1 : Fin 2) * 512 + 1 * (j 1).val = (j 1).val; omega
  rw [h]

/-- The second family's prototype block is the whole prototype matrix. -/
theorem blk2 (c : Dev nD) (t : Fin cfg0.N) : (iblk m c 2 t : S15x512.Idx → EReal) = (V m c main_arg2 : S15x512.Idx → EReal) := by
  obtain ⟨e0, e1⟩ := at2 t
  funext j
  show V m c main_arg2 (((cfg0.win 2).blk t).view.emb j) = V m c main_arg2 j
  have h : ((cfg0.win 2).blk t).view.emb j = j := by
    funext a; apply Fin.ext
    match a with
    | ⟨0, _⟩ => show win0_2.index t (0 : Fin 2) * 15 + 1 * (j 0).val = (j 0).val; omega
    | ⟨1, _⟩ => show win0_2.index t (1 : Fin 2) * 512 + 1 * (j 1).val = (j 1).val; omega
  rw [h]

/-- The third family's prototype block is the whole prototype matrix. -/
theorem blk3 (c : Dev nD) (t : Fin cfg0.N) : (iblk m c 3 t : S40x512.Idx → EReal) = (V m c main_arg3 : S40x512.Idx → EReal) := by
  obtain ⟨e0, e1⟩ := at3 t
  funext j
  show V m c main_arg3 (((cfg0.win 3).blk t).view.emb j) = V m c main_arg3 j
  have h : ((cfg0.win 3).blk t).view.emb j = j := by
    funext a; apply Fin.ext
    match a with
    | ⟨0, _⟩ => show win0_3.index t (0 : Fin 2) * 40 + 1 * (j 0).val = (j 0).val; omega
    | ⟨1, _⟩ => show win0_3.index t (1 : Fin 2) * 512 + 1 * (j 1).val = (j 1).val; omega
  rw [h]

/-- The fourth family's prototype block is the whole prototype matrix. -/
theorem blk4 (c : Dev nD) (t : Fin cfg0.N) : (iblk m c 4 t : S40x512.Idx → EReal) = (V m c main_arg4 : S40x512.Idx → EReal) := by
  obtain ⟨e0, e1⟩ := at4 t
  funext j
  show V m c main_arg4 (((cfg0.win 4).blk t).view.emb j) = V m c main_arg4 j
  have h : ((cfg0.win 4).blk t).view.emb j = j := by
    funext a; apply Fin.ext
    match a with
    | ⟨0, _⟩ => show win0_4.index t (0 : Fin 2) * 40 + 1 * (j 0).val = (j 0).val; omega
    | ⟨1, _⟩ => show win0_4.index t (1 : Fin 2) * 512 + 1 * (j 1).val = (j 1).val; omega
  rw [h]

/-- The fifth family's prototype block is the whole prototype matrix. -/
theorem blk5 (c : Dev nD) (t : Fin cfg0.N) : (iblk m c 5 t : S24x512.Idx → EReal) = (V m c main_arg5 : S24x512.Idx → EReal) := by
  obtain ⟨e0, e1⟩ := at5 t
  funext j
  show V m c main_arg5 (((cfg0.win 5).blk t).view.emb j) = V m c main_arg5 j
  have h : ((cfg0.win 5).blk t).view.emb j = j := by
    funext a; apply Fin.ext
    match a with
    | ⟨0, _⟩ => show win0_5.index t (0 : Fin 2) * 24 + 1 * (j 0).val = (j 0).val; omega
    | ⟨1, _⟩ => show win0_5.index t (1 : Fin 2) * 512 + 1 * (j 1).val = (j 1).val; omega
  rw [h]

/-- The first family's affinity block is the whole affinity matrix. -/
theorem blk6 (c : Dev nD) (t : Fin cfg0.N) : (iblk m c 6 t : S2x2.Idx → EReal) = (V m c main_cst : S2x2.Idx → EReal) := by
  obtain ⟨e0, e1⟩ := at6 t
  funext j
  show V m c main_cst (((cfg0.win 6).blk t).view.emb j) = V m c main_cst j
  have h : ((cfg0.win 6).blk t).view.emb j = j := by
    funext a; apply Fin.ext
    match a with
    | ⟨0, _⟩ => show win0_6.index t (0 : Fin 2) * 2 + 1 * (j 0).val = (j 0).val; omega
    | ⟨1, _⟩ => show win0_6.index t (1 : Fin 2) * 2 + 1 * (j 1).val = (j 1).val; omega
  rw [h]

/-- The second family's affinity block is the whole affinity matrix. -/
theorem blk7 (c : Dev nD) (t : Fin cfg0.N) : (iblk m c 7 t : S15x15.Idx → EReal) = (V m c main_cst_0 : S15x15.Idx → EReal) := by
  obtain ⟨e0, e1⟩ := at7 t
  funext j
  show V m c main_cst_0 (((cfg0.win 7).blk t).view.emb j) = V m c main_cst_0 j
  have h : ((cfg0.win 7).blk t).view.emb j = j := by
    funext a; apply Fin.ext
    match a with
    | ⟨0, _⟩ => show win0_7.index t (0 : Fin 2) * 15 + 1 * (j 0).val = (j 0).val; omega
    | ⟨1, _⟩ => show win0_7.index t (1 : Fin 2) * 15 + 1 * (j 1).val = (j 1).val; omega
  rw [h]

/-- The third family's affinity block is the whole affinity matrix. -/
theorem blk8 (c : Dev nD) (t : Fin cfg0.N) : (iblk m c 8 t : S40x40.Idx → EReal) = (V m c main_cst_1 : S40x40.Idx → EReal) := by
  obtain ⟨e0, e1⟩ := at8 t
  funext j
  show V m c main_cst_1 (((cfg0.win 8).blk t).view.emb j) = V m c main_cst_1 j
  have h : ((cfg0.win 8).blk t).view.emb j = j := by
    funext a; apply Fin.ext
    match a with
    | ⟨0, _⟩ => show win0_8.index t (0 : Fin 2) * 40 + 1 * (j 0).val = (j 0).val; omega
    | ⟨1, _⟩ => show win0_8.index t (1 : Fin 2) * 40 + 1 * (j 1).val = (j 1).val; omega
  rw [h]

/-- The fourth family's affinity block is the whole affinity matrix. -/
theorem blk9 (c : Dev nD) (t : Fin cfg0.N) : (iblk m c 9 t : S40x40.Idx → EReal) = (V m c main_cst_2 : S40x40.Idx → EReal) := by
  obtain ⟨e0, e1⟩ := at9 t
  funext j
  show V m c main_cst_2 (((cfg0.win 9).blk t).view.emb j) = V m c main_cst_2 j
  have h : ((cfg0.win 9).blk t).view.emb j = j := by
    funext a; apply Fin.ext
    match a with
    | ⟨0, _⟩ => show win0_9.index t (0 : Fin 2) * 40 + 1 * (j 0).val = (j 0).val; omega
    | ⟨1, _⟩ => show win0_9.index t (1 : Fin 2) * 40 + 1 * (j 1).val = (j 1).val; omega
  rw [h]

/-- The fifth family's affinity block is the whole affinity matrix. -/
theorem blk10 (c : Dev nD) (t : Fin cfg0.N) : (iblk m c 10 t : S24x24.Idx → EReal) = (V m c main_cst_3 : S24x24.Idx → EReal) := by
  obtain ⟨e0, e1⟩ := at10 t
  funext j
  show V m c main_cst_3 (((cfg0.win 10).blk t).view.emb j) = V m c main_cst_3 j
  have h : ((cfg0.win 10).blk t).view.emb j = j := by
    funext a; apply Fin.ext
    match a with
    | ⟨0, _⟩ => show win0_10.index t (0 : Fin 2) * 24 + 1 * (j 0).val = (j 0).val; omega
    | ⟨1, _⟩ => show win0_10.index t (1 : Fin 2) * 24 + 1 * (j 1).val = (j 1).val; omega
  rw [h]

end Cert.KernelBlocks

end
-- ==== Proof.KStages.lean ====
/-
  The non-pointwise operations of a vector unit, read at the exact extended reals, as whole-array equations into the
  stages of the row specification. A sum (or a maximum) along the rows followed by the cast that keeps the reduced axis as
  a unit axis is the column of row sums (of row maxima); a column broadcast along the rows is that column repeated; a
  broadcast scalar is one value everywhere; a transpose exchanges the two coordinates; and a matrix unit's product into an
  accumulator of zeros, contracting the left operand's second axis with the right operand's first, is the matrix product.
  Every lemma holds for all extents. The layout readings of a column and the re-indexing of a one-axis contraction are
  proved first.
-/
import proofs.«174165_j62843961475556_2_alg».proof.Proof.RowSpec
import Idealize.ShloMosaic.Lib.Pipeline.Value
import Idealize.ShloMosaic.Lib.ValueLayout

noncomputable section

namespace Cert.KStages

open Idealize.ShloMosaic Idealize.ShloMosaic.ValueIdx Cert.RowSpec

/-! ## Layout of a column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of the source that a row's reduced entry reads at coordinate `k` of the reduced axis. -/
theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## A row reduction that keeps its axis -/

/-- The sum along each row, kept as one column. -/
theorem colSum_eq {M N : ℕ} (v : FVec Ideal ⟨2, ![M, N]⟩ .f32)
    (h : (⟨2, ![M, N]⟩ : Shape).Reduces [1] (⟨1, ![M]⟩ : Shape)) (hc : (⟨1, ![M]⟩ : Shape).ShapeCasts ⟨2, ![M, 1]⟩) :
    shapeCast ⟨2, ![M, 1]⟩ (multiReduction (F := Ideal) .add [1] ⟨1, ![M]⟩ v 0x00000000#32 h (.inl rfl) rfl) hc = colSum v := by
  funext j
  obtain ⟨p, u, rfl⟩ : ∃ (p : Fin M) (u : Fin 1), j = ix2 p u := ⟨j 0, j 1, eq_ix2 j⟩
  refine (shapeCast_a_a1_apply _ hc p u).trans ?_
  refine (Ideal.multiReduction_add_single v _ h _ _ (ix1 p)).trans ?_
  exact Finset.sum_congr rfl fun k _ => congrArg v (lift_last2 h p k)

/-- The maximum along each row, taken from minus infinity, kept as one column. -/
theorem colMax_eq {M N : ℕ} (v : FVec Ideal ⟨2, ![M, N]⟩ .f32)
    (h : (⟨2, ![M, N]⟩ : Shape).Reduces [1] (⟨1, ![M]⟩ : Shape)) (hc : (⟨1, ![M]⟩ : Shape).ShapeCasts ⟨2, ![M, 1]⟩) :
    shapeCast ⟨2, ![M, 1]⟩ (multiReduction (F := Ideal) .maximumf [1] ⟨1, ![M]⟩ v 0xFF800000#32 h (.inl rfl) rfl) hc = colMax v := by
  funext j
  obtain ⟨p, u, rfl⟩ : ∃ (p : Fin M) (u : Fin 1), j = ix2 p u := ⟨j 0, j 1, eq_ix2 j⟩
  refine (shapeCast_a_a1_apply _ hc p u).trans ?_
  refine (Ideal.multiReduction_maximumf_single v _ h _ _ (ix1 p)).trans ?_
  have hf : (v ∘ h.lift (ix1 p)) = fun k : Fin N => v (ix2 p k) := funext fun k => congrArg v (lift_last2 h p k)
  exact congrArg (fun f => Finset.fold max (Ideal.ofBits .f32 0xFF800000#32) f (Finset.univ : Finset (Fin N))) hf

/-! ## Broadcasts -/

/-- A column broadcast along the rows is the column repeated. -/
theorem spread_eq {M N : ℕ} (c : FVec Ideal ⟨2, ![M, 1]⟩ .f32) (hb : (⟨2, ![M, 1]⟩ : Shape).Broadcasts ⟨2, ![M, N]⟩) :
    broadcastTo ⟨2, ![M, N]⟩ c hb = spread N c := by
  funext j
  obtain ⟨p, q, rfl⟩ : ∃ (p : Fin M) (q : Fin N), j = ix2 p q := ⟨j 0, j 1, eq_ix2 j⟩
  exact broadcastTo_a1_ab_apply c hb p q

/-- A broadcast scalar constant is its value everywhere. -/
theorem splat_eq {M N : ℕ} (w : BitVec FTy.f32.bits) :
    broadcast ⟨2, ![M, N]⟩ (Scalar.ofBits (F := Ideal) .f32 w) = splat M N (Ideal.ofBits .f32 w) := rfl

/-! ## Transpose -/

/-- A transposed matrix has its rows and columns exchanged. -/
theorem tr_eq {M N : ℕ} (v : FVec Ideal ⟨2, ![M, N]⟩ .f32) (ht : (⟨2, ![M, N]⟩ : Shape).Transposes [1, 0] ⟨2, ![N, M]⟩) :
    transpose ⟨2, ![N, M]⟩ [1, 0] v ht = tr v := by
  funext j
  obtain ⟨q, p, rfl⟩ : ∃ (q : Fin N) (p : Fin M), j = ix2 q p := ⟨j 0, j 1, eq_ix2 j⟩
  exact transpose_ix2_apply v ht q p

/-! ## The matrix unit's product -/

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product into an accumulator of zeros is the matrix product: the zeros add nothing. -/
theorem matProd_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    matmul d none x w (constant (F := Ideal) ⟨2, ![M, N]⟩ .f32 0x00000000#32) = matProd x w := by
  funext j
  obtain ⟨p, q, rfl⟩ : ∃ (p : Fin M) (q : Fin N), j = ix2 p q := ⟨j 0, j 1, eq_ix2 j⟩
  refine (Ideal.matmul_constant_zero_apply d none x w (ix2 p q)).trans ?_
  exact plain_sum d h1 h2 h3 h4 h5 h6 x w p q

end Cert.KStages

end
-- ==== Proof.KGroups.lean ====
/-
  The vector unit's arithmetic for each of the five prototype families, rewritten into the row specification. Each
  stored value of the kernel body is a straight line of operations; its sums and maxima along rows, column broadcasts,
  constants, transposes and matrix products are the specification's stages (the lemmas of the module on stages), and the
  pointwise operations in between are the same functions on both sides, so once the stages are named the two sides are the
  same expression. The feature rows are scaled to unit length once and shared by the five families; for three of the
  families the line is cut in two pieces, which are put together again here.
-/
import proofs.«174165_j62843961475556_2_alg».proof.Proof.KStages
import proofs.«174165_j62843961475556_2_alg».proof.Proof.Gen.KernelIdeal.Skeleton

noncomputable section

namespace Cert.KGroups

open Idealize.ShloMosaic Idealize.ShloMosaic.ValueIdx Cert.KernelIdeal Cert.KernelIdeal.Gen Cert.RowSpec Cert.KStages

/-- The feature rows scaled to unit length. -/
theorem pay2_eq (x : FVec Ideal S2048x512 .f32) : k0_pay2 (F := Ideal) x = unitize x := by
  unfold k0_pay2
  simp only [spread_eq, splat_eq]
  rw [colSum_eq]
  rfl

/-- The first family (2 prototypes), from the feature rows. -/
theorem pay3_eq (x : FVec Ideal S2048x512 .f32) (P : FVec Ideal S2x512 .f32) (A : FVec Ideal S2x2 .f32) :
    k0_pay3 (F := Ideal) x P A = group x P A := by
  unfold k0_pay3
  rw [pay2_eq]
  simp only [spread_eq, splat_eq,
    matProd_eq dot_S2048x512_S512x2_S2048x2_1_0_0_1_n_n rfl rfl rfl rfl rfl rfl,
    matProd_eq dot_S2048x2_S2x2_S2048x2_1_0_0_1_n_n rfl rfl rfl rfl rfl rfl,
    matProd_eq dot_S2048x2_S2x512_S2048x512_1_0_0_1_n_n rfl rfl rfl rfl rfl rfl]
  repeat rw [colSum_eq]
  repeat rw [colMax_eq]
  repeat rw [tr_eq]
  unfold group groupFrom renorm softmax expShift logits
  rfl

/-- The second family (15 prototypes), from the scaled rows. -/
theorem pay4_eq (xn : FVec Ideal S2048x512 .f32) (P : FVec Ideal S15x512 .f32) (A : FVec Ideal S15x15 .f32) :
    k0_pay4 (F := Ideal) xn P A = groupFrom xn P A := by
  unfold k0_pay4
  simp only [spread_eq, splat_eq,
    matProd_eq dot_S2048x512_S512x15_S2048x15_1_0_0_1_n_n rfl rfl rfl rfl rfl rfl,
    matProd_eq dot_S2048x15_S15x15_S2048x15_1_0_0_1_n_n rfl rfl rfl rfl rfl rfl,
    matProd_eq dot_S2048x15_S15x512_S2048x512_1_0_0_1_n_n rfl rfl rfl rfl rfl rfl]
  repeat rw [colSum_eq]
  repeat rw [colMax_eq]
  repeat rw [tr_eq]
  unfold groupFrom renorm softmax expShift logits
  rfl

/-- The third family (40 prototypes): the prototypes' norms are computed in one piece and used in the next. -/
theorem pay6_eq (xn : FVec Ideal S2048x512 .f32) (P : FVec Ideal S40x512 .f32) (A : FVec Ideal S40x40 .f32) :
    k0_pay6 (F := Ideal) xn P (k0_pay5 (F := Ideal) P) A = groupFrom xn P A := by
  unfold k0_pay6 k0_pay5
  simp only [spread_eq, splat_eq,
    matProd_eq dot_S2048x512_S512x40_S2048x40_1_0_0_1_n_n rfl rfl rfl rfl rfl rfl,
    matProd_eq dot_S2048x40_S40x40_S2048x40_1_0_0_1_n_n rfl rfl rfl rfl rfl rfl,
    matProd_eq dot_S2048x40_S40x512_S2048x512_1_0_0_1_n_n rfl rfl rfl rfl rfl rfl]
  repeat rw [colSum_eq]
  repeat rw [colMax_eq]
  repeat rw [tr_eq]
  unfold groupFrom renorm softmax expShift logits
  rfl

/-- The fourth family (40 prototypes): the scaled inner products are computed in one piece and used in the next. -/
theorem pay8_eq (xn : FVec Ideal S2048x512 .f32) (P : FVec Ideal S40x512 .f32) (A : FVec Ideal S40x40 .f32) :
    k0_pay8 (F := Ideal) P (k0_pay7 (F := Ideal) xn P) A = groupFrom xn P A := by
  unfold k0_pay8 k0_pay7
  simp only [spread_eq, splat_eq,
    matProd_eq dot_S2048x512_S512x40_S2048x40_1_0_0_1_n_n rfl rfl rfl rfl rfl rfl,
    matProd_eq dot_S2048x40_S40x40_S2048x40_1_0_0_1_n_n rfl rfl rfl rfl rfl rfl,
    matProd_eq dot_S2048x40_S40x512_S2048x512_1_0_0_1_n_n rfl rfl rfl rfl rfl rfl]
  repeat rw [colSum_eq]
  repeat rw [colMax_eq]
  repeat rw [tr_eq]
  unfold groupFrom renorm softmax expShift logits
  rfl

/-- The fifth family (24 prototypes): the weights are computed in one piece and mixed in the next. -/
theorem pay1_eq (xn : FVec Ideal S2048x512 .f32) (P : FVec Ideal S24x512 .f32) (A : FVec Ideal S24x24 .f32) :
    k0_pay1 (F := Ideal) P (k0_pay9 (F := Ideal) xn P) A = groupFrom xn P A := by
  unfold k0_pay1 k0_pay9
  simp only [spread_eq, splat_eq,
    matProd_eq dot_S2048x512_S512x24_S2048x24_1_0_0_1_n_n rfl rfl rfl rfl rfl rfl,
    matProd_eq dot_S2048x24_S24x24_S2048x24_1_0_0_1_n_n rfl rfl rfl rfl rfl rfl,
    matProd_eq dot_S2048x24_S24x512_S2048x512_1_0_0_1_n_n rfl rfl rfl rfl rfl rfl]
  repeat rw [colSum_eq]
  repeat rw [colMax_eq]
  repeat rw [tr_eq]
  unfold groupFrom renorm softmax expShift logits
  rfl

end Cert.KGroups

end
-- ==== Proof.KernelArray.lean ====
/-
  The array the launch leaves, and the program's result.

  One grid point's five stores fill a block of 2048 rows of a 2560-column array with the five prototype families' outputs of
  the block's feature rows, side by side: columns 512·g … 512·g + 511 hold family g. Every output row depends on its own
  feature row only, so that block is the same block of the side-by-side array computed from the whole feature matrix. The
  sixteen blocks cover the array, row r lying in block r / 2048. The reshape that follows the launch splits each row's 2560
  columns into five runs of 512, which turns the five arrays side by side into the five stacked along a middle axis.
-/
import proofs.«174165_j62843961475556_2_alg».proof.Proof.KernelBlocks
import proofs.«174165_j62843961475556_2_alg».proof.Proof.KGroups

noncomputable section

namespace Cert.KernelArray

open Cert.KernelIdeal Cert.KernelIdeal.Gen Idealize.ShloMosaic Idealize.ShloMosaic.TcCoe Idealize.SL.Sem
open Idealize.ShloMosaic.ValueIdx Cert.RowSpec Cert.KernelBlocks
open Idealize.ShloMosaic.Pipeline (Dat)

/-! ## Five arrays side by side -/

/-- Five M by 512 arrays laid side by side: columns 512·g … 512·g + 511 hold the g-th. -/
def bands {M : ℕ} (G0 G1 G2 G3 G4 : Mat M 512) : FVec Ideal ⟨2, ![M, 2560]⟩ .f32 :=
  fun i => pick5 ((i 1).val / 512) G0 G1 G2 G3 G4
    (ix2 (n0 := M) (n1 := 512) (i 0) (⟨(i 1).val % 512, Nat.mod_lt _ (by decide)⟩ : Fin 512))

/-- At row p and column 512·g + d the side-by-side array holds the g-th array's entry (p, d). -/
theorem bands_at {M : ℕ} (G0 G1 G2 G3 G4 : Mat M 512) (i : (⟨2, ![M, 2560]⟩ : Shape).Idx) (p : Fin M) (g : ℕ) (d : Fin 512)
    (h0 : (i 0).val = p.val) (h1 : (i 1).val = g * 512 + d.val) :
    bands G0 G1 G2 G3 G4 i = pick5 g G0 G1 G2 G3 G4 (ix2 p d) := by
  have hd := d.isLt
  have hq : (i 1).val / 512 = g := by omega
  have hr : (i 1).val % 512 = d.val := by omega
  have hp : (i 0 : Fin M) = p := Fin.ext h0
  have hidx : ix2 (n0 := M) (n1 := 512) (i 0) (⟨(i 1).val % 512, Nat.mod_lt _ (by decide)⟩ : Fin 512) = ix2 p d := by
    funext a
    match a with
    | ⟨0, _⟩ => exact hp
    | ⟨1, _⟩ => exact Fin.ext hr
  unfold bands
  rw [hq, hidx]

theorem hz : (![0, 0] : Fin 2 → Nat) = fun _ => 0 := funext fun a => by fin_cases a <;> rfl

/-! ## What one grid point leaves in its output block -/

/-- The five stores of the body fill the output block with the five families' outputs of the feature block, side by side. -/
theorem out_eq (x0 : FVec Ideal S2048x512 .f32) (x1 : FVec Ideal S2x512 .f32) (x2 : FVec Ideal S15x512 .f32)
    (x3 : FVec Ideal S40x512 .f32) (x4 : FVec Ideal S40x512 .f32) (x5 : FVec Ideal S24x512 .f32) (x6 : FVec Ideal S2x2 .f32)
    (x7 : FVec Ideal S15x15 .f32) (x8 : FVec Ideal S40x40 .f32) (x9 : FVec Ideal S40x40 .f32) (x10 : FVec Ideal S24x24 .f32) :
    out0_11 (F := Ideal) x0 x1 x2 x3 x4 x5 x6 x7 x8 x9 x10
      = bands (group x0 x1 x6) (group x0 x2 x7) (group x0 x3 x8) (group x0 x4 x9) (group x0 x5 x10) := by
  unfold out0_11
  simp only [View.ld_unit_zero (S := S2048x512) hz, View.ld_unit_zero (S := S2x512) hz, View.ld_unit_zero (S := S15x512) hz,
    View.ld_unit_zero (S := S40x512) hz, View.ld_unit_zero (S := S24x512) hz, View.ld_unit_zero (S := S2x2) hz,
    View.ld_unit_zero (S := S15x15) hz, View.ld_unit_zero (S := S40x40) hz, View.ld_unit_zero (S := S24x24) hz]
  rw [Cert.KGroups.pay3_eq, Cert.KGroups.pay2_eq, Cert.KGroups.pay4_eq, Cert.KGroups.pay6_eq, Cert.KGroups.pay8_eq,
    Cert.KGroups.pay1_eq]
  funext y
  refine View.canon_apply_of_pieces (Val := Elt Ideal) (S := S2048x2560) (e := .f32)
    (bands (group x0 x1 x6) (group x0 x2 x7) (group x0 x3 x8) (group x0 x4 x9) (group x0 x5 x10) : S2048x2560.Idx → Elt Ideal .f32)
    _ ?_ y (cover0_11 _ _ _ _ _ y)
  intro pc hpc x
  simp only [List.mem_cons, List.mem_nil_iff, or_false] at hpc
  rcases hpc with rfl | rfl | rfl | rfl | rfl
  · obtain ⟨p, d, rfl⟩ : ∃ (p : Fin 2048) (d : Fin 512), x = ix2 p d := ⟨x 0, x 1, eq_ix2 x⟩
    show groupFrom (unitize x0) x5 x10 (ix2 p d) = bands (group x0 x1 x6) (group x0 x2 x7) (group x0 x3 x8) (group x0 x4 x9)
      (group x0 x5 x10) (r0_13.emb (ix2 p d))
    rw [bands_at _ _ _ _ _ (r0_13.emb (ix2 p d)) p 4 d (by show 0 + 1 * p.val = p.val; omega)
      (by show 2048 + 1 * d.val = 4 * 512 + d.val; omega)]
    rfl
  · obtain ⟨p, d, rfl⟩ : ∃ (p : Fin 2048) (d : Fin 512), x = ix2 p d := ⟨x 0, x 1, eq_ix2 x⟩
    show groupFrom (unitize x0) x4 x9 (ix2 p d) = bands (group x0 x1 x6) (group x0 x2 x7) (group x0 x3 x8) (group x0 x4 x9)
      (group x0 x5 x10) (r0_10.emb (ix2 p d))
    rw [bands_at _ _ _ _ _ (r0_10.emb (ix2 p d)) p 3 d (by show 0 + 1 * p.val = p.val; omega)
      (by show 1536 + 1 * d.val = 3 * 512 + d.val; omega)]
    rfl
  · obtain ⟨p, d, rfl⟩ : ∃ (p : Fin 2048) (d : Fin 512), x = ix2 p d := ⟨x 0, x 1, eq_ix2 x⟩
    show groupFrom (unitize x0) x3 x8 (ix2 p d) = bands (group x0 x1 x6) (group x0 x2 x7) (group x0 x3 x8) (group x0 x4 x9)
      (group x0 x5 x10) (r0_9.emb (ix2 p d))
    rw [bands_at _ _ _ _ _ (r0_9.emb (ix2 p d)) p 2 d (by show 0 + 1 * p.val = p.val; omega)
      (by show 1024 + 1 * d.val = 2 * 512 + d.val; omega)]
    rfl
  · obtain ⟨p, d, rfl⟩ : ∃ (p : Fin 2048) (d : Fin 512), x = ix2 p d := ⟨x 0, x 1, eq_ix2 x⟩
    show groupFrom (unitize x0) x2 x7 (ix2 p d) = bands (group x0 x1 x6) (group x0 x2 x7) (group x0 x3 x8) (group x0 x4 x9)
      (group x0 x5 x10) (r0_6.emb (ix2 p d))
    rw [bands_at _ _ _ _ _ (r0_6.emb (ix2 p d)) p 1 d (by show 0 + 1 * p.val = p.val; omega)
      (by show 512 + 1 * d.val = 1 * 512 + d.val; omega)]
    rfl
  · obtain ⟨p, d, rfl⟩ : ∃ (p : Fin 2048) (d : Fin 512), x = ix2 p d := ⟨x 0, x 1, eq_ix2 x⟩
    show group x0 x1 x6 (ix2 p d) = bands (group x0 x1 x6) (group x0 x2 x7) (group x0 x3 x8) (group x0 x4 x9)
      (group x0 x5 x10) (r0_3.emb (ix2 p d))
    rw [bands_at _ _ _ _ _ (r0_3.emb (ix2 p d)) p 0 d (by show 0 + 1 * p.val = p.val; omega)
      (by show 0 + 1 * d.val = 0 * 512 + d.val; omega)]
    rfl

/-! ## The whole output array -/

/-- Choosing the g-th of five functions on both sides of an equation that holds for each of the five. -/
theorem pick5_congr {α α' β : Type} (g : ℕ) (F0 F1 F2 F3 F4 : α → β) (G0 G1 G2 G3 G4 : α' → β) (x : α) (y : α')
    (h0 : F0 x = G0 y) (h1 : F1 x = G1 y) (h2 : F2 x = G2 y) (h3 : F3 x = G3 y) (h4 : F4 x = G4 y) :
    pick5 g F0 F1 F2 F3 F4 x = pick5 g G0 G1 G2 G3 G4 y := by
  unfold pick5
  split_ifs <;> assumption

/-- The 2560-column array the launch leaves, as a function of the feature matrix and the five prototype matrices. -/
def wide (X : Mat 32768 512) (P0 : Mat 2 512) (P1 : Mat 15 512) (P2 P3 : Mat 40 512) (P4 : Mat 24 512) :
    FVec Ideal ⟨2, ![32768, 2560]⟩ .f32 :=
  bands (group X P0 aff0) (group X P1 aff1) (group X P2 aff2) (group X P3 aff3) (group X P4 aff4)

variable (m : (ℓ : Loc nD τ sig) → Buf (Elt Ideal) ℓ) (ρ : Dev nD → PrngReg)

/-- What grid point t writes back is block t of the 2560-column array of the launch arrays: a row of the block depends on
    the same row of the feature block only, which is a row of the feature matrix. -/
theorem flushed_eq (c : Dev nD) (t : Fin cfg0.N) :
    (dats m 0 c).flushed 11 t = ((cfg0.win 11).blk t).view.read (Elt Ideal)
      (wide (V m c main_arg0) (V m c main_arg1) (V m c main_arg2) (V m c main_arg3) (V m c main_arg4) (V m c main_arg5)) := by
  show (cfg0.win 11).cut (grid0.coords t) ((dats m 0 c).after 11 t) = _
  rw [after0_11,
    out_eq (iblk m c 0 t) (iblk m c 1 t) (iblk m c 2 t) (iblk m c 3 t) (iblk m c 4 t) (iblk m c 5 t) (iblk m c 6 t)
      (iblk m c 7 t) (iblk m c 8 t) (iblk m c 9 t) (iblk m c 10 t),
    blk1 m c t, blk2 m c t, blk3 m c t, blk4 m c t, blk5 m c t, blk6 m c t, blk7 m c t, blk8 m c t, blk9 m c t, blk10 m c t,
    V_cst m c, V_cst_0 m c, V_cst_1 m c, V_cst_2 m c, V_cst_3 m c]
  obtain ⟨e0, e1⟩ := at11 t
  have hN : t.val < 16 := lt_of_lt_of_eq t.isLt (N_0 : cfg0.N = 16)
  funext y
  obtain ⟨p, q, rfl⟩ : ∃ (p : Fin 2048) (q : Fin 2560), y = ix2 p q := ⟨y 0, y 1, eq_ix2 y⟩
  have hp := p.isLt
  have hq := q.isLt
  have hp' : t.val * 2048 + p.val < 32768 := by omega
  have hd : q.val % 512 < 512 := Nat.mod_lt _ (by decide)
  have hqd : q.val = q.val / 512 * 512 + q.val % 512 := (Nat.div_add_mod' q.val 512).symm
  show bands (group (iblk m c 0 t) (V m c main_arg1) aff0) (group (iblk m c 0 t) (V m c main_arg2) aff1)
      (group (iblk m c 0 t) (V m c main_arg3) aff2) (group (iblk m c 0 t) (V m c main_arg4) aff3)
      (group (iblk m c 0 t) (V m c main_arg5) aff4) (ix2 p q)
    = wide (V m c main_arg0) (V m c main_arg1) (V m c main_arg2) (V m c main_arg3) (V m c main_arg4) (V m c main_arg5)
      (((cfg0.win 11).blk t).view.emb (ix2 p q))
  unfold wide
  rw [bands_at _ _ _ _ _ (ix2 p q) p (q.val / 512) ⟨q.val % 512, hd⟩ rfl hqd,
    bands_at _ _ _ _ _ (((cfg0.win 11).blk t).view.emb (ix2 p q)) (⟨t.val * 2048 + p.val, hp'⟩ : Fin 32768) (q.val / 512)
      ⟨q.val % 512, hd⟩
      (by show win0_11.index t (0 : Fin 2) * 2048 + 1 * p.val = t.val * 2048 + p.val; omega)
      (by show win0_11.index t (1 : Fin 2) * 2560 + 1 * q.val = q.val / 512 * 512 + q.val % 512; omega)]
  have hrow := xblk_row m c t p hp'
  refine pick5_congr _ _ _ _ _ _ _ _ _ _ _ (ix2 p (⟨q.val % 512, hd⟩ : Fin 512))
    (ix2 (⟨t.val * 2048 + p.val, hp'⟩ : Fin 32768) (⟨q.val % 512, hd⟩ : Fin 512)) ?_ ?_ ?_ ?_ ?_
  · exact group_apply_of_row _ _ _ _ p _ hrow _
  · exact group_apply_of_row _ _ _ _ p _ hrow _
  · exact group_apply_of_row _ _ _ _ p _ hrow _
  · exact group_apply_of_row _ _ _ _ p _ hrow _
  · exact group_apply_of_row _ _ _ _ p _ hrow _

/-- An index of the array is in point t's block iff each coordinate is in the block's range on its axis. -/
theorem mem_blk (t : Fin cfg0.N) (i : S32768x2560.Idx) :
    i ∈ ((cfg0.win 11).blk t).view.set ↔ ∀ a : Fin 2, win0_11.index t a * S2048x2560.size a ≤ (i a).val
      ∧ (i a).val < win0_11.index t a * S2048x2560.size a + S2048x2560.size a := by
  show i ∈ ((View.whole main_v0).slice (win0_11.rect t)).set ↔ _
  rw [View.set_slice_whole, Rect.mem_set_unit]
  exact Iff.rfl

/-- Every index of the array lies in some point's block: row r lies in the block of point r / 2048. -/
theorem cover (i : S32768x2560.Idx) :
    ∃ t : Fin cfg0.N, (cfg0.win 11).flush t = true ∧ i ∈ ((cfg0.win 11).blk t).view.set := by
  have hi0 : (i 0).val < 32768 := (i 0).isLt
  have hi1 : (i 1).val < 2560 := (i 1).isLt
  have ht : (i 0).val / 2048 < cfg0.N := by rw [show cfg0.N = 16 from N_0]; omega
  refine ⟨⟨(i 0).val / 2048, ht⟩, flush0_11 _, ?_⟩
  rw [mem_blk]
  obtain ⟨e0, e1⟩ := at11 ⟨(i 0).val / 2048, ht⟩
  have e0' : win0_11.index ⟨(i 0).val / 2048, ht⟩ (0 : Fin 2) = (i 0).val / 2048 := e0
  intro a
  match a with
  | ⟨0, _⟩ =>
    show win0_11.index ⟨(i 0).val / 2048, ht⟩ (0 : Fin 2) * 2048 ≤ (i 0).val
      ∧ (i 0).val < win0_11.index ⟨(i 0).val / 2048, ht⟩ (0 : Fin 2) * 2048 + 2048
    omega
  | ⟨1, _⟩ =>
    show win0_11.index ⟨(i 0).val / 2048, ht⟩ (1 : Fin 2) * 2560 ≤ (i 1).val
      ∧ (i 1).val < win0_11.index ⟨(i 0).val / 2048, ht⟩ (1 : Fin 2) * 2560 + 2560
    omega

/-- The array after the launch is the 2560-column array of the launch arrays. -/
theorem final (c : Dev nD) : (dats m 0 c).arrAt 11 cfg0.N
    = wide (V m c main_arg0) (V m c main_arg1) (V m c main_arg2) (V m c main_arg3) (V m c main_arg4) (V m c main_arg5) :=
  (dats m 0 c).arrAt_eq_of_cover 11 _ (fun t _ => flushed_eq m c t) cover

/-! ## The reshape after the launch -/

/-- Splitting each row's 2560 columns into five runs of 512 turns five arrays side by side into the five stacked. -/
theorem reshape_bands {M : ℕ} (G0 G1 G2 G3 G4 : Mat M 512)
    (h : (⟨2, ![M, 2560]⟩ : Shape).ShapeCasts ⟨3, ![M, 5, 512]⟩) :
    shapeCast ⟨3, ![M, 5, 512]⟩ (bands G0 G1 G2 G3 G4) h = stack5 G0 G1 G2 G3 G4 := by
  funext j
  obtain ⟨n, g, d, rfl⟩ : ∃ (n : Fin M) (g : Fin 5) (d : Fin 512), j = ix3 n g d := ⟨j 0, j 1, j 2, eq_ix3 j⟩
  have hg := g.isLt
  have hd := d.isLt
  have hc : g.val * 512 + d.val < 2560 := by omega
  rw [shapeCast_apply (bands G0 G1 G2 G3 G4) h (ix3 n g d) (ix2 n (⟨g.val * 512 + d.val, hc⟩ : Fin 2560)) (by
    rw [Shape.rowMajor_val_two, Shape.rowMajor_val_three]
    show n.val * 2560 + (g.val * 512 + d.val) = (n.val * 5 + g.val) * 512 + d.val
    ring)]
  rw [bands_at G0 G1 G2 G3 G4 _ n g.val d rfl rfl]
  rfl

/-! ## The run -/

/-- The reshaped result after the run: the five families' outputs stacked. -/
theorem tail_eq (c : Dev nD) :
    Pipeline.afterTail₀ cfgs (dats m) 0 (V0 m) [hostOps1] c main_v1
      = out5 (V m c main_arg0 : Mat 32768 512) (V m c main_arg1 : Mat 2 512) (V m c main_arg2 : Mat 15 512)
          (V m c main_arg3 : Mat 40 512) (V m c main_arg4 : Mat 40 512) (V m c main_arg5 : Mat 24 512) aff0 aff1 aff2 aff3 aff4 := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0)
      = wide (V m c main_arg0) (V m c main_arg1) (V m c main_arg2) (V m c main_arg3) (V m c main_arg4) (V m c main_arg5) :=
    (Pipeline.withArrays_arr spec0 launch0.win.arr_inj c _ _ 11).trans (final m c)
  rw [hw]
  exact reshape_bands _ _ _ _ _ _

/-- Every weakly fair execution of the program ends with its result holding the five families' outputs of the launch
    arrays, stacked, and with its arguments as launched. -/
theorem run : θ_run defs (onTc (τ := τ) (main (F := Ideal))) ⟨m, fun _ => 0, ρ⟩ fun r => ∀ c : Dev nD,
      r.2.mem ((c.tc : Thread nD τ).loc main_v1)
        = out5 (m ((c.tc : Thread nD τ).loc main_arg0) : Mat 32768 512) (m ((c.tc : Thread nD τ).loc main_arg1) : Mat 2 512)
            (m ((c.tc : Thread nD τ).loc main_arg2) : Mat 15 512) (m ((c.tc : Thread nD τ).loc main_arg3) : Mat 40 512)
            (m ((c.tc : Thread nD τ).loc main_arg4) : Mat 40 512) (m ((c.tc : Thread nD τ).loc main_arg5) : Mat 24 512)
            aff0 aff1 aff2 aff3 aff4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨by
      rw [(h c).2 main_v1 (Pipeline.mem_restRefs_of main_v1 rfl (by decide)), tail_eq m c, V_main_arg0 m c, V_main_arg1 m c,
        V_main_arg2 m c, V_main_arg3 m c, V_main_arg4 m c, V_main_arg5 m c],
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelArray

end
-- ==== Proof.RefOps.lean ====
/- The operations of the printed reference program's @main, in order, as a list: one element per
   statement of its windows, each call's five lines written out over the call's record (the callee's
   argument replaced by the call's operand, its record variable by the call's record).  216 operations,
   one list per printed window, and the whole list their concatenation.  This module is a table
   transcribed from the printed program by the command in line 1, run from the certificate's directory;
   that @main is the sequence of this list is proved in the module that imports it. -/
import proofs.«174165_j62843961475556_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Operations 1 … 72 of 216: the window main_part0. -/
abbrev ops0 : List (HloOp τ sig (Elt F)) :=
  [ StableHlo.nullary main_cst (fun i => FloatOps.ofBits .f32 (lit0 (S2x2.rowMajor i))),
    StableHlo.nullary main_cst_0 (fun i => FloatOps.ofBits .f32 (lit1 (S15x15.rowMajor i))),
    StableHlo.nullary main_cst_1 (fun i => FloatOps.ofBits .f32 (lit2 (S40x40.rowMajor i))),
    StableHlo.nullary main_cst_2 (fun i => FloatOps.ofBits .f32 (lit3 (S40x40.rowMajor i))),
    StableHlo.nullary main_cst_3 (fun i => FloatOps.ofBits .f32 (lit4 (S24x24.rowMajor i))),
    StableHlo.TRef.binary (.of main_arg0) (.of main_arg0) main_call0.v0 mulf,
    StableHlo.TRef.nullary main_call0.cst (constant S_ .f32 0x00000000#32),
    StableHlo.TRef.binary main_call0.v0 main_call0.cst main_call0.v1 (fun x v => Host.reduceAdd x v reducesTo_S32768x512_S32768_d1 h_S_),
    StableHlo.TRef.unary main_call0.v1 main_call0.v2 (broadcastInDim S32768x1 ![0] bcast_S32768_S32768x1_0),
    StableHlo.TRef.unary main_call0.v2 main_call0.v3 Host.sqrt,
    StableHlo.nullary main_cst_4 (constant S_ .f32 0x358637BD#32),
    StableHlo.unary main_cst_4 main_v1 (broadcastInDim S32768x1 ![] bcast_S_S32768x1 : (⟨S_, .f32⟩ : BufTy).Contents (Elt F) → (⟨S32768x1, .f32⟩ : BufTy).Contents (Elt F)),
    StableHlo.binary main_v0 main_v1 main_v2 (addf : (⟨S32768x1, .f32⟩ : BufTy).Contents (Elt F) → (⟨S32768x1, .f32⟩ : BufTy).Contents (Elt F) → (⟨S32768x1, .f32⟩ : BufTy).Contents (Elt F)),
    StableHlo.unary main_v2 main_v3 (broadcastInDim S32768x512 ![0, 1] bcast_S32768x1_S32768x512_0_1 : (⟨S32768x1, .f32⟩ : BufTy).Contents (Elt F) → (⟨S32768x512, .f32⟩ : BufTy).Contents (Elt F)),
    StableHlo.binary main_arg0 main_v3 main_v4 (Host.divf : (⟨S32768x512, .f32⟩ : BufTy).Contents (Elt F) → (⟨S32768x512, .f32⟩ : BufTy).Contents (Elt F) → (⟨S32768x512, .f32⟩ : BufTy).Contents (Elt F)),
    StableHlo.TRef.binary (.of main_arg1) (.of main_arg1) main_call1.v0 mulf,
    StableHlo.TRef.nullary main_call1.cst (constant S_ .f32 0x00000000#32),
    StableHlo.TRef.binary main_call1.v0 main_call1.cst main_call1.v1 (fun x v => Host.reduceAdd x v reducesTo_S2x512_S2_d1 h_S_),
    StableHlo.TRef.unary main_call1.v1 main_call1.v2 (broadcastInDim S2x1 ![0] bcast_S2_S2x1_0),
    StableHlo.TRef.unary main_call1.v2 main_call1.v3 Host.sqrt,
    StableHlo.nullary main_cst_5 (constant S_ .f32 0x358637BD#32),
    StableHlo.unary main_cst_5 main_v6 (broadcastInDim S2x1 ![] bcast_S_S2x1 : (⟨S_, .f32⟩ : BufTy).Contents (Elt F) → (⟨S2x1, .f32⟩ : BufTy).Contents (Elt F)),
    StableHlo.binary main_v5 main_v6 main_v7 (addf : (⟨S2x1, .f32⟩ : BufTy).Contents (Elt F) → (⟨S2x1, .f32⟩ : BufTy).Contents (Elt F) → (⟨S2x1, .f32⟩ : BufTy).Contents (Elt F)),
    StableHlo.unary main_v7 main_v8 (broadcastInDim S2x512 ![0, 1] bcast_S2x1_S2x512_0_1 : (⟨S2x1, .f32⟩ : BufTy).Contents (Elt F) → (⟨S2x512, .f32⟩ : BufTy).Contents (Elt F)),
    StableHlo.binary main_arg1 main_v8 main_v9 (Host.divf : (⟨S2x512, .f32⟩ : BufTy).Contents (Elt F) → (⟨S2x512, .f32⟩ : BufTy).Contents (Elt F) → (⟨S2x512, .f32⟩ : BufTy).Contents (Elt F)),
    StableHlo.unary main_v9 main_v10 ((transpose S512x2 [1, 0] · transposes_S2x512_S512x2_1_0) : (⟨S2x512, .f32⟩ : BufTy).Contents (Elt F) → (⟨S512x2, .f32⟩ : BufTy).Contents (Elt F)),
    StableHlo.binary main_v4 main_v10 main_v11 ((fun l r => Host.dotGeneral dot_S32768x512_S512x2_S32768x2_1_0_0_1_n_n none l r) : (⟨S32768x512, .f32⟩ : BufTy).Contents (Elt F) → (⟨S512x2, .f32⟩ : BufTy).Contents (Elt F) → (⟨S32768x2, .f32⟩ : BufTy).Contents (Elt F)),
    StableHlo.nullary main_cst_6 (constant S_ .f32 0x3D8F5C29#32),
    StableHlo.unary main_cst_6 main_v12 (broadcastInDim S32768x2 ![] bcast_S_S32768x2 : (⟨S_, .f32⟩ : BufTy).Contents (Elt F) → (⟨S32768x2, .f32⟩ : BufTy).Contents (Elt F)),
    StableHlo.binary main_v11 main_v12 main_v13 (Host.divf : (⟨S32768x2, .f32⟩ : BufTy).Contents (Elt F) → (⟨S32768x2, .f32⟩ : BufTy).Contents (Elt F) → (⟨S32768x2, .f32⟩ : BufTy).Contents (Elt F)),
    StableHlo.nullary main_cst_7 (constant S_ .f32 0xFF800000#32),
    StableHlo.binary main_v13 main_cst_7 main_v14 ((fun x v => Host.reduce FloatOps.maximumf x v reducesTo_S32768x2_S32768_d1 h_S_) : (⟨S32768x2, .f32⟩ : BufTy).Contents (Elt F) → (⟨S_, .f32⟩ : BufTy).Contents (Elt F) → (⟨S32768, .f32⟩ : BufTy).Contents (Elt F)),
    StableHlo.nullary main_cst_8 (constant S_ .f32 0xFF800000#32),
    StableHlo.unary main_cst_8 main_v15 (broadcastInDim S32768 ![] bcast_S_S32768 : (⟨S_, .f32⟩ : BufTy).Contents (Elt F) → (⟨S32768, .f32⟩ : BufTy).Contents (Elt F)),
    StableHlo.binary main_v15 main_v14 main_v16 (maximumf : (⟨S32768, .f32⟩ : BufTy).Contents (Elt F) → (⟨S32768, .f32⟩ : BufTy).Contents (Elt F) → (⟨S32768, .f32⟩ : BufTy).Contents (Elt F)),
    StableHlo.unary main_v16 main_v17 (broadcastInDim S32768x1 ![0] bcast_S32768_S32768x1_0 : (⟨S32768, .f32⟩ : BufTy).Contents (Elt F) → (⟨S32768x1, .f32⟩ : BufTy).Contents (Elt F)),
    StableHlo.unary main_v17 main_v18 (broadcastInDim S32768x2 ![0, 1] bcast_S32768x1_S32768x2_0_1 : (⟨S32768x1, .f32⟩ : BufTy).Contents (Elt F) → (⟨S32768x2, .f32⟩ : BufTy).Contents (Elt F)),
    StableHlo.binary main_v13 main_v18 main_v19 (subf : (⟨S32768x2, .f32⟩ : BufTy).Contents (Elt F) → (⟨S32768x2, .f32⟩ : BufTy).Contents (Elt F) → (⟨S32768x2, .f32⟩ : BufTy).Contents (Elt F)),
    StableHlo.unary main_v19 main_v20 (Host.exp : (⟨S32768x2, .f32⟩ : BufTy).Contents (Elt F) → (⟨S32768x2, .f32⟩ : BufTy).Contents (Elt F)),
    StableHlo.nullary main_cst_9 (constant S_ .f32 0x00000000#32),
    StableHlo.binary main_v20 main_cst_9 main_v21 ((fun x v => Host.reduceAdd x v reducesTo_S32768x2_S32768_d1 h_S_) : (⟨S32768x2, .f32⟩ : BufTy).Contents (Elt F) → (⟨S_, .f32⟩ : BufTy).Contents (Elt F) → (⟨S32768, .f32⟩ : BufTy).Contents (Elt F)),
    StableHlo.unary main_v21 main_v22 (broadcastInDim S32768x1 ![0] bcast_S32768_S32768x1_0 : (⟨S32768, .f32⟩ : BufTy).Contents (Elt F) → (⟨S32768x1, .f32⟩ : BufTy).Contents (Elt F)),
    StableHlo.unary main_v22 main_v23 (broadcastInDim S32768x2 ![0, 1] bcast_S32768x1_S32768x2_0_1 : (⟨S32768x1, .f32⟩ : BufTy).Contents (Elt F) → (⟨S32768x2, .f32⟩ : BufTy).Contents (Elt F)),
    StableHlo.binary main_v20 main_v23 main_v24 (Host.divf : (⟨S32768x2, .f32⟩ : BufTy).Contents (Elt F) → (⟨S32768x2, .f32⟩ : BufTy).Contents (Elt F) → (⟨S32768x2, .f32⟩ : BufTy).Contents (Elt F)),
    StableHlo.binary main_v24 main_cst main_v25 ((fun l r => Host.dotGeneral dot_S32768x2_S2x2_S32768x2_1_0_0_1_n_n none l r) : (⟨S32768x2, .f32⟩ : BufTy).Contents (Elt F) → (⟨S2x2, .f32⟩ : BufTy).Contents (Elt F) → (⟨S32768x2, .f32⟩ : BufTy).Contents (Elt F)),
    StableHlo.nullary main_cst_10 (constant S_ .f32 0x00000000#32),
    StableHlo.binary main_v25 main_cst_10 main_v26 ((fun x v => Host.reduceAdd x v reducesTo_S32768x2_S32768_d1 h_S_) : (⟨S32768x2, .f32⟩ : BufTy).Contents (Elt F) → (⟨S_, .f32⟩ : BufTy).Contents (Elt F) → (⟨S32768, .f32⟩ : BufTy).Contents (Elt F)),
    StableHlo.unary main_v26 main_v27 (broadcastInDim S32768x1 ![0] bcast_S32768_S32768x1_0 : (⟨S32768, .f32⟩ : BufTy).Contents (Elt F) → (⟨S32768x1, .f32⟩ : BufTy).Contents (Elt F)),
    StableHlo.nullary main_cst_11 (constant S_ .f32 0x358637BD#32),
    StableHlo.unary main_cst_11 main_v28 (broadcastInDim S32768x1 ![] bcast_S_S32768x1 : (⟨S_, .f32⟩ : BufTy).Contents (Elt F) → (⟨S32768x1, .f32⟩ : BufTy).Contents (Elt F)),
    StableHlo.binary main_v27 main_v28 main_v29 (addf : (⟨S32768x1, .f32⟩ : BufTy).Contents (Elt F) → (⟨S32768x1, .f32⟩ : BufTy).Contents (Elt F) → (⟨S32768x1, .f32⟩ : BufTy).Contents (Elt F)),
    StableHlo.unary main_v29 main_v30 (broadcastInDim S32768x2 ![0, 1] bcast_S32768x1_S32768x2_0_1 : (⟨S32768x1, .f32⟩ : BufTy).Contents (Elt F) → (⟨S32768x2, .f32⟩ : BufTy).Contents (Elt F)),
    StableHlo.binary main_v25 main_v30 main_v31 (Host.divf : (⟨S32768x2, .f32⟩ : BufTy).Contents (Elt F) → (⟨S32768x2, .f32⟩ : BufTy).Contents (Elt F) → (⟨S32768x2, .f32⟩ : BufTy).Contents (Elt F)),
    StableHlo.binary main_v31 main_arg1 main_v32 ((fun l r => Host.dotGeneral dot_S32768x2_S2x512_S32768x512_1_0_0_1_n_n none l r) : (⟨S32768x2, .f32⟩ : BufTy).Contents (Elt F) → (⟨S2x512, .f32⟩ : BufTy).Contents (Elt F) → (⟨S32768x512, .f32⟩ : BufTy).Contents (Elt F)),
    StableHlo.TRef.binary (.of main_arg2) (.of main_arg2) main_call2.v0 mulf,
    StableHlo.TRef.nullary main_call2.cst (constant S_ .f32 0x00000000#32),
    StableHlo.TRef.binary main_call2.v0 main_call2.cst main_call2.v1 (fun x v => Host.reduceAdd x v reducesTo_S15x512_S15_d1 h_S_),
    StableHlo.TRef.unary main_call2.v1 main_call2.v2 (broadcastInDim S15x1 ![0] bcast_S15_S15x1_0),
    StableHlo.TRef.unary main_call2.v2 main_call2.v3 Host.sqrt,
    StableHlo.nullary main_cst_12 (constant S_ .f32 0x358637BD#32),
    StableHlo.unary main_cst_12 main_v34 (broadcastInDim S15x1 ![] bcast_S_S15x1 : (⟨S_, .f32⟩ : BufTy).Contents (Elt F) → (⟨S15x1, .f32⟩ : BufTy).Contents (Elt F)),
    StableHlo.binary main_v33 main_v34 main_v35 (addf : (⟨S15x1, .f32⟩ : BufTy).Contents (Elt F) → (⟨S15x1, .f32⟩ : BufTy).Contents (Elt F) → (⟨S15x1, .f32⟩ : BufTy).Contents (Elt F)),
    StableHlo.unary main_v35 main_v36 (broadcastInDim S15x512 ![0, 1] bcast_S15x1_S15x512_0_1 : (⟨S15x1, .f32⟩ : BufTy).Contents (Elt F) → (⟨S15x512, .f32⟩ : BufTy).Contents (Elt F)),
    StableHlo.binary main_arg2 main_v36 main_v37 (Host.divf : (⟨S15x512, .f32⟩ : BufTy).Contents (Elt F) → (⟨S15x512, .f32⟩ : BufTy).Contents (Elt F) → (⟨S15x512, .f32⟩ : BufTy).Contents (Elt F)),
    StableHlo.unary main_v37 main_v38 ((transpose S512x15 [1, 0] · transposes_S15x512_S512x15_1_0) : (⟨S15x512, .f32⟩ : BufTy).Contents (Elt F) → (⟨S512x15, .f32⟩ : BufTy).Contents (Elt F)),
    StableHlo.binary main_v4 main_v38 main_v39 ((fun l r => Host.dotGeneral dot_S32768x512_S512x15_S32768x15_1_0_0_1_n_n none l r) : (⟨S32768x512, .f32⟩ : BufTy).Contents (Elt F) → (⟨S512x15, .f32⟩ : BufTy).Contents (Elt F) → (⟨S32768x15, .f32⟩ : BufTy).Contents (Elt F)),
    StableHlo.nullary main_cst_13 (constant S_ .f32 0x3D8F5C29#32),
    StableHlo.unary main_cst_13 main_v40 (broadcastInDim S32768x15 ![] bcast_S_S32768x15 : (⟨S_, .f32⟩ : BufTy).Contents (Elt F) → (⟨S32768x15, .f32⟩ : BufTy).Contents (Elt F)),
    StableHlo.binary main_v39 main_v40 main_v41 (Host.divf : (⟨S32768x15, .f32⟩ : BufTy).Contents (Elt F) → (⟨S32768x15, .f32⟩ : BufTy).Contents (Elt F) → (⟨S32768x15, .f32⟩ : BufTy).Contents (Elt F)),
    StableHlo.nullary main_cst_14 (constant S_ .f32 0xFF800000#32),
    StableHlo.binary main_v41 main_cst_14 main_v42 ((fun x v => Host.reduce FloatOps.maximumf x v reducesTo_S32768x15_S32768_d1 h_S_) : (⟨S32768x15, .f32⟩ : BufTy).Contents (Elt F) → (⟨S_, .f32⟩ : BufTy).Contents (Elt F) → (⟨S32768, .f32⟩ : BufTy).Contents (Elt F)),
    StableHlo.nullary main_cst_15 (constant S_ .f32 0xFF800000#32) ]

set_option maxRecDepth 8192 in
/-- Operations 73 … 140 of 216: the window main_part1. -/
abbrev ops1 : List (HloOp τ sig (Elt F)) :=
  [ StableHlo.unary main_cst_15 main_v43 (broadcastInDim S32768 ![] bcast_S_S32768 : (⟨S_, .f32⟩ : BufTy).Contents (Elt F) → (⟨S32768, .f32⟩ : BufTy).Contents (Elt F)),
    StableHlo.binary main_v43 main_v42 main_v44 (maximumf : (⟨S32768, .f32⟩ : BufTy).Contents (Elt F) → (⟨S32768, .f32⟩ : BufTy).Contents (Elt F) → (⟨S32768, .f32⟩ : BufTy).Contents (Elt F)),
    StableHlo.unary main_v44 main_v45 (broadcastInDim S32768x1 ![0] bcast_S32768_S32768x1_0 : (⟨S32768, .f32⟩ : BufTy).Contents (Elt F) → (⟨S32768x1, .f32⟩ : BufTy).Contents (Elt F)),
    StableHlo.unary main_v45 main_v46 (broadcastInDim S32768x15 ![0, 1] bcast_S32768x1_S32768x15_0_1 : (⟨S32768x1, .f32⟩ : BufTy).Contents (Elt F) → (⟨S32768x15, .f32⟩ : BufTy).Contents (Elt F)),
    StableHlo.binary main_v41 main_v46 main_v47 (subf : (⟨S32768x15, .f32⟩ : BufTy).Contents (Elt F) → (⟨S32768x15, .f32⟩ : BufTy).Contents (Elt F) → (⟨S32768x15, .f32⟩ : BufTy).Contents (Elt F)),
    StableHlo.unary main_v47 main_v48 (Host.exp : (⟨S32768x15, .f32⟩ : BufTy).Contents (Elt F) → (⟨S32768x15, .f32⟩ : BufTy).Contents (Elt F)),
    StableHlo.nullary main_cst_16 (constant S_ .f32 0x00000000#32),
    StableHlo.binary main_v48 main_cst_16 main_v49 ((fun x v => Host.reduceAdd x v reducesTo_S32768x15_S32768_d1 h_S_) : (⟨S32768x15, .f32⟩ : BufTy).Contents (Elt F) → (⟨S_, .f32⟩ : BufTy).Contents (Elt F) → (⟨S32768, .f32⟩ : BufTy).Contents (Elt F)),
    StableHlo.unary main_v49 main_v50 (broadcastInDim S32768x1 ![0] bcast_S32768_S32768x1_0 : (⟨S32768, .f32⟩ : BufTy).Contents (Elt F) → (⟨S32768x1, .f32⟩ : BufTy).Contents (Elt F)),
    StableHlo.unary main_v50 main_v51 (broadcastInDim S32768x15 ![0, 1] bcast_S32768x1_S32768x15_0_1 : (⟨S32768x1, .f32⟩ : BufTy).Contents (Elt F) → (⟨S32768x15, .f32⟩ : BufTy).Contents (Elt F)),
    StableHlo.binary main_v48 main_v51 main_v52 (Host.divf : (⟨S32768x15, .f32⟩ : BufTy).Contents (Elt F) → (⟨S32768x15, .f32⟩ : BufTy).Contents (Elt F) → (⟨S32768x15, .f32⟩ : BufTy).Contents (Elt F)),
    StableHlo.binary main_v52 main_cst_0 main_v53 ((fun l r => Host.dotGeneral dot_S32768x15_S15x15_S32768x15_1_0_0_1_n_n none l r) : (⟨S32768x15, .f32⟩ : BufTy).Contents (Elt F) → (⟨S15x15, .f32⟩ : BufTy).Contents (Elt F) → (⟨S32768x15, .f32⟩ : BufTy).Contents (Elt F)),
    StableHlo.nullary main_cst_17 (constant S_ .f32 0x00000000#32),
    StableHlo.binary main_v53 main_cst_17 main_v54 ((fun x v => Host.reduceAdd x v reducesTo_S32768x15_S32768_d1 h_S_) : (⟨S32768x15, .f32⟩ : BufTy).Contents (Elt F) → (⟨S_, .f32⟩ : BufTy).Contents (Elt F) → (⟨S32768, .f32⟩ : BufTy).Contents (Elt F)),
    StableHlo.unary main_v54 main_v55 (broadcastInDim S32768x1 ![0] bcast_S32768_S32768x1_0 : (⟨S32768, .f32⟩ : BufTy).Contents (Elt F) → (⟨S32768x1, .f32⟩ : BufTy).Contents (Elt F)),
    StableHlo.nullary main_cst_18 (constant S_ .f32 0x358637BD#32),
    StableHlo.unary main_cst_18 main_v56 (broadcastInDim S32768x1 ![] bcast_S_S32768x1 : (⟨S_, .f32⟩ : BufTy).Contents (Elt F) → (⟨S32768x1, .f32⟩ : BufTy).Contents (Elt F)),
    StableHlo.binary main_v55 main_v56 main_v57 (addf : (⟨S32768x1, .f32⟩ : BufTy).Contents (Elt F) → (⟨S32768x1, .f32⟩ : BufTy).Contents (Elt F) → (⟨S32768x1, .f32⟩ : BufTy).Contents (Elt F)),
    StableHlo.unary main_v57 main_v58 (broadcastInDim S32768x15 ![0, 1] bcast_S32768x1_S32768x15_0_1 : (⟨S32768x1, .f32⟩ : BufTy).Contents (Elt F) → (⟨S32768x15, .f32⟩ : BufTy).Contents (Elt F)),
    StableHlo.binary main_v53 main_v58 main_v59 (Host.divf : (⟨S32768x15, .f32⟩ : BufTy).Contents (Elt F) → (⟨S32768x15, .f32⟩ : BufTy).Contents (Elt F) → (⟨S32768x15, .f32⟩ : BufTy).Contents (Elt F)),
    StableHlo.binary main_v59 main_arg2 main_v60 ((fun l r => Host.dotGeneral dot_S32768x15_S15x512_S32768x512_1_0_0_1_n_n none l r) : (⟨S32768x15, .f32⟩ : BufTy).Contents (Elt F) → (⟨S15x512, .f32⟩ : BufTy).Contents (Elt F) → (⟨S32768x512, .f32⟩ : BufTy).Contents (Elt F)),
    StableHlo.TRef.binary (.of main_arg3) (.of main_arg3) main_call3.v0 mulf,
    StableHlo.TRef.nullary main_call3.cst (constant S_ .f32 0x00000000#32),
    StableHlo.TRef.binary main_call3.v0 main_call3.cst main_call3.v1 (fun x v => Host.reduceAdd x v reducesTo_S40x512_S40_d1 h_S_),
    StableHlo.TRef.unary main_call3.v1 main_call3.v2 (broadcastInDim S40x1 ![0] bcast_S40_S40x1_0),
    StableHlo.TRef.unary main_call3.v2 main_call3.v3 Host.sqrt,
    StableHlo.nullary main_cst_19 (constant S_ .f32 0x358637BD#32),
    StableHlo.unary main_cst_19 main_v62 (broadcastInDim S40x1 ![] bcast_S_S40x1 : (⟨S_, .f32⟩ : BufTy).Contents (Elt F) → (⟨S40x1, .f32⟩ : BufTy).Contents (Elt F)),
    StableHlo.binary main_v61 main_v62 main_v63 (addf : (⟨S40x1, .f32⟩ : BufTy).Contents (Elt F) → (⟨S40x1, .f32⟩ : BufTy).Contents (Elt F) → (⟨S40x1, .f32⟩ : BufTy).Contents (Elt F)),
    StableHlo.unary main_v63 main_v64 (broadcastInDim S40x512 ![0, 1] bcast_S40x1_S40x512_0_1 : (⟨S40x1, .f32⟩ : BufTy).Contents (Elt F) → (⟨S40x512, .f32⟩ : BufTy).Contents (Elt F)),
    StableHlo.binary main_arg3 main_v64 main_v65 (Host.divf : (⟨S40x512, .f32⟩ : BufTy).Contents (Elt F) → (⟨S40x512, .f32⟩ : BufTy).Contents (Elt F) → (⟨S40x512, .f32⟩ : BufTy).Contents (Elt F)),
    StableHlo.unary main_v65 main_v66 ((transpose S512x40 [1, 0] · transposes_S40x512_S512x40_1_0) : (⟨S40x512, .f32⟩ : BufTy).Contents (Elt F) → (⟨S512x40, .f32⟩ : BufTy).Contents (Elt F)),
    StableHlo.binary main_v4 main_v66 main_v67 ((fun l r => Host.dotGeneral dot_S32768x512_S512x40_S32768x40_1_0_0_1_n_n none l r) : (⟨S32768x512, .f32⟩ : BufTy).Contents (Elt F) → (⟨S512x40, .f32⟩ : BufTy).Contents (Elt F) → (⟨S32768x40, .f32⟩ : BufTy).Contents (Elt F)),
    StableHlo.nullary main_cst_20 (constant S_ .f32 0x3D8F5C29#32),
    StableHlo.unary main_cst_20 main_v68 (broadcastInDim S32768x40 ![] bcast_S_S32768x40 : (⟨S_, .f32⟩ : BufTy).Contents (Elt F) → (⟨S32768x40, .f32⟩ : BufTy).Contents (Elt F)),
    StableHlo.binary main_v67 main_v68 main_v69 (Host.divf : (⟨S32768x40, .f32⟩ : BufTy).Contents (Elt F) → (⟨S32768x40, .f32⟩ : BufTy).Contents (Elt F) → (⟨S32768x40, .f32⟩ : BufTy).Contents (Elt F)),
    StableHlo.nullary main_cst_21 (constant S_ .f32 0xFF800000#32),
    StableHlo.binary main_v69 main_cst_21 main_v70 ((fun x v => Host.reduce FloatOps.maximumf x v reducesTo_S32768x40_S32768_d1 h_S_) : (⟨S32768x40, .f32⟩ : BufTy).Contents (Elt F) → (⟨S_, .f32⟩ : BufTy).Contents (Elt F) → (⟨S32768, .f32⟩ : BufTy).Contents (Elt F)),
    StableHlo.nullary main_cst_22 (constant S_ .f32 0xFF800000#32),
    StableHlo.unary main_cst_22 main_v71 (broadcastInDim S32768 ![] bcast_S_S32768 : (⟨S_, .f32⟩ : BufTy).Contents (Elt F) → (⟨S32768, .f32⟩ : BufTy).Contents (Elt F)),
    StableHlo.binary main_v71 main_v70 main_v72 (maximumf : (⟨S32768, .f32⟩ : BufTy).Contents (Elt F) → (⟨S32768, .f32⟩ : BufTy).Contents (Elt F) → (⟨S32768, .f32⟩ : BufTy).Contents (Elt F)),
    StableHlo.unary main_v72 main_v73 (broadcastInDim S32768x1 ![0] bcast_S32768_S32768x1_0 : (⟨S32768, .f32⟩ : BufTy).Contents (Elt F) → (⟨S32768x1, .f32⟩ : BufTy).Contents (Elt F)),
    StableHlo.unary main_v73 main_v74 (broadcastInDim S32768x40 ![0, 1] bcast_S32768x1_S32768x40_0_1 : (⟨S32768x1, .f32⟩ : BufTy).Contents (Elt F) → (⟨S32768x40, .f32⟩ : BufTy).Contents (Elt F)),
    StableHlo.binary main_v69 main_v74 main_v75 (subf : (⟨S32768x40, .f32⟩ : BufTy).Contents (Elt F) → (⟨S32768x40, .f32⟩ : BufTy).Contents (Elt F) → (⟨S32768x40, .f32⟩ : BufTy).Contents (Elt F)),
    StableHlo.unary main_v75 main_v76 (Host.exp : (⟨S32768x40, .f32⟩ : BufTy).Contents (Elt F) → (⟨S32768x40, .f32⟩ : BufTy).Contents (Elt F)),
    StableHlo.nullary main_cst_23 (constant S_ .f32 0x00000000#32),
    StableHlo.binary main_v76 main_cst_23 main_v77 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    StableHlo.unary main_v77 main_v78 (broadcastInDim S32768x1 ![0] bcast_S32768_S32768x1_0 : (⟨S32768, .f32⟩ : BufTy).Contents (Elt F) → (⟨S32768x1, .f32⟩ : BufTy).Contents (Elt F)),
    StableHlo.unary main_v78 main_v79 (broadcastInDim S32768x40 ![0, 1] bcast_S32768x1_S32768x40_0_1 : (⟨S32768x1, .f32⟩ : BufTy).Contents (Elt F) → (⟨S32768x40, .f32⟩ : BufTy).Contents (Elt F)),
    StableHlo.binary main_v76 main_v79 main_v80 (Host.divf : (⟨S32768x40, .f32⟩ : BufTy).Contents (Elt F) → (⟨S32768x40, .f32⟩ : BufTy).Contents (Elt F) → (⟨S32768x40, .f32⟩ : BufTy).Contents (Elt F)),
    StableHlo.binary main_v80 main_cst_1 main_v81 ((fun l r => Host.dotGeneral dot_S32768x40_S40x40_S32768x40_1_0_0_1_n_n none l r) : (⟨S32768x40, .f32⟩ : BufTy).Contents (Elt F) → (⟨S40x40, .f32⟩ : BufTy).Contents (Elt F) → (⟨S32768x40, .f32⟩ : BufTy).Contents (Elt F)),
    StableHlo.nullary main_cst_24 (constant S_ .f32 0x00000000#32),
    StableHlo.binary main_v81 main_cst_24 main_v82 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    StableHlo.unary main_v82 main_v83 (broadcastInDim S32768x1 ![0] bcast_S32768_S32768x1_0 : (⟨S32768, .f32⟩ : BufTy).Contents (Elt F) → (⟨S32768x1, .f32⟩ : BufTy).Contents (Elt F)),
    StableHlo.nullary main_cst_25 (constant S_ .f32 0x358637BD#32),
    StableHlo.unary main_cst_25 main_v84 (broadcastInDim S32768x1 ![] bcast_S_S32768x1 : (⟨S_, .f32⟩ : BufTy).Contents (Elt F) → (⟨S32768x1, .f32⟩ : BufTy).Contents (Elt F)),
    StableHlo.binary main_v83 main_v84 main_v85 (addf : (⟨S32768x1, .f32⟩ : BufTy).Contents (Elt F) → (⟨S32768x1, .f32⟩ : BufTy).Contents (Elt F) → (⟨S32768x1, .f32⟩ : BufTy).Contents (Elt F)),
    StableHlo.unary main_v85 main_v86 (broadcastInDim S32768x40 ![0, 1] bcast_S32768x1_S32768x40_0_1 : (⟨S32768x1, .f32⟩ : BufTy).Contents (Elt F) → (⟨S32768x40, .f32⟩ : BufTy).Contents (Elt F)),
    StableHlo.binary main_v81 main_v86 main_v87 (Host.divf : (⟨S32768x40, .f32⟩ : BufTy).Contents (Elt F) → (⟨S32768x40, .f32⟩ : BufTy).Contents (Elt F) → (⟨S32768x40, .f32⟩ : BufTy).Contents (Elt F)),
    StableHlo.binary main_v87 main_arg3 main_v88 ((fun l r => Host.dotGeneral dot_S32768x40_S40x512_S32768x512_1_0_0_1_n_n none l r) : (⟨S32768x40, .f32⟩ : BufTy).Contents (Elt F) → (⟨S40x512, .f32⟩ : BufTy).Contents (Elt F) → (⟨S32768x512, .f32⟩ : BufTy).Contents (Elt F)),
    StableHlo.TRef.binary (.of main_arg4) (.of main_arg4) main_call4.v0 mulf,
    StableHlo.TRef.nullary main_call4.cst (constant S_ .f32 0x00000000#32),
    StableHlo.TRef.binary main_call4.v0 main_call4.cst main_call4.v1 (fun x v => Host.reduceAdd x v reducesTo_S40x512_S40_d1 h_S_),
    StableHlo.TRef.unary main_call4.v1 main_call4.v2 (broadcastInDim S40x1 ![0] bcast_S40_S40x1_0),
    StableHlo.TRef.unary main_call4.v2 main_call4.v3 Host.sqrt,
    StableHlo.nullary main_cst_26 (constant S_ .f32 0x358637BD#32),
    StableHlo.unary main_cst_26 main_v90 (broadcastInDim S40x1 ![] bcast_S_S40x1 : (⟨S_, .f32⟩ : BufTy).Contents (Elt F) → (⟨S40x1, .f32⟩ : BufTy).Contents (Elt F)),
    StableHlo.binary main_v89 main_v90 main_v91 (addf : (⟨S40x1, .f32⟩ : BufTy).Contents (Elt F) → (⟨S40x1, .f32⟩ : BufTy).Contents (Elt F) → (⟨S40x1, .f32⟩ : BufTy).Contents (Elt F)) ]

set_option maxRecDepth 8192 in
/-- Operations 141 … 204 of 216: the window main_part2. -/
abbrev ops2 : List (HloOp τ sig (Elt F)) :=
  [ StableHlo.unary main_v91 main_v92 (broadcastInDim S40x512 ![0, 1] bcast_S40x1_S40x512_0_1 : (⟨S40x1, .f32⟩ : BufTy).Contents (Elt F) → (⟨S40x512, .f32⟩ : BufTy).Contents (Elt F)),
    StableHlo.binary main_arg4 main_v92 main_v93 (Host.divf : (⟨S40x512, .f32⟩ : BufTy).Contents (Elt F) → (⟨S40x512, .f32⟩ : BufTy).Contents (Elt F) → (⟨S40x512, .f32⟩ : BufTy).Contents (Elt F)),
    StableHlo.unary main_v93 main_v94 ((transpose S512x40 [1, 0] · transposes_S40x512_S512x40_1_0) : (⟨S40x512, .f32⟩ : BufTy).Contents (Elt F) → (⟨S512x40, .f32⟩ : BufTy).Contents (Elt F)),
    StableHlo.binary main_v4 main_v94 main_v95 ((fun l r => Host.dotGeneral dot_S32768x512_S512x40_S32768x40_1_0_0_1_n_n none l r) : (⟨S32768x512, .f32⟩ : BufTy).Contents (Elt F) → (⟨S512x40, .f32⟩ : BufTy).Contents (Elt F) → (⟨S32768x40, .f32⟩ : BufTy).Contents (Elt F)),
    StableHlo.nullary main_cst_27 (constant S_ .f32 0x3D8F5C29#32),
    StableHlo.unary main_cst_27 main_v96 (broadcastInDim S32768x40 ![] bcast_S_S32768x40 : (⟨S_, .f32⟩ : BufTy).Contents (Elt F) → (⟨S32768x40, .f32⟩ : BufTy).Contents (Elt F)),
    StableHlo.binary main_v95 main_v96 main_v97 (Host.divf : (⟨S32768x40, .f32⟩ : BufTy).Contents (Elt F) → (⟨S32768x40, .f32⟩ : BufTy).Contents (Elt F) → (⟨S32768x40, .f32⟩ : BufTy).Contents (Elt F)),
    StableHlo.nullary main_cst_28 (constant S_ .f32 0xFF800000#32),
    StableHlo.binary main_v97 main_cst_28 main_v98 ((fun x v => Host.reduce FloatOps.maximumf x v reducesTo_S32768x40_S32768_d1 h_S_) : (⟨S32768x40, .f32⟩ : BufTy).Contents (Elt F) → (⟨S_, .f32⟩ : BufTy).Contents (Elt F) → (⟨S32768, .f32⟩ : BufTy).Contents (Elt F)),
    StableHlo.nullary main_cst_29 (constant S_ .f32 0xFF800000#32),
    StableHlo.unary main_cst_29 main_v99 (broadcastInDim S32768 ![] bcast_S_S32768 : (⟨S_, .f32⟩ : BufTy).Contents (Elt F) → (⟨S32768, .f32⟩ : BufTy).Contents (Elt F)),
    StableHlo.binary main_v99 main_v98 main_v100 (maximumf : (⟨S32768, .f32⟩ : BufTy).Contents (Elt F) → (⟨S32768, .f32⟩ : BufTy).Contents (Elt F) → (⟨S32768, .f32⟩ : BufTy).Contents (Elt F)),
    StableHlo.unary main_v100 main_v101 (broadcastInDim S32768x1 ![0] bcast_S32768_S32768x1_0 : (⟨S32768, .f32⟩ : BufTy).Contents (Elt F) → (⟨S32768x1, .f32⟩ : BufTy).Contents (Elt F)),
    StableHlo.unary main_v101 main_v102 (broadcastInDim S32768x40 ![0, 1] bcast_S32768x1_S32768x40_0_1 : (⟨S32768x1, .f32⟩ : BufTy).Contents (Elt F) → (⟨S32768x40, .f32⟩ : BufTy).Contents (Elt F)),
    StableHlo.binary main_v97 main_v102 main_v103 (subf : (⟨S32768x40, .f32⟩ : BufTy).Contents (Elt F) → (⟨S32768x40, .f32⟩ : BufTy).Contents (Elt F) → (⟨S32768x40, .f32⟩ : BufTy).Contents (Elt F)),
    StableHlo.unary main_v103 main_v104 (Host.exp : (⟨S32768x40, .f32⟩ : BufTy).Contents (Elt F) → (⟨S32768x40, .f32⟩ : BufTy).Contents (Elt F)),
    StableHlo.nullary main_cst_30 (constant S_ .f32 0x00000000#32),
    StableHlo.binary main_v104 main_cst_30 main_v105 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    StableHlo.unary main_v105 main_v106 (broadcastInDim S32768x1 ![0] bcast_S32768_S32768x1_0 : (⟨S32768, .f32⟩ : BufTy).Contents (Elt F) → (⟨S32768x1, .f32⟩ : BufTy).Contents (Elt F)),
    StableHlo.unary main_v106 main_v107 (broadcastInDim S32768x40 ![0, 1] bcast_S32768x1_S32768x40_0_1 : (⟨S32768x1, .f32⟩ : BufTy).Contents (Elt F) → (⟨S32768x40, .f32⟩ : BufTy).Contents (Elt F)),
    StableHlo.binary main_v104 main_v107 main_v108 (Host.divf : (⟨S32768x40, .f32⟩ : BufTy).Contents (Elt F) → (⟨S32768x40, .f32⟩ : BufTy).Contents (Elt F) → (⟨S32768x40, .f32⟩ : BufTy).Contents (Elt F)),
    StableHlo.binary main_v108 main_cst_2 main_v109 ((fun l r => Host.dotGeneral dot_S32768x40_S40x40_S32768x40_1_0_0_1_n_n none l r) : (⟨S32768x40, .f32⟩ : BufTy).Contents (Elt F) → (⟨S40x40, .f32⟩ : BufTy).Contents (Elt F) → (⟨S32768x40, .f32⟩ : BufTy).Contents (Elt F)),
    StableHlo.nullary main_cst_31 (constant S_ .f32 0x00000000#32),
    StableHlo.binary main_v109 main_cst_31 main_v110 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    StableHlo.unary main_v110 main_v111 (broadcastInDim S32768x1 ![0] bcast_S32768_S32768x1_0 : (⟨S32768, .f32⟩ : BufTy).Contents (Elt F) → (⟨S32768x1, .f32⟩ : BufTy).Contents (Elt F)),
    StableHlo.nullary main_cst_32 (constant S_ .f32 0x358637BD#32),
    StableHlo.unary main_cst_32 main_v112 (broadcastInDim S32768x1 ![] bcast_S_S32768x1 : (⟨S_, .f32⟩ : BufTy).Contents (Elt F) → (⟨S32768x1, .f32⟩ : BufTy).Contents (Elt F)),
    StableHlo.binary main_v111 main_v112 main_v113 (addf : (⟨S32768x1, .f32⟩ : BufTy).Contents (Elt F) → (⟨S32768x1, .f32⟩ : BufTy).Contents (Elt F) → (⟨S32768x1, .f32⟩ : BufTy).Contents (Elt F)),
    StableHlo.unary main_v113 main_v114 (broadcastInDim S32768x40 ![0, 1] bcast_S32768x1_S32768x40_0_1 : (⟨S32768x1, .f32⟩ : BufTy).Contents (Elt F) → (⟨S32768x40, .f32⟩ : BufTy).Contents (Elt F)),
    StableHlo.binary main_v109 main_v114 main_v115 (Host.divf : (⟨S32768x40, .f32⟩ : BufTy).Contents (Elt F) → (⟨S32768x40, .f32⟩ : BufTy).Contents (Elt F) → (⟨S32768x40, .f32⟩ : BufTy).Contents (Elt F)),
    StableHlo.binary main_v115 main_arg4 main_v116 ((fun l r => Host.dotGeneral dot_S32768x40_S40x512_S32768x512_1_0_0_1_n_n none l r) : (⟨S32768x40, .f32⟩ : BufTy).Contents (Elt F) → (⟨S40x512, .f32⟩ : BufTy).Contents (Elt F) → (⟨S32768x512, .f32⟩ : BufTy).Contents (Elt F)),
    StableHlo.TRef.binary (.of main_arg5) (.of main_arg5) main_call5.v0 mulf,
    StableHlo.TRef.nullary main_call5.cst (constant S_ .f32 0x00000000#32),
    StableHlo.TRef.binary main_call5.v0 main_call5.cst main_call5.v1 (fun x v => Host.reduceAdd x v reducesTo_S24x512_S24_d1 h_S_),
    StableHlo.TRef.unary main_call5.v1 main_call5.v2 (broadcastInDim S24x1 ![0] bcast_S24_S24x1_0),
    StableHlo.TRef.unary main_call5.v2 main_call5.v3 Host.sqrt,
    StableHlo.nullary main_cst_33 (constant S_ .f32 0x358637BD#32),
    StableHlo.unary main_cst_33 main_v118 (broadcastInDim S24x1 ![] bcast_S_S24x1 : (⟨S_, .f32⟩ : BufTy).Contents (Elt F) → (⟨S24x1, .f32⟩ : BufTy).Contents (Elt F)),
    StableHlo.binary main_v117 main_v118 main_v119 (addf : (⟨S24x1, .f32⟩ : BufTy).Contents (Elt F) → (⟨S24x1, .f32⟩ : BufTy).Contents (Elt F) → (⟨S24x1, .f32⟩ : BufTy).Contents (Elt F)),
    StableHlo.unary main_v119 main_v120 (broadcastInDim S24x512 ![0, 1] bcast_S24x1_S24x512_0_1 : (⟨S24x1, .f32⟩ : BufTy).Contents (Elt F) → (⟨S24x512, .f32⟩ : BufTy).Contents (Elt F)),
    StableHlo.binary main_arg5 main_v120 main_v121 (Host.divf : (⟨S24x512, .f32⟩ : BufTy).Contents (Elt F) → (⟨S24x512, .f32⟩ : BufTy).Contents (Elt F) → (⟨S24x512, .f32⟩ : BufTy).Contents (Elt F)),
    StableHlo.unary main_v121 main_v122 ((transpose S512x24 [1, 0] · transposes_S24x512_S512x24_1_0) : (⟨S24x512, .f32⟩ : BufTy).Contents (Elt F) → (⟨S512x24, .f32⟩ : BufTy).Contents (Elt F)),
    StableHlo.binary main_v4 main_v122 main_v123 ((fun l r => Host.dotGeneral dot_S32768x512_S512x24_S32768x24_1_0_0_1_n_n none l r) : (⟨S32768x512, .f32⟩ : BufTy).Contents (Elt F) → (⟨S512x24, .f32⟩ : BufTy).Contents (Elt F) → (⟨S32768x24, .f32⟩ : BufTy).Contents (Elt F)),
    StableHlo.nullary main_cst_34 (constant S_ .f32 0x3D8F5C29#32),
    StableHlo.unary main_cst_34 main_v124 (broadcastInDim S32768x24 ![] bcast_S_S32768x24 : (⟨S_, .f32⟩ : BufTy).Contents (Elt F) → (⟨S32768x24, .f32⟩ : BufTy).Contents (Elt F)),
    StableHlo.binary main_v123 main_v124 main_v125 (Host.divf : (⟨S32768x24, .f32⟩ : BufTy).Contents (Elt F) → (⟨S32768x24, .f32⟩ : BufTy).Contents (Elt F) → (⟨S32768x24, .f32⟩ : BufTy).Contents (Elt F)),
    StableHlo.nullary main_cst_35 (constant S_ .f32 0xFF800000#32),
    StableHlo.binary main_v125 main_cst_35 main_v126 ((fun x v => Host.reduce FloatOps.maximumf x v reducesTo_S32768x24_S32768_d1 h_S_) : (⟨S32768x24, .f32⟩ : BufTy).Contents (Elt F) → (⟨S_, .f32⟩ : BufTy).Contents (Elt F) → (⟨S32768, .f32⟩ : BufTy).Contents (Elt F)),
    StableHlo.nullary main_cst_36 (constant S_ .f32 0xFF800000#32),
    StableHlo.unary main_cst_36 main_v127 (broadcastInDim S32768 ![] bcast_S_S32768 : (⟨S_, .f32⟩ : BufTy).Contents (Elt F) → (⟨S32768, .f32⟩ : BufTy).Contents (Elt F)),
    StableHlo.binary main_v127 main_v126 main_v128 (maximumf : (⟨S32768, .f32⟩ : BufTy).Contents (Elt F) → (⟨S32768, .f32⟩ : BufTy).Contents (Elt F) → (⟨S32768, .f32⟩ : BufTy).Contents (Elt F)),
    StableHlo.unary main_v128 main_v129 (broadcastInDim S32768x1 ![0] bcast_S32768_S32768x1_0 : (⟨S32768, .f32⟩ : BufTy).Contents (Elt F) → (⟨S32768x1, .f32⟩ : BufTy).Contents (Elt F)),
    StableHlo.unary main_v129 main_v130 (broadcastInDim S32768x24 ![0, 1] bcast_S32768x1_S32768x24_0_1 : (⟨S32768x1, .f32⟩ : BufTy).Contents (Elt F) → (⟨S32768x24, .f32⟩ : BufTy).Contents (Elt F)),
    StableHlo.binary main_v125 main_v130 main_v131 (subf : (⟨S32768x24, .f32⟩ : BufTy).Contents (Elt F) → (⟨S32768x24, .f32⟩ : BufTy).Contents (Elt F) → (⟨S32768x24, .f32⟩ : BufTy).Contents (Elt F)),
    StableHlo.unary main_v131 main_v132 (Host.exp : (⟨S32768x24, .f32⟩ : BufTy).Contents (Elt F) → (⟨S32768x24, .f32⟩ : BufTy).Contents (Elt F)),
    StableHlo.nullary main_cst_37 (constant S_ .f32 0x00000000#32),
    StableHlo.binary main_v132 main_cst_37 main_v133 ((fun x v => Host.reduceAdd x v reducesTo_S32768x24_S32768_d1 h_S_) : (⟨S32768x24, .f32⟩ : BufTy).Contents (Elt F) → (⟨S_, .f32⟩ : BufTy).Contents (Elt F) → (⟨S32768, .f32⟩ : BufTy).Contents (Elt F)),
    StableHlo.unary main_v133 main_v134 (broadcastInDim S32768x1 ![0] bcast_S32768_S32768x1_0 : (⟨S32768, .f32⟩ : BufTy).Contents (Elt F) → (⟨S32768x1, .f32⟩ : BufTy).Contents (Elt F)),
    StableHlo.unary main_v134 main_v135 (broadcastInDim S32768x24 ![0, 1] bcast_S32768x1_S32768x24_0_1 : (⟨S32768x1, .f32⟩ : BufTy).Contents (Elt F) → (⟨S32768x24, .f32⟩ : BufTy).Contents (Elt F)),
    StableHlo.binary main_v132 main_v135 main_v136 (Host.divf : (⟨S32768x24, .f32⟩ : BufTy).Contents (Elt F) → (⟨S32768x24, .f32⟩ : BufTy).Contents (Elt F) → (⟨S32768x24, .f32⟩ : BufTy).Contents (Elt F)),
    StableHlo.binary main_v136 main_cst_3 main_v137 ((fun l r => Host.dotGeneral dot_S32768x24_S24x24_S32768x24_1_0_0_1_n_n none l r) : (⟨S32768x24, .f32⟩ : BufTy).Contents (Elt F) → (⟨S24x24, .f32⟩ : BufTy).Contents (Elt F) → (⟨S32768x24, .f32⟩ : BufTy).Contents (Elt F)),
    StableHlo.nullary main_cst_38 (constant S_ .f32 0x00000000#32),
    StableHlo.binary main_v137 main_cst_38 main_v138 ((fun x v => Host.reduceAdd x v reducesTo_S32768x24_S32768_d1 h_S_) : (⟨S32768x24, .f32⟩ : BufTy).Contents (Elt F) → (⟨S_, .f32⟩ : BufTy).Contents (Elt F) → (⟨S32768, .f32⟩ : BufTy).Contents (Elt F)),
    StableHlo.unary main_v138 main_v139 (broadcastInDim S32768x1 ![0] bcast_S32768_S32768x1_0 : (⟨S32768, .f32⟩ : BufTy).Contents (Elt F) → (⟨S32768x1, .f32⟩ : BufTy).Contents (Elt F)) ]

set_option maxRecDepth 8192 in
/-- Operations 205 … 216 of 216: the window main_part3. -/
abbrev ops3 : List (HloOp τ sig (Elt F)) :=
  [ StableHlo.nullary main_cst_39 (constant S_ .f32 0x358637BD#32),
    StableHlo.unary main_cst_39 main_v140 (broadcastInDim S32768x1 ![] bcast_S_S32768x1 : (⟨S_, .f32⟩ : BufTy).Contents (Elt F) → (⟨S32768x1, .f32⟩ : BufTy).Contents (Elt F)),
    StableHlo.binary main_v139 main_v140 main_v141 (addf : (⟨S32768x1, .f32⟩ : BufTy).Contents (Elt F) → (⟨S32768x1, .f32⟩ : BufTy).Contents (Elt F) → (⟨S32768x1, .f32⟩ : BufTy).Contents (Elt F)),
    StableHlo.unary main_v141 main_v142 (broadcastInDim S32768x24 ![0, 1] bcast_S32768x1_S32768x24_0_1 : (⟨S32768x1, .f32⟩ : BufTy).Contents (Elt F) → (⟨S32768x24, .f32⟩ : BufTy).Contents (Elt F)),
    StableHlo.binary main_v137 main_v142 main_v143 (Host.divf : (⟨S32768x24, .f32⟩ : BufTy).Contents (Elt F) → (⟨S32768x24, .f32⟩ : BufTy).Contents (Elt F) → (⟨S32768x24, .f32⟩ : BufTy).Contents (Elt F)),
    StableHlo.binary main_v143 main_arg5 main_v144 ((fun l r => Host.dotGeneral dot_S32768x24_S24x512_S32768x512_1_0_0_1_n_n none l r) : (⟨S32768x24, .f32⟩ : BufTy).Contents (Elt F) → (⟨S24x512, .f32⟩ : BufTy).Contents (Elt F) → (⟨S32768x512, .f32⟩ : BufTy).Contents (Elt F)),
    StableHlo.unary main_v32 main_v145 (broadcastInDim S32768x1x512 ![0, 2] bcast_S32768x512_S32768x1x512_0_2 : (⟨S32768x512, .f32⟩ : BufTy).Contents (Elt F) → (⟨S32768x1x512, .f32⟩ : BufTy).Contents (Elt F)),
    StableHlo.unary main_v60 main_v146 (broadcastInDim S32768x1x512 ![0, 2] bcast_S32768x512_S32768x1x512_0_2 : (⟨S32768x512, .f32⟩ : BufTy).Contents (Elt F) → (⟨S32768x1x512, .f32⟩ : BufTy).Contents (Elt F)),
    StableHlo.unary main_v88 main_v147 (broadcastInDim S32768x1x512 ![0, 2] bcast_S32768x512_S32768x1x512_0_2 : (⟨S32768x512, .f32⟩ : BufTy).Contents (Elt F) → (⟨S32768x1x512, .f32⟩ : BufTy).Contents (Elt F)),
    StableHlo.unary main_v116 main_v148 (broadcastInDim S32768x1x512 ![0, 2] bcast_S32768x512_S32768x1x512_0_2 : (⟨S32768x512, .f32⟩ : BufTy).Contents (Elt F) → (⟨S32768x1x512, .f32⟩ : BufTy).Contents (Elt F)),
    StableHlo.unary main_v144 main_v149 (broadcastInDim S32768x1x512 ![0, 2] bcast_S32768x512_S32768x1x512_0_2 : (⟨S32768x512, .f32⟩ : BufTy).Contents (Elt F) → (⟨S32768x1x512, .f32⟩ : BufTy).Contents (Elt F)),
    StableHlo.nary ![main_v145, main_v146, main_v147, main_v148, main_v149] main_v150 (fun u => concatenate S32768x5x512 1 [⟨S32768x1x512, u 0⟩, ⟨S32768x1x512, u 1⟩, ⟨S32768x1x512, u 2⟩, ⟨S32768x1x512, u 3⟩, ⟨S32768x1x512, u 4⟩] concatenates_S32768x1x512_S32768x1x512_S32768x1x512_S32768x1x512_S32768x1x512_S32768x5x512_d1) ]

/-- @main's 216 operations, in order. -/
abbrev ops : List (HloOp τ sig (Elt F)) :=
  ops0 ++ (ops1 ++ (ops2 ++ (ops3)))

end Cert.RefRun

end
-- ==== Proof.RefRun.lean ====
/- The run of the reference program's @main.  @main is a straight line of host operations, printed in four
   windows; six of its statements call one of the functions that take the Euclidean norm of each row of a
   matrix (multiply by itself, sum along the row, widen to a column, square root).  Unfolding each call at
   its call site over the call's own buffers, each window IS the sequence of one of the four lists of
   RefOps, and @main the sequence of their concatenation.  The library's theorem about such a line then
   gives the run: every weakly fair execution ends, with every buffer of every device holding what the
   fold of the list over the launch contents leaves in it. -/
import proofs.«174165_j62843961475556_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each window is the sequence of its list

A call's body is a sequence of its own ending in a return; placed in the window's sequence it is that
sequence's next five steps once sequencing is re-associated (bind_assoc) and the callee's return dropped
(pure_bind).  After that both sides are the same chain of steps. -/

set_option maxRecDepth 8192 in
set_option maxHeartbeats 4000000 in
theorem main_part0_eq (c : Dev nD) : main_part0 (F := F) c = seq ops0 := by
  simp only [main_part0, fn_norm.body, fn_norm_0.body, fn_norm_1.body, seq, bind_assoc, pure_bind]
  rfl

set_option maxRecDepth 8192 in
set_option maxHeartbeats 4000000 in
theorem main_part1_eq (c : Dev nD) : main_part1 (F := F) c = seq ops1 := by
  simp only [main_part1, fn_norm_2.body, seq, bind_assoc, pure_bind]
  rfl

set_option maxRecDepth 8192 in
set_option maxHeartbeats 4000000 in
theorem main_part2_eq (c : Dev nD) : main_part2 (F := F) c = seq ops2 := by
  simp only [main_part2, fn_norm_3.body, seq, bind_assoc, pure_bind]
  rfl

set_option maxRecDepth 8192 in
set_option maxHeartbeats 4000000 in
theorem main_part3_eq (c : Dev nD) : main_part3 (F := F) c = seq ops3 := rfl

set_option maxRecDepth 8192 in
/-- @main runs its four windows in order; the sequence of a concatenation is the sequences in order. -/
theorem main_eq (c : Dev nD) : main (F := F) c = seq ops := by
  simp only [ops, seq_append, ← main_part0_eq c, ← main_part1_eq c, ← main_part2_eq c, ← main_part3_eq c]
  rfl

/-! ## The side conditions of the library's run theorem -/

/-- The program declares no scoped TensorCore buffer. -/
theorem scopedRefs_eq : (Finset.univ.filter fun b : Ref sig .tc => b.isScoped) = ∅ := by decide
/-- The program declares no scoped semaphore. -/
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [ops0, List.Forall, nullary_bufs_sub, unary_bufs_sub, binary_bufs_sub, nary_bufs_sub, and_self]

set_option maxRecDepth 8192 in
theorem ops1_sub : (ops1 : List (HloOp τ sig (Elt F))).Forall fun op => op.bufs ⊆ tcRefs τ sig := by
  simp only [ops1, List.Forall, nullary_bufs_sub, unary_bufs_sub, binary_bufs_sub, nary_bufs_sub, and_self]

set_option maxRecDepth 8192 in
theorem ops2_sub : (ops2 : List (HloOp τ sig (Elt F))).Forall fun op => op.bufs ⊆ tcRefs τ sig := by
  simp only [ops2, List.Forall, nullary_bufs_sub, unary_bufs_sub, binary_bufs_sub, nary_bufs_sub, and_self]

set_option maxRecDepth 8192 in
theorem ops3_sub : (ops3 : List (HloOp τ sig (Elt F))).Forall fun op => op.bufs ⊆ tcRefs τ sig := by
  simp only [ops3, List.Forall, nullary_bufs_sub, unary_bufs_sub, binary_bufs_sub, nary_bufs_sub, and_self]

/-- Every operation of the line touches TensorCore buffers only: an operation of the concatenation is an
    operation of one of the four lists. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! ## The run -/

/-- At the compiled mesh, for any float values, from any memory with zero counters: every weakly fair execution
    of @main on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefTerms.lean ====
/-
  The reference program's values as terms of its argument arrays.

  Each definition is the composition of the operations the reference performs, one operation of the term per operation of the
  program, with the shape side conditions the program names: the scaling of the feature rows to unit length, then for each
  of the five prototype families the scaling of the prototype rows, the inner products divided by the temperature, the
  exponentials of the differences with the row maximum divided by their row sum, the product with the constant affinity
  matrix, the division by the row sum plus the small constant, and the product with the prototype rows; last the five
  results stacked along a middle axis.
-/
import proofs.«174165_j62843961475556_2_alg».proof.Proof.Gen.ReferenceIdeal
import Idealize.ShloMosaic.PureOps.Ideal
import Idealize.ShloMosaic.PureOps.Ideal.Laws

noncomputable section

namespace Cert.RefTerms

open Idealize.ShloMosaic
open Cert.ReferenceIdeal Cert.ReferenceIdeal.Facts₀

/-- The affinity matrix of the first family: the constant the program writes first. -/
def a0 : FVec Ideal S2x2 .f32 := fun i => FloatOps.ofBits .f32 (lit0 (S2x2.rowMajor i))
/-- The affinity matrix of the second family. -/
def a1 : FVec Ideal S15x15 .f32 := fun i => FloatOps.ofBits .f32 (lit1 (S15x15.rowMajor i))
/-- The affinity matrix of the third family. -/
def a2 : FVec Ideal S40x40 .f32 := fun i => FloatOps.ofBits .f32 (lit2 (S40x40.rowMajor i))
/-- The affinity matrix of the fourth family. -/
def a3 : FVec Ideal S40x40 .f32 := fun i => FloatOps.ofBits .f32 (lit3 (S40x40.rowMajor i))
/-- The affinity matrix of the fifth family. -/
def a4 : FVec Ideal S24x24 .f32 := fun i => FloatOps.ofBits .f32 (lit4 (S24x24.rowMajor i))

/-- Value %4: every feature row divided by its Euclidean norm plus the small constant. -/
def hXn (x : FVec Ideal S32768x512 .f32) : FVec Ideal S32768x512 .f32 :=
  Host.divf (F := Ideal) x (broadcastInDim S32768x512 ![0, 1] bcast_S32768x1_S32768x512_0_1 (addf (Host.sqrt (F := Ideal) (broadcastInDim S32768x1 ![0] bcast_S32768_S32768x1_0 (Host.reduceAdd (F := Ideal) (mulf x x) (constant (F := Ideal) S_ .f32 0x00000000#32) reducesTo_S32768x512_S32768_d1 h_S_))) (broadcastInDim S32768x1 ![] bcast_S_S32768x1 (constant (F := Ideal) S_ .f32 0x358637BD#32))))

/-- Value %32: the family of 2 prototypes applied to the scaled features `xn` (value %4), with the affinity constant `a0`. -/
def hG0 (xn : FVec Ideal S32768x512 .f32) (P : FVec Ideal S2x512 .f32) : FVec Ideal S32768x512 .f32 :=
  let pn : FVec Ideal S2x512 .f32 := Host.divf (F := Ideal) P (broadcastInDim S2x512 ![0, 1] bcast_S2x1_S2x512_0_1 (addf (Host.sqrt (F := Ideal) (broadcastInDim S2x1 ![0] bcast_S2_S2x1_0 (Host.reduceAdd (F := Ideal) (mulf P P) (constant (F := Ideal) S_ .f32 0x00000000#32) reducesTo_S2x512_S2_d1 h_S_))) (broadcastInDim S2x1 ![] bcast_S_S2x1 (constant (F := Ideal) S_ .f32 0x358637BD#32))))
  let l : FVec Ideal S32768x2 .f32 := Host.divf (F := Ideal) (Host.dotGeneral (F := Ideal) dot_S32768x512_S512x2_S32768x2_1_0_0_1_n_n none xn (transpose S512x2 [1, 0] pn transposes_S2x512_S512x2_1_0)) (broadcastInDim S32768x2 ![] bcast_S_S32768x2 (constant (F := Ideal) S_ .f32 0x3D8F5C29#32))
  let m : FVec Ideal S32768x2 .f32 := broadcastInDim S32768x2 ![0, 1] bcast_S32768x1_S32768x2_0_1 (broadcastInDim S32768x1 ![0] bcast_S32768_S32768x1_0 (maximumf (broadcastInDim S32768 ![] bcast_S_S32768 (constant (F := Ideal) S_ .f32 0xFF800000#32)) (Host.reduce FloatOps.maximumf l (constant (F := Ideal) S_ .f32 0xFF800000#32) reducesTo_S32768x2_S32768_d1 h_S_)))
  let e : FVec Ideal S32768x2 .f32 := Host.exp (F := Ideal) (subf l m)
  let s : FVec Ideal S32768x2 .f32 := Host.divf (F := Ideal) e (broadcastInDim S32768x2 ![0, 1] bcast_S32768x1_S32768x2_0_1 (broadcastInDim S32768x1 ![0] bcast_S32768_S32768x1_0 (Host.reduceAdd (F := Ideal) e (constant (F := Ideal) S_ .f32 0x00000000#32) reducesTo_S32768x2_S32768_d1 h_S_)))
  let q : FVec Ideal S32768x2 .f32 := Host.dotGeneral (F := Ideal) dot_S32768x2_S2x2_S32768x2_1_0_0_1_n_n none s a0
  let r : FVec Ideal S32768x2 .f32 := Host.divf (F := Ideal) q (broadcastInDim S32768x2 ![0, 1] bcast_S32768x1_S32768x2_0_1 (addf (broadcastInDim S32768x1 ![0] bcast_S32768_S32768x1_0 (Host.reduceAdd (F := Ideal) q (constant (F := Ideal) S_ .f32 0x00000000#32) reducesTo_S32768x2_S32768_d1 h_S_)) (broadcastInDim S32768x1 ![] bcast_S_S32768x1 (constant (F := Ideal) S_ .f32 0x358637BD#32))))
  Host.dotGeneral (F := Ideal) dot_S32768x2_S2x512_S32768x512_1_0_0_1_n_n none r P

/-- Value %60: the family of 15 prototypes applied to the scaled features `xn` (value %4), with the affinity constant `a1`. -/
def hG1 (xn : FVec Ideal S32768x512 .f32) (P : FVec Ideal S15x512 .f32) : FVec Ideal S32768x512 .f32 :=
  let pn : FVec Ideal S15x512 .f32 := Host.divf (F := Ideal) P (broadcastInDim S15x512 ![0, 1] bcast_S15x1_S15x512_0_1 (addf (Host.sqrt (F := Ideal) (broadcastInDim S15x1 ![0] bcast_S15_S15x1_0 (Host.reduceAdd (F := Ideal) (mulf P P) (constant (F := Ideal) S_ .f32 0x00000000#32) reducesTo_S15x512_S15_d1 h_S_))) (broadcastInDim S15x1 ![] bcast_S_S15x1 (constant (F := Ideal) S_ .f32 0x358637BD#32))))
  let l : FVec Ideal S32768x15 .f32 := Host.divf (F := Ideal) (Host.dotGeneral (F := Ideal) dot_S32768x512_S512x15_S32768x15_1_0_0_1_n_n none xn (transpose S512x15 [1, 0] pn transposes_S15x512_S512x15_1_0)) (broadcastInDim S32768x15 ![] bcast_S_S32768x15 (constant (F := Ideal) S_ .f32 0x3D8F5C29#32))
  let m : FVec Ideal S32768x15 .f32 := broadcastInDim S32768x15 ![0, 1] bcast_S32768x1_S32768x15_0_1 (broadcastInDim S32768x1 ![0] bcast_S32768_S32768x1_0 (maximumf (broadcastInDim S32768 ![] bcast_S_S32768 (constant (F := Ideal) S_ .f32 0xFF800000#32)) (Host.reduce FloatOps.maximumf l (constant (F := Ideal) S_ .f32 0xFF800000#32) reducesTo_S32768x15_S32768_d1 h_S_)))
  let e : FVec Ideal S32768x15 .f32 := Host.exp (F := Ideal) (subf l m)
  let s : FVec Ideal S32768x15 .f32 := Host.divf (F := Ideal) e (broadcastInDim S32768x15 ![0, 1] bcast_S32768x1_S32768x15_0_1 (broadcastInDim S32768x1 ![0] bcast_S32768_S32768x1_0 (Host.reduceAdd (F := Ideal) e (constant (F := Ideal) S_ .f32 0x00000000#32) reducesTo_S32768x15_S32768_d1 h_S_)))
  let q : FVec Ideal S32768x15 .f32 := Host.dotGeneral (F := Ideal) dot_S32768x15_S15x15_S32768x15_1_0_0_1_n_n none s a1
  let r : FVec Ideal S32768x15 .f32 := Host.divf (F := Ideal) q (broadcastInDim S32768x15 ![0, 1] bcast_S32768x1_S32768x15_0_1 (addf (broadcastInDim S32768x1 ![0] bcast_S32768_S32768x1_0 (Host.reduceAdd (F := Ideal) q (constant (F := Ideal) S_ .f32 0x00000000#32) reducesTo_S32768x15_S32768_d1 h_S_)) (broadcastInDim S32768x1 ![] bcast_S_S32768x1 (constant (F := Ideal) S_ .f32 0x358637BD#32))))
  Host.dotGeneral (F := Ideal) dot_S32768x15_S15x512_S32768x512_1_0_0_1_n_n none r P

/-- Value %88: the family of 40 prototypes applied to the scaled features `xn` (value %4), with the affinity constant `a2`. -/
def hG2 (xn : FVec Ideal S32768x512 .f32) (P : FVec Ideal S40x512 .f32) : FVec Ideal S32768x512 .f32 :=
  let pn : FVec Ideal S40x512 .f32 := Host.divf (F := Ideal) P (broadcastInDim S40x512 ![0, 1] bcast_S40x1_S40x512_0_1 (addf (Host.sqrt (F := Ideal) (broadcastInDim S40x1 ![0] bcast_S40_S40x1_0 (Host.reduceAdd (F := Ideal) (mulf P P) (constant (F := Ideal) S_ .f32 0x00000000#32) reducesTo_S40x512_S40_d1 h_S_))) (broadcastInDim S40x1 ![] bcast_S_S40x1 (constant (F := Ideal) S_ .f32 0x358637BD#32))))
  let l : FVec Ideal S32768x40 .f32 := Host.divf (F := Ideal) (Host.dotGeneral (F := Ideal) dot_S32768x512_S512x40_S32768x40_1_0_0_1_n_n none xn (transpose S512x40 [1, 0] pn transposes_S40x512_S512x40_1_0)) (broadcastInDim S32768x40 ![] bcast_S_S32768x40 (constant (F := Ideal) S_ .f32 0x3D8F5C29#32))
  let m : FVec Ideal S32768x40 .f32 := broadcastInDim S32768x40 ![0, 1] bcast_S32768x1_S32768x40_0_1 (broadcastInDim S32768x1 ![0] bcast_S32768_S32768x1_0 (maximumf (broadcastInDim S32768 ![] bcast_S_S32768 (constant (F := Ideal) S_ .f32 0xFF800000#32)) (Host.reduce FloatOps.maximumf l (constant (F := Ideal) S_ .f32 0xFF800000#32) reducesTo_S32768x40_S32768_d1 h_S_)))
  let e : FVec Ideal S32768x40 .f32 := Host.exp (F := Ideal) (subf l m)
  let s : FVec Ideal S32768x40 .f32 := Host.divf (F := Ideal) e (broadcastInDim S32768x40 ![0, 1] bcast_S32768x1_S32768x40_0_1 (broadcastInDim S32768x1 ![0] bcast_S32768_S32768x1_0 (Host.reduceAdd (F := Ideal) e (constant (F := Ideal) S_ .f32 0x00000000#32) reducesTo_S32768x40_S32768_d1 h_S_)))
  let q : FVec Ideal S32768x40 .f32 := Host.dotGeneral (F := Ideal) dot_S32768x40_S40x40_S32768x40_1_0_0_1_n_n none s a2
  let r : FVec Ideal S32768x40 .f32 := Host.divf (F := Ideal) q (broadcastInDim S32768x40 ![0, 1] bcast_S32768x1_S32768x40_0_1 (addf (broadcastInDim S32768x1 ![0] bcast_S32768_S32768x1_0 (Host.reduceAdd (F := Ideal) q (constant (F := Ideal) S_ .f32 0x00000000#32) reducesTo_S32768x40_S32768_d1 h_S_)) (broadcastInDim S32768x1 ![] bcast_S_S32768x1 (constant (F := Ideal) S_ .f32 0x358637BD#32))))
  Host.dotGeneral (F := Ideal) dot_S32768x40_S40x512_S32768x512_1_0_0_1_n_n none r P

/-- Value %116: the family of 40 prototypes applied to the scaled features `xn` (value %4), with the affinity constant `a3`. -/
def hG3 (xn : FVec Ideal S32768x512 .f32) (P : FVec Ideal S40x512 .f32) : FVec Ideal S32768x512 .f32 :=
  let pn : FVec Ideal S40x512 .f32 := Host.divf (F := Ideal) P (broadcastInDim S40x512 ![0, 1] bcast_S40x1_S40x512_0_1 (addf (Host.sqrt (F := Ideal) (broadcastInDim S40x1 ![0] bcast_S40_S40x1_0 (Host.reduceAdd (F := Ideal) (mulf P P) (constant (F := Ideal) S_ .f32 0x00000000#32) reducesTo_S40x512_S40_d1 h_S_))) (broadcastInDim S40x1 ![] bcast_S_S40x1 (constant (F := Ideal) S_ .f32 0x358637BD#32))))
  let l : FVec Ideal S32768x40 .f32 := Host.divf (F := Ideal) (Host.dotGeneral (F := Ideal) dot_S32768x512_S512x40_S32768x40_1_0_0_1_n_n none xn (transpose S512x40 [1, 0] pn transposes_S40x512_S512x40_1_0)) (broadcastInDim S32768x40 ![] bcast_S_S32768x40 (constant (F := Ideal) S_ .f32 0x3D8F5C29#32))
  let m : FVec Ideal S32768x40 .f32 := broadcastInDim S32768x40 ![0, 1] bcast_S32768x1_S32768x40_0_1 (broadcastInDim S32768x1 ![0] bcast_S32768_S32768x1_0 (maximumf (broadcastInDim S32768 ![] bcast_S_S32768 (constant (F := Ideal) S_ .f32 0xFF800000#32)) (Host.reduce FloatOps.maximumf l (constant (F := Ideal) S_ .f32 0xFF800000#32) reducesTo_S32768x40_S32768_d1 h_S_)))
  let e : FVec Ideal S32768x40 .f32 := Host.exp (F := Ideal) (subf l m)
  let s : FVec Ideal S32768x40 .f32 := Host.divf (F := Ideal) e (broadcastInDim S32768x40 ![0, 1] bcast_S32768x1_S32768x40_0_1 (broadcastInDim S32768x1 ![0] bcast_S32768_S32768x1_0 (Host.reduceAdd (F := Ideal) e (constant (F := Ideal) S_ .f32 0x00000000#32) reducesTo_S32768x40_S32768_d1 h_S_)))
  let q : FVec Ideal S32768x40 .f32 := Host.dotGeneral (F := Ideal) dot_S32768x40_S40x40_S32768x40_1_0_0_1_n_n none s a3
  let r : FVec Ideal S32768x40 .f32 := Host.divf (F := Ideal) q (broadcastInDim S32768x40 ![0, 1] bcast_S32768x1_S32768x40_0_1 (addf (broadcastInDim S32768x1 ![0] bcast_S32768_S32768x1_0 (Host.reduceAdd (F := Ideal) q (constant (F := Ideal) S_ .f32 0x00000000#32) reducesTo_S32768x40_S32768_d1 h_S_)) (broadcastInDim S32768x1 ![] bcast_S_S32768x1 (constant (F := Ideal) S_ .f32 0x358637BD#32))))
  Host.dotGeneral (F := Ideal) dot_S32768x40_S40x512_S32768x512_1_0_0_1_n_n none r P

/-- Value %144: the family of 24 prototypes applied to the scaled features `xn` (value %4), with the affinity constant `a4`. -/
def hG4 (xn : FVec Ideal S32768x512 .f32) (P : FVec Ideal S24x512 .f32) : FVec Ideal S32768x512 .f32 :=
  let pn : FVec Ideal S24x512 .f32 := Host.divf (F := Ideal) P (broadcastInDim S24x512 ![0, 1] bcast_S24x1_S24x512_0_1 (addf (Host.sqrt (F := Ideal) (broadcastInDim S24x1 ![0] bcast_S24_S24x1_0 (Host.reduceAdd (F := Ideal) (mulf P P) (constant (F := Ideal) S_ .f32 0x00000000#32) reducesTo_S24x512_S24_d1 h_S_))) (broadcastInDim S24x1 ![] bcast_S_S24x1 (constant (F := Ideal) S_ .f32 0x358637BD#32))))
  let l : FVec Ideal S32768x24 .f32 := Host.divf (F := Ideal) (Host.dotGeneral (F := Ideal) dot_S32768x512_S512x24_S32768x24_1_0_0_1_n_n none xn (transpose S512x24 [1, 0] pn transposes_S24x512_S512x24_1_0)) (broadcastInDim S32768x24 ![] bcast_S_S32768x24 (constant (F := Ideal) S_ .f32 0x3D8F5C29#32))
  let m : FVec Ideal S32768x24 .f32 := broadcastInDim S32768x24 ![0, 1] bcast_S32768x1_S32768x24_0_1 (broadcastInDim S32768x1 ![0] bcast_S32768_S32768x1_0 (maximumf (broadcastInDim S32768 ![] bcast_S_S32768 (constant (F := Ideal) S_ .f32 0xFF800000#32)) (Host.reduce FloatOps.maximumf l (constant (F := Ideal) S_ .f32 0xFF800000#32) reducesTo_S32768x24_S32768_d1 h_S_)))
  let e : FVec Ideal S32768x24 .f32 := Host.exp (F := Ideal) (subf l m)
  let s : FVec Ideal S32768x24 .f32 := Host.divf (F := Ideal) e (broadcastInDim S32768x24 ![0, 1] bcast_S32768x1_S32768x24_0_1 (broadcastInDim S32768x1 ![0] bcast_S32768_S32768x1_0 (Host.reduceAdd (F := Ideal) e (constant (F := Ideal) S_ .f32 0x00000000#32) reducesTo_S32768x24_S32768_d1 h_S_)))
  let q : FVec Ideal S32768x24 .f32 := Host.dotGeneral (F := Ideal) dot_S32768x24_S24x24_S32768x24_1_0_0_1_n_n none s a4
  let r : FVec Ideal S32768x24 .f32 := Host.divf (F := Ideal) q (broadcastInDim S32768x24 ![0, 1] bcast_S32768x1_S32768x24_0_1 (addf (broadcastInDim S32768x1 ![0] bcast_S32768_S32768x1_0 (Host.reduceAdd (F := Ideal) q (constant (F := Ideal) S_ .f32 0x00000000#32) reducesTo_S32768x24_S32768_d1 h_S_)) (broadcastInDim S32768x1 ![] bcast_S_S32768x1 (constant (F := Ideal) S_ .f32 0x358637BD#32))))
  Host.dotGeneral (F := Ideal) dot_S32768x24_S24x512_S32768x512_1_0_0_1_n_n none r P

/-- Value %150: the five families' results, each given a middle axis of length one, joined along it. -/
def refOut (x : FVec Ideal S32768x512 .f32) (p0 : FVec Ideal S2x512 .f32) (p1 : FVec Ideal S15x512 .f32)
    (p2 p3 : FVec Ideal S40x512 .f32) (p4 : FVec Ideal S24x512 .f32) : FVec Ideal S32768x5x512 .f32 :=
  concatenate S32768x5x512 1
    [⟨S32768x1x512, broadcastInDim S32768x1x512 ![0, 2] bcast_S32768x512_S32768x1x512_0_2 (hG0 (hXn x) p0)⟩,
     ⟨S32768x1x512, broadcastInDim S32768x1x512 ![0, 2] bcast_S32768x512_S32768x1x512_0_2 (hG1 (hXn x) p1)⟩,
     ⟨S32768x1x512, broadcastInDim S32768x1x512 ![0, 2] bcast_S32768x512_S32768x1x512_0_2 (hG2 (hXn x) p2)⟩,
     ⟨S32768x1x512, broadcastInDim S32768x1x512 ![0, 2] bcast_S32768x512_S32768x1x512_0_2 (hG3 (hXn x) p3)⟩,
     ⟨S32768x1x512, broadcastInDim S32768x1x512 ![0, 2] bcast_S32768x512_S32768x1x512_0_2 (hG4 (hXn x) p4)⟩]
    concatenates_S32768x1x512_S32768x1x512_S32768x1x512_S32768x1x512_S32768x1x512_S32768x5x512_d1

end Cert.RefTerms

end
-- ==== Proof.RefRead.lean ====
/- What the reference program's line of operations leaves in its buffers, at exact real arithmetic.

   The fold of the 216 operations over any starting contents, read at a buffer, is the function of the last
   operation that writes the buffer, applied to the fold of the earlier operations read at its operands' buffers;
   an operation that does not write the buffer leaves what was there.  Unfolding this down to the six argument
   buffers, which no operation writes, gives the composed term of the program's operations: for each of the five
   results that are stacked, the term is the widening of the family's value of RefTerms; the stacked result is
   then the concatenation of the five, which is refOut; and each argument buffer holds what it held. -/
import proofs.«174165_j62843961475556_2_alg».proof.Proof.RefOps
import proofs.«174165_j62843961475556_2_alg».proof.Proof.RefTerms

noncomputable section

namespace Cert.RefRun

open Cert.ReferenceIdeal Cert.ReferenceIdeal.Gen Idealize.ShloMosaic Idealize.ShloMosaic.TcCoe Idealize.SL.Sem Idealize.ShloMosaic.StableHlo

/-- The fold over a concatenation is the fold over the second list from what the first leaves. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- An operation with five operands, none of them its result buffer, read at its result buffer: its function of
    what it leaves in its operands' buffers (it leaves there what it found). -/
theorem nary5_read {τ : Topo} {sig : RefSig} {Val : EltTy → Type} {x0 x1 x2 x3 x4 y : Ref sig .tc}
    (f : ((k : Fin 5) → ((![x0, x1, x2, x3, x4] : Fin 5 → Ref sig .tc) k).ty.Contents Val) → y.ty.Contents Val) (hxs hy)
    (G : Valuation τ sig Val) (n0 : x0 ≠ y) (n1 : x1 ≠ y) (n2 : x2 ≠ y) (n3 : x3 ≠ y) (n4 : x4 ≠ y)
    {v0 : x0.ty.Contents Val} {v1 : x1.ty.Contents Val} {v2 : x2.ty.Contents Val} {v3 : x3.ty.Contents Val}
    {v4 : x4.ty.Contents Val}
    (e0 : (nary (τ := τ) ![x0, x1, x2, x3, x4] y f hxs hy).result G (Proc.devRef .tc x0) = v0)
    (e1 : (nary (τ := τ) ![x0, x1, x2, x3, x4] y f hxs hy).result G (Proc.devRef .tc x1) = v1)
    (e2 : (nary (τ := τ) ![x0, x1, x2, x3, x4] y f hxs hy).result G (Proc.devRef .tc x2) = v2)
    (e3 : (nary (τ := τ) ![x0, x1, x2, x3, x4] y f hxs hy).result G (Proc.devRef .tc x3) = v3)
    (e4 : (nary (τ := τ) ![x0, x1, x2, x3, x4] y f hxs hy).result G (Proc.devRef .tc x4) = v4) :
    (nary (τ := τ) ![x0, x1, x2, x3, x4] y f hxs hy).result G (Proc.devRef .tc y)
      = f (Fin.cons v0 (Fin.cons v1 (Fin.cons v2 (Fin.cons v3 (Fin.cons v4 (fun i => i.elim0)))))) := by
  rw [nary_result_ne (h := n0)] at e0
  rw [nary_result_ne (h := n1)] at e1
  rw [nary_result_ne (h := n2)] at e2
  rw [nary_result_ne (h := n3)] at e3
  rw [nary_result_ne (h := n4)] at e4
  rw [nary_result]
  congr 1
  funext k
  fin_cases k
  exacts [e0, e1, e2, e3, e4]

/-! ## The five stacked pieces

Each is read down to the argument buffers in one rewriting pass; what is left is the family's term of RefTerms
with its named intermediate values written out and the calls' values carried to their buffers' types and back,
the same term up to unfolding those names. -/

set_option maxRecDepth 100000 in
set_option maxHeartbeats 20000000 in
/-- Value %145, the buffer main_v145: the result of the family of 2 prototypes (the second argument), given a
    middle axis of length one. -/
theorem read_v145 (V : Valuation τ sig (Elt Ideal)) :
    after (ops (F := Ideal)) V (main_v145 : DevRef τ sig)
      = broadcastInDim S32768x1x512 ![0, 2] bcast_S32768x512_S32768x1x512_0_2
          (Cert.RefTerms.hG0 (Cert.RefTerms.hXn (V (main_arg0 : DevRef τ sig))) (V (main_arg1 : DevRef τ sig))) := by
  simp only [ops, after_app]
  after_results_simp
  rfl

set_option maxRecDepth 100000 in
set_option maxHeartbeats 20000000 in
/-- Value %146, the buffer main_v146: the result of the family of 15 prototypes (the third argument), given a
    middle axis of length one. -/
theorem read_v146 (V : Valuation τ sig (Elt Ideal)) :
    after (ops (F := Ideal)) V (main_v146 : DevRef τ sig)
      = broadcastInDim S32768x1x512 ![0, 2] bcast_S32768x512_S32768x1x512_0_2
          (Cert.RefTerms.hG1 (Cert.RefTerms.hXn (V (main_arg0 : DevRef τ sig))) (V (main_arg2 : DevRef τ sig))) := by
  simp only [ops, after_app]
  after_results_simp
  rfl

set_option maxRecDepth 100000 in
set_option maxHeartbeats 20000000 in
/-- Value %147, the buffer main_v147: the result of the first family of 40 prototypes (the fourth argument),
    given a middle axis of length one. -/
theorem read_v147 (V : Valuation τ sig (Elt Ideal)) :
    after (ops (F := Ideal)) V (main_v147 : DevRef τ sig)
      = broadcastInDim S32768x1x512 ![0, 2] bcast_S32768x512_S32768x1x512_0_2
          (Cert.RefTerms.hG2 (Cert.RefTerms.hXn (V (main_arg0 : DevRef τ sig))) (V (main_arg3 : DevRef τ sig))) := by
  simp only [ops, after_app]
  after_results_simp
  rfl

set_option maxRecDepth 100000 in
set_option maxHeartbeats 20000000 in
/-- Value %148, the buffer main_v148: the result of the second family of 40 prototypes (the fifth argument),
    given a middle axis of length one. -/
theorem read_v148 (V : Valuation τ sig (Elt Ideal)) :
    after (ops (F := Ideal)) V (main_v148 : DevRef τ sig)
      = broadcastInDim S32768x1x512 ![0, 2] bcast_S32768x512_S32768x1x512_0_2
          (Cert.RefTerms.hG3 (Cert.RefTerms.hXn (V (main_arg0 : DevRef τ sig))) (V (main_arg4 : DevRef τ sig))) := by
  simp only [ops, after_app]
  after_results_simp
  rfl

set_option maxRecDepth 100000 in
set_option maxHeartbeats 20000000 in
/-- Value %149, the buffer main_v149: the result of the family of 24 prototypes (the sixth argument), given a
    middle axis of length one. -/
theorem read_v149 (V : Valuation τ sig (Elt Ideal)) :
    after (ops (F := Ideal)) V (main_v149 : DevRef τ sig)
      = broadcastInDim S32768x1x512 ![0, 2] bcast_S32768x512_S32768x1x512_0_2
          (Cert.RefTerms.hG4 (Cert.RefTerms.hXn (V (main_arg0 : DevRef τ sig))) (V (main_arg5 : DevRef τ sig))) := by
  simp only [ops, after_app]
  after_results_simp
  rfl

/-! ## The result

The last operation concatenates the five pieces; it writes none of them, so it reads them as the line leaves
them. -/

set_option maxRecDepth 100000 in
set_option maxHeartbeats 20000000 in
/-- Value %150, the result buffer main_v150: the five pieces joined along the middle axis. -/
theorem read_out (V : Valuation τ sig (Elt Ideal)) :
    after (ops (F := Ideal)) V (main_v150 : DevRef τ sig)
      = Cert.RefTerms.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  have h0 := read_v145 V
  have h1 := read_v146 V
  have h2 := read_v147 V
  have h3 := read_v148 V
  have h4 := read_v149 V
  simp only [ops, after_app, after_cons, after_nil] at h0 h1 h2 h3 h4 ⊢
  exact (nary5_read _ _ _ _ (by decide) (by decide) (by decide) (by decide) (by decide) h0 h1 h2 h3 h4).trans rfl

/-! ## The arguments

No operation writes an argument buffer: each of the 216 steps leaves it as it was. -/

set_option maxRecDepth 100000 in
set_option maxHeartbeats 20000000 in
/-- The feature rows (the first argument) are unchanged. -/
theorem read_arg0 (V : Valuation τ sig (Elt Ideal)) :
    after (ops (F := Ideal)) V (main_arg0 : DevRef τ sig) = V (main_arg0 : DevRef τ sig) := by
  simp only [ops, after_app]
  after_results_simp

set_option maxRecDepth 100000 in
set_option maxHeartbeats 20000000 in
/-- The 2 prototypes (the second argument) are unchanged. -/
theorem read_arg1 (V : Valuation τ sig (Elt Ideal)) :
    after (ops (F := Ideal)) V (main_arg1 : DevRef τ sig) = V (main_arg1 : DevRef τ sig) := by
  simp only [ops, after_app]
  after_results_simp

set_option maxRecDepth 100000 in
set_option maxHeartbeats 20000000 in
/-- The 15 prototypes (the third argument) are unchanged. -/
theorem read_arg2 (V : Valuation τ sig (Elt Ideal)) :
    after (ops (F := Ideal)) V (main_arg2 : DevRef τ sig) = V (main_arg2 : DevRef τ sig) := by
  simp only [ops, after_app]
  after_results_simp

set_option maxRecDepth 100000 in
set_option maxHeartbeats 20000000 in
/-- The first 40 prototypes (the fourth argument) are unchanged. -/
theorem read_arg3 (V : Valuation τ sig (Elt Ideal)) :
    after (ops (F := Ideal)) V (main_arg3 : DevRef τ sig) = V (main_arg3 : DevRef τ sig) := by
  simp only [ops, after_app]
  after_results_simp

set_option maxRecDepth 100000 in
set_option maxHeartbeats 20000000 in
/-- The second 40 prototypes (the fifth argument) are unchanged. -/
theorem read_arg4 (V : Valuation τ sig (Elt Ideal)) :
    after (ops (F := Ideal)) V (main_arg4 : DevRef τ sig) = V (main_arg4 : DevRef τ sig) := by
  simp only [ops, after_app]
  after_results_simp

set_option maxRecDepth 100000 in
set_option maxHeartbeats 20000000 in
/-- The 24 prototypes (the sixth argument) are unchanged. -/
theorem read_arg5 (V : Valuation τ sig (Elt Ideal)) :
    after (ops (F := Ideal)) V (main_arg5 : DevRef τ sig) = V (main_arg5 : DevRef τ sig) := by
  simp only [ops, after_app]
  after_results_simp

end Cert.RefRun

end
-- ==== Proof.HStages.lean ====
/-
  The host program's array operations as the stages of the row specification.

  Each lemma is an equation between whole arrays, for any extents: a sum or a maximum along the rows put back as one column,
  a column or a single value spread over an array, a transposition, a contraction of the left operand's second axis with the
  right operand's first, the host's division, square root and exponential, and five arrays joined along a new middle axis.
  At the exact extended reals each of these operations is the textbook one, so every equation is proved entry by entry.
-/
import proofs.«174165_j62843961475556_2_alg».proof.Proof.RowSpec
import Idealize.ShloMosaic.Lib.Pipeline.Value
import Idealize.ShloMosaic.Lib.ValueLayout

noncomputable section

namespace Cert.HStages

open Idealize.ShloMosaic Idealize.ShloMosaic.ValueIdx Cert.RowSpec

/-! ## Reading a broadcast at an index -/

/-- A vector broadcast into one column reads, at (p, u), the vector at p. -/
theorem bcast_vec_col_apply {M : ℕ} (v : FVec Ideal ⟨1, ![M]⟩ .f32)
    (hb : (⟨1, ![M]⟩ : Shape).BroadcastsInDim ⟨2, ![M, 1]⟩ ![0]) (p : Fin M) (u : Fin 1) :
    broadcastInDim ⟨2, ![M, 1]⟩ ![0] hb v (ix2 p u) = v (ix1 p) :=
  broadcastInDim_apply _ hb v _ (ix1 p) (fun ax => match ax with
    | ⟨0, _⟩ => by
      show p.val = if M = 1 then 0 else p.val
      split
      · have := p.isLt; omega
      · rfl)

/-- A one-column array broadcast along the rows reads, at (p, c), its entry (p, 0). -/
theorem bcast_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The index of row p with the coordinate k put back on the reduced second axis is (p, k). -/
theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima along the rows -/

/-- The host's sum along the rows from a zero initial value, put back as one column, is each row's sum. -/
theorem reduceAdd_col_eq {M N : ℕ} (v : Mat M N) (h' : (⟨2, ![M, N]⟩ : Shape).ReducesTo [1] ⟨1, ![M]⟩)
    (hS : 0 < (⟨0, ![]⟩ : Shape).numel) (hb : (⟨1, ![M]⟩ : Shape).BroadcastsInDim ⟨2, ![M, 1]⟩ ![0]) :
    broadcastInDim ⟨2, ![M, 1]⟩ ![0] hb
        (Host.reduceAdd (F := Ideal) v (constant (F := Ideal) ⟨0, ![]⟩ .f32 0x00000000#32) h' hS)
      = colSum v := by
  funext j
  obtain ⟨p, u, rfl⟩ : ∃ (p : Fin M) (u : Fin 1), j = ix2 p u := ⟨j 0, j 1, eq_ix2 j⟩
  have h : (⟨2, ![M, N]⟩ : Shape).Reduces [1] ⟨1, ![M]⟩ := ⟨h'.1, Nat.one_pos, h'.2⟩
  refine (bcast_vec_col_apply _ hb p u).trans ?_
  show Ideal.hostReduceAdd h' v (Ideal.ofBits .f32 0x00000000#32) (ix1 p) = ∑ k : Fin N, v (ix2 p k)
  rw [Ideal.hostReduceAdd_single h' h, Ideal.ofBits_zero_f32, zero_add]
  exact Finset.sum_congr rfl fun k _ => congrArg v (lift_last2 h p k)

/-- A single value broadcast to a vector reads that value everywhere. -/
theorem bcast_scalar_vec_apply {M : ℕ} (c : FVec Ideal ⟨0, ![]⟩ .f32)
    (hb0 : (⟨0, ![]⟩ : Shape).BroadcastsInDim ⟨1, ![M]⟩ ![]) (j : (⟨1, ![M]⟩ : Shape).Idx) :
    broadcastInDim ⟨1, ![M]⟩ ![] hb0 c j = c ix0 :=
  broadcastInDim_apply _ hb0 c j ix0 (fun a => a.elim0)

/-- The maximum of a value with a fold of maxima that starts from that value is the fold. -/
theorem max_fold_max_self {N : ℕ} (a : EReal) (f : Fin N → EReal) :
    max a ((Finset.univ : Finset (Fin N)).fold max a f) = (Finset.univ : Finset (Fin N)).fold max a f :=
  max_eq_right ((Finset.le_fold_max a).mpr (Or.inl le_rfl))

/-- The host's maximum along the rows from the value a running maximum starts from, taken once more against that value
    and put back as one column, is each row's maximum. -/
theorem reduceMax_col_eq {M N : ℕ} (v : Mat M N) (h' : (⟨2, ![M, N]⟩ : Shape).ReducesTo [1] ⟨1, ![M]⟩)
    (hS : 0 < (⟨0, ![]⟩ : Shape).numel) (hb0 : (⟨0, ![]⟩ : Shape).BroadcastsInDim ⟨1, ![M]⟩ ![])
    (hb : (⟨1, ![M]⟩ : Shape).BroadcastsInDim ⟨2, ![M, 1]⟩ ![0]) :
    broadcastInDim ⟨2, ![M, 1]⟩ ![0] hb
        (maximumf (broadcastInDim ⟨1, ![M]⟩ ![] hb0 (constant (F := Ideal) ⟨0, ![]⟩ .f32 0xFF800000#32))
          (Host.reduce FloatOps.maximumf v (constant (F := Ideal) ⟨0, ![]⟩ .f32 0xFF800000#32) h' hS))
      = colMax v := by
  funext j
  obtain ⟨p, u, rfl⟩ : ∃ (p : Fin M) (u : Fin 1), j = ix2 p u := ⟨j 0, j 1, eq_ix2 j⟩
  have h : (⟨2, ![M, N]⟩ : Shape).Reduces [1] ⟨1, ![M]⟩ := ⟨h'.1, Nat.one_pos, h'.2⟩
  refine (bcast_vec_col_apply _ hb p u).trans ?_
  show max (broadcastInDim ⟨1, ![M]⟩ ![] hb0 (constant (F := Ideal) ⟨0, ![]⟩ .f32 0xFF800000#32) (ix1 p))
      (Host.reduce FloatOps.maximumf v (constant (F := Ideal) ⟨0, ![]⟩ .f32 0xFF800000#32) h' hS (ix1 p))
    = (Finset.univ : Finset (Fin N)).fold max ninf (fun k => v (ix2 p k))
  rw [bcast_scalar_vec_apply, Host.reduce_eq_fold_single FloatOps.maximumf v _ h' h hS]
  have hf : (v ∘ h.lift (ix1 p)) = fun k : Fin N => v (ix2 p k) := funext fun k => congrArg v (lift_last2 h p k)
  rw [hf]
  exact max_fold_max_self ninf _

/-! ## Spreading a column or a value -/

/-- A one-column array broadcast along the rows is the column spread. -/
theorem bcast_col_eq {M N : ℕ} (c : Mat M 1) (hb : (⟨2, ![M, 1]⟩ : Shape).BroadcastsInDim ⟨2, ![M, N]⟩ ![0, 1]) :
    broadcastInDim ⟨2, ![M, N]⟩ ![0, 1] hb c = spread N c := by
  funext j
  obtain ⟨p, q, rfl⟩ : ∃ (p : Fin M) (q : Fin N), j = ix2 p q := ⟨j 0, j 1, eq_ix2 j⟩
  exact bcast_col_apply c hb p q

/-- A constant broadcast to an array is its value everywhere. -/
theorem bcast_const_eq {M N : ℕ} (w : BitVec 32) (hb : (⟨0, ![]⟩ : Shape).BroadcastsInDim ⟨2, ![M, N]⟩ ![]) :
    broadcastInDim ⟨2, ![M, N]⟩ ![] hb (constant (F := Ideal) ⟨0, ![]⟩ .f32 w) = splat M N (Ideal.ofBits .f32 w) := by
  funext j
  exact broadcastInDim_apply _ hb _ j ix0 (fun a => a.elim0)

/-! ## Transposition and the matrix product -/

/-- The transposition of a matrix exchanges rows and columns. -/
theorem transpose_eq {M N : ℕ} (v : Mat M N) (ht : (⟨2, ![M, N]⟩ : Shape).Transposes [1, 0] ⟨2, ![N, M]⟩) :
    transpose ⟨2, ![N, M]⟩ [1, 0] v ht = tr v := by
  funext j
  obtain ⟨q, p, rfl⟩ : ∃ (q : Fin N) (p : Fin M), j = ix2 q p := ⟨j 0, j 1, eq_ix2 j⟩
  exact transpose_ix2_apply v ht q p

/-- The contraction index of a plain product is its one coordinate, so the contraction sum is a sum over the shared
    extent. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A host contraction of the left operand's second axis with the right operand's first axis is the matrix product. -/
theorem dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : Mat M K) (w : Mat K N) :
    Host.dotGeneral (F := Ideal) d none x w = matProd x w := by
  funext j
  obtain ⟨p, q, rfl⟩ : ∃ (p : Fin M) (q : Fin N), j = ix2 p q := ⟨j 0, j 1, eq_ix2 j⟩
  show FloatOps.dotGeneral d none .single x w (ix2 p q) = ∑ k : Fin K, x (ix2 p k) * w (ix2 k q)
  rw [Ideal.dotGeneral_apply]
  exact plain_sum d h1 h2 h3 h4 h5 h6 x w p q

/-! ## The host's pointwise operations -/

/-- At the exact values the host's division is the entrywise division. -/
theorem hostDivf_eq {s : Shape} (x y : FVec Ideal s .f32) : Host.divf (F := Ideal) x y = divf x y := rfl
/-- At the exact values the host's square root is the entrywise square root. -/
theorem hostSqrt_eq {s : Shape} (x : FVec Ideal s .f32) : Host.sqrt (F := Ideal) x = sqrt x := rfl
/-- At the exact values the host's exponential is the entrywise exponential. -/
theorem hostExp_eq {s : Shape} (x : FVec Ideal s .f32) : Host.exp (F := Ideal) x = exp x := rfl

/-! ## Five arrays joined along a new middle axis -/

/-- An array given a middle axis of length one reads, at (p, 0, d), its entry (p, d). -/
theorem mid_apply {M D : ℕ} (G : Mat M D) (hb : (⟨2, ![M, D]⟩ : Shape).BroadcastsInDim ⟨3, ![M, 1, D]⟩ ![0, 2])
    (p : Fin M) (d : Fin D) :
    broadcastInDim ⟨3, ![M, 1, D]⟩ ![0, 2] hb G (ix3 p (0 : Fin 1) d) = G (ix2 p d) :=
  broadcastInDim_apply _ hb G _ (ix2 p d) (fun ax => match ax with
    | ⟨0, _⟩ => by
      show p.val = if M = 1 then 0 else p.val
      split
      · have := p.isLt; omega
      · rfl
    | ⟨1, _⟩ => by
      show d.val = if D = 1 then 0 else d.val
      split
      · have := d.isLt; omega
      · rfl)

/-- Five arrays, each given a middle axis of length one, joined along that axis: the stack of the five. -/
theorem concat5_eq {M D : ℕ} (G0 G1 G2 G3 G4 : Mat M D)
    (hb : (⟨2, ![M, D]⟩ : Shape).BroadcastsInDim ⟨3, ![M, 1, D]⟩ ![0, 2])
    (hc : Shape.Concatenates [(⟨3, ![M, 1, D]⟩ : Shape), ⟨3, ![M, 1, D]⟩, ⟨3, ![M, 1, D]⟩, ⟨3, ![M, 1, D]⟩, ⟨3, ![M, 1, D]⟩]
      ⟨3, ![M, 5, D]⟩ 1) :
    concatenate ⟨3, ![M, 5, D]⟩ 1
        [⟨⟨3, ![M, 1, D]⟩, broadcastInDim ⟨3, ![M, 1, D]⟩ ![0, 2] hb G0⟩,
         ⟨⟨3, ![M, 1, D]⟩, broadcastInDim ⟨3, ![M, 1, D]⟩ ![0, 2] hb G1⟩,
         ⟨⟨3, ![M, 1, D]⟩, broadcastInDim ⟨3, ![M, 1, D]⟩ ![0, 2] hb G2⟩,
         ⟨⟨3, ![M, 1, D]⟩, broadcastInDim ⟨3, ![M, 1, D]⟩ ![0, 2] hb G3⟩,
         ⟨⟨3, ![M, 1, D]⟩, broadcastInDim ⟨3, ![M, 1, D]⟩ ![0, 2] hb G4⟩] hc
      = stack5 G0 G1 G2 G3 G4 := by
  funext j
  obtain ⟨p, g, d, rfl⟩ : ∃ (p : Fin M) (g : Fin 5) (d : Fin D), j = ix3 p g d := ⟨j 0, j 1, j 2, eq_ix3 j⟩
  have hi : ∀ (g : Fin 5) (b : Fin 3), b.cast (rfl : (3 : ℕ) = 3) ≠ (1 : Fin 3) →
      ((ix3 p (0 : Fin 1) d : (⟨3, ![M, 1, D]⟩ : Shape).Idx) b).val = ((ix3 p g d : (⟨3, ![M, 5, D]⟩ : Shape).Idx) (b.cast rfl)).val := by
    intro _ b hb
    match b, hb with
    | ⟨0, _⟩, _ => rfl
    | ⟨1, _⟩, hb => exact absurd rfl hb
    | ⟨2, _⟩, _ => rfl
  have key := fun (g : Fin 5) => concatenate_apply_piece (t := ⟨3, ![M, 5, D]⟩) (1 : Fin 3)
    [⟨⟨3, ![M, 1, D]⟩, broadcastInDim ⟨3, ![M, 1, D]⟩ ![0, 2] hb G0⟩,
     ⟨⟨3, ![M, 1, D]⟩, broadcastInDim ⟨3, ![M, 1, D]⟩ ![0, 2] hb G1⟩,
     ⟨⟨3, ![M, 1, D]⟩, broadcastInDim ⟨3, ![M, 1, D]⟩ ![0, 2] hb G2⟩,
     ⟨⟨3, ![M, 1, D]⟩, broadcastInDim ⟨3, ![M, 1, D]⟩ ![0, 2] hb G3⟩,
     ⟨⟨3, ![M, 1, D]⟩, broadcastInDim ⟨3, ![M, 1, D]⟩ ![0, 2] hb G4⟩] hc (ix3 p g d)
  match g with
  | ⟨0, _⟩ =>
    refine Eq.trans ?_ (mid_apply G0 hb p d)
    exact key _ 0 (by show 0 < 5; omega) ⟨3, ![M, 1, D]⟩ _ rfl rfl 0 rfl (ix3 p (0 : Fin 1) d) (hi _) rfl
  | ⟨1, _⟩ =>
    refine Eq.trans ?_ (mid_apply G1 hb p d)
    exact key _ 1 (by show 1 < 5; omega) ⟨3, ![M, 1, D]⟩ _ rfl rfl 1 rfl (ix3 p (0 : Fin 1) d) (hi _) rfl
  | ⟨2, _⟩ =>
    refine Eq.trans ?_ (mid_apply G2 hb p d)
    exact key _ 2 (by show 2 < 5; omega) ⟨3, ![M, 1, D]⟩ _ rfl rfl 2 rfl (ix3 p (0 : Fin 1) d) (hi _) rfl
  | ⟨3, _⟩ =>
    refine Eq.trans ?_ (mid_apply G3 hb p d)
    exact key _ 3 (by show 3 < 5; omega) ⟨3, ![M, 1, D]⟩ _ rfl rfl 3 rfl (ix3 p (0 : Fin 1) d) (hi _) rfl
  | ⟨4, _⟩ =>
    refine Eq.trans ?_ (mid_apply G4 hb p d)
    exact key _ 4 (by show 4 < 5; omega) ⟨3, ![M, 1, D]⟩ _ rfl rfl 4 rfl (ix3 p (0 : Fin 1) d) (hi _) rfl

end Cert.HStages

end
-- ==== Proof.HGroups.lean ====
/-
  The reference program's values are the row specification's.

  Each value of the reference, written as the composition of its operations, is rewritten operation by operation into the
  whole-array stages of the specification: the scaled features, each prototype family's output from the scaled features, and
  the stack of the five outputs.
-/
import proofs.«174165_j62843961475556_2_alg».proof.Proof.RefTerms
import proofs.«174165_j62843961475556_2_alg».proof.Proof.HStages

noncomputable section

namespace Cert.HGroups

open Idealize.ShloMosaic Idealize.ShloMosaic.ValueIdx Cert.RowSpec Cert.HStages
open Cert.ReferenceIdeal Cert.ReferenceIdeal.Facts₀

/-- The scaled features are every feature row divided by its norm plus the small constant. -/
theorem hXn_eq (x : FVec Ideal Cert.ReferenceIdeal.S32768x512 .f32) : Cert.RefTerms.hXn x = unitize x := by
  unfold Cert.RefTerms.hXn
  simp only [hostDivf_eq, hostSqrt_eq, reduceAdd_col_eq (M := 32768) (N := 512), bcast_col_eq (M := 32768) (N := 512),
    bcast_const_eq (M := 32768) (N := 1)]
  rfl

/-- The family of 2 prototypes applied to the scaled features. -/
theorem hG0_eq (xn : FVec Ideal Cert.ReferenceIdeal.S32768x512 .f32) (P : FVec Ideal Cert.ReferenceIdeal.S2x512 .f32) :
    Cert.RefTerms.hG0 xn P = groupFrom xn P Cert.RefTerms.a0 := by
  unfold Cert.RefTerms.hG0
  simp only [hostDivf_eq, hostSqrt_eq, hostExp_eq,
    reduceAdd_col_eq (M := 2) (N := 512), reduceAdd_col_eq (M := 32768) (N := 2), reduceMax_col_eq (M := 32768) (N := 2),
    bcast_col_eq (M := 2) (N := 512), bcast_col_eq (M := 32768) (N := 2),
    bcast_const_eq (M := 2) (N := 1), bcast_const_eq (M := 32768) (N := 2), bcast_const_eq (M := 32768) (N := 1),
    transpose_eq (M := 2) (N := 512),
    dot_eq dot_S32768x512_S512x2_S32768x2_1_0_0_1_n_n rfl rfl rfl rfl rfl rfl,
    dot_eq dot_S32768x2_S2x2_S32768x2_1_0_0_1_n_n rfl rfl rfl rfl rfl rfl,
    dot_eq dot_S32768x2_S2x512_S32768x512_1_0_0_1_n_n rfl rfl rfl rfl rfl rfl]
  rfl

/-- The family of 15 prototypes applied to the scaled features. -/
theorem hG1_eq (xn : FVec Ideal Cert.ReferenceIdeal.S32768x512 .f32) (P : FVec Ideal Cert.ReferenceIdeal.S15x512 .f32) :
    Cert.RefTerms.hG1 xn P = groupFrom xn P Cert.RefTerms.a1 := by
  unfold Cert.RefTerms.hG1
  simp only [hostDivf_eq, hostSqrt_eq, hostExp_eq,
    reduceAdd_col_eq (M := 15) (N := 512), reduceAdd_col_eq (M := 32768) (N := 15), reduceMax_col_eq (M := 32768) (N := 15),
    bcast_col_eq (M := 15) (N := 512), bcast_col_eq (M := 32768) (N := 15),
    bcast_const_eq (M := 15) (N := 1), bcast_const_eq (M := 32768) (N := 15), bcast_const_eq (M := 32768) (N := 1),
    transpose_eq (M := 15) (N := 512),
    dot_eq dot_S32768x512_S512x15_S32768x15_1_0_0_1_n_n rfl rfl rfl rfl rfl rfl,
    dot_eq dot_S32768x15_S15x15_S32768x15_1_0_0_1_n_n rfl rfl rfl rfl rfl rfl,
    dot_eq dot_S32768x15_S15x512_S32768x512_1_0_0_1_n_n rfl rfl rfl rfl rfl rfl]
  rfl

/-- The family of 40 prototypes applied to the scaled features. -/
theorem hG2_eq (xn : FVec Ideal Cert.ReferenceIdeal.S32768x512 .f32) (P : FVec Ideal Cert.ReferenceIdeal.S40x512 .f32) :
    Cert.RefTerms.hG2 xn P = groupFrom xn P Cert.RefTerms.a2 := by
  unfold Cert.RefTerms.hG2
  simp only [hostDivf_eq, hostSqrt_eq, hostExp_eq,
    reduceAdd_col_eq (M := 40) (N := 512), reduceAdd_col_eq (M := 32768) (N := 40), reduceMax_col_eq (M := 32768) (N := 40),
    bcast_col_eq (M := 40) (N := 512), bcast_col_eq (M := 32768) (N := 40),
    bcast_const_eq (M := 40) (N := 1), bcast_const_eq (M := 32768) (N := 40), bcast_const_eq (M := 32768) (N := 1),
    transpose_eq (M := 40) (N := 512),
    dot_eq dot_S32768x512_S512x40_S32768x40_1_0_0_1_n_n rfl rfl rfl rfl rfl rfl,
    dot_eq dot_S32768x40_S40x40_S32768x40_1_0_0_1_n_n rfl rfl rfl rfl rfl rfl,
    dot_eq dot_S32768x40_S40x512_S32768x512_1_0_0_1_n_n rfl rfl rfl rfl rfl rfl]
  rfl

/-- The family of 40 prototypes applied to the scaled features. -/
theorem hG3_eq (xn : FVec Ideal Cert.ReferenceIdeal.S32768x512 .f32) (P : FVec Ideal Cert.ReferenceIdeal.S40x512 .f32) :
    Cert.RefTerms.hG3 xn P = groupFrom xn P Cert.RefTerms.a3 := by
  unfold Cert.RefTerms.hG3
  simp only [hostDivf_eq, hostSqrt_eq, hostExp_eq,
    reduceAdd_col_eq (M := 40) (N := 512), reduceAdd_col_eq (M := 32768) (N := 40), reduceMax_col_eq (M := 32768) (N := 40),
    bcast_col_eq (M := 40) (N := 512), bcast_col_eq (M := 32768) (N := 40),
    bcast_const_eq (M := 40) (N := 1), bcast_const_eq (M := 32768) (N := 40), bcast_const_eq (M := 32768) (N := 1),
    transpose_eq (M := 40) (N := 512),
    dot_eq dot_S32768x512_S512x40_S32768x40_1_0_0_1_n_n rfl rfl rfl rfl rfl rfl,
    dot_eq dot_S32768x40_S40x40_S32768x40_1_0_0_1_n_n rfl rfl rfl rfl rfl rfl,
    dot_eq dot_S32768x40_S40x512_S32768x512_1_0_0_1_n_n rfl rfl rfl rfl rfl rfl]
  rfl

/-- The family of 24 prototypes applied to the scaled features. -/
theorem hG4_eq (xn : FVec Ideal Cert.ReferenceIdeal.S32768x512 .f32) (P : FVec Ideal Cert.ReferenceIdeal.S24x512 .f32) :
    Cert.RefTerms.hG4 xn P = groupFrom xn P Cert.RefTerms.a4 := by
  unfold Cert.RefTerms.hG4
  simp only [hostDivf_eq, hostSqrt_eq, hostExp_eq,
    reduceAdd_col_eq (M := 24) (N := 512), reduceAdd_col_eq (M := 32768) (N := 24), reduceMax_col_eq (M := 32768) (N := 24),
    bcast_col_eq (M := 24) (N := 512), bcast_col_eq (M := 32768) (N := 24),
    bcast_const_eq (M := 24) (N := 1), bcast_const_eq (M := 32768) (N := 24), bcast_const_eq (M := 32768) (N := 1),
    transpose_eq (M := 24) (N := 512),
    dot_eq dot_S32768x512_S512x24_S32768x24_1_0_0_1_n_n rfl rfl rfl rfl rfl rfl,
    dot_eq dot_S32768x24_S24x24_S32768x24_1_0_0_1_n_n rfl rfl rfl rfl rfl rfl,
    dot_eq dot_S32768x24_S24x512_S32768x512_1_0_0_1_n_n rfl rfl rfl rfl rfl rfl]
  rfl

/-- The reference's result is the stack of the five families' outputs on the feature rows. -/
theorem refOut_eq (x : FVec Ideal Cert.ReferenceIdeal.S32768x512 .f32) (p0 : FVec Ideal Cert.ReferenceIdeal.S2x512 .f32)
    (p1 : FVec Ideal Cert.ReferenceIdeal.S15x512 .f32) (p2 p3 : FVec Ideal Cert.ReferenceIdeal.S40x512 .f32)
    (p4 : FVec Ideal Cert.ReferenceIdeal.S24x512 .f32) :
    Cert.RefTerms.refOut x p0 p1 p2 p3 p4
      = out5 x p0 p1 p2 p3 p4 Cert.RefTerms.a0 Cert.RefTerms.a1 Cert.RefTerms.a2 Cert.RefTerms.a3 Cert.RefTerms.a4 := by
  unfold Cert.RefTerms.refOut
  rw [hG0_eq, hG1_eq, hG2_eq, hG3_eq, hG4_eq, hXn_eq]
  exact concat5_eq (M := 32768) (D := 512) _ _ _ _ _ _ _

end Cert.HGroups

end
-- ==== Proof.ConstTables.lean ====
/-
  The two programs carry the same five affinity matrices: each is printed with its own copy of the tables of entries, and
  the copies agree entry by entry.
-/
import proofs.«174165_j62843961475556_2_alg».proof.KernelIdeal
import proofs.«174165_j62843961475556_2_alg».proof.ReferenceIdeal

namespace Cert.ConstTables

theorem lit0_eq : ∀ i : Fin 4, Cert.KernelIdeal.lit0 i = Cert.ReferenceIdeal.lit0 i := by decide +kernel
theorem lit1_eq : ∀ i : Fin 225, Cert.KernelIdeal.lit1 i = Cert.ReferenceIdeal.lit1 i := by decide +kernel
theorem lit2_eq : ∀ i : Fin 1600, Cert.KernelIdeal.lit2 i = Cert.ReferenceIdeal.lit2 i := by decide +kernel
theorem lit3_eq : ∀ i : Fin 1600, Cert.KernelIdeal.lit3 i = Cert.ReferenceIdeal.lit3 i := by decide +kernel
theorem lit4_eq : ∀ i : Fin 576, Cert.KernelIdeal.lit4 i = Cert.ReferenceIdeal.lit4 i := by decide +kernel

end Cert.ConstTables
-- ==== Proof.lean ====
/-
  The kernel and its reference compute the same arrays over the extended reals.

  For each of five prototype families, with prototype matrix P and a constant affinity matrix A, both programs treat every
  row x of the feature matrix on its own: x and the rows of P are scaled to unit length (the divisor is the Euclidean norm
  plus a small constant), the inner products of x with the prototypes are divided by a temperature and turned into weights
  by a softmax, the weights are mixed through A and divided by their sum plus the small constant, and the result is that
  mixture of the rows of P. The five results are stacked along a middle axis.

  The reference does this on all 32768 rows at once, as one straight line of array operations. The kernel does it sixteen
  times on blocks of 2048 rows, writes the five results side by side in a 2560-column array, and reshapes that array
  afterwards. Both are rewritten, operation by operation, into one function of the argument arrays (Proof/RowSpec.lean);
  since a row of that function depends on the same row of the feature matrix only, the kernel's blocks are the blocks of
  the whole array. No law of arithmetic beyond that is used, so the precondition is never opened. The two programs carry
  their own copies of the affinity matrices, which agree entry by entry.
-/
import proofs.«174165_j62843961475556_2_alg».proof.Defs
import proofs.«174165_j62843961475556_2_alg».proof.Proof.Gen.Kernel
import proofs.«174165_j62843961475556_2_alg».proof.Proof.Gen.Kernel.Skeleton
import proofs.«174165_j62843961475556_2_alg».proof.Proof.Gen.Kernel.Launch
import proofs.«174165_j62843961475556_2_alg».proof.Proof.Gen.Kernel.Points
import proofs.«174165_j62843961475556_2_alg».proof.Proof.Gen.Kernel.Frame
import proofs.«174165_j62843961475556_2_alg».proof.Proof.Gen.KernelIdeal
import proofs.«174165_j62843961475556_2_alg».proof.Proof.Gen.KernelIdeal.Skeleton
import proofs.«174165_j62843961475556_2_alg».proof.Proof.Gen.KernelIdeal.Launch
import proofs.«174165_j62843961475556_2_alg».proof.Proof.Gen.KernelIdeal.Points
import proofs.«174165_j62843961475556_2_alg».proof.Proof.Gen.KernelIdeal.Frame
import proofs.«174165_j62843961475556_2_alg».proof.Proof.Gen.ReferenceIdeal
import proofs.«174165_j62843961475556_2_alg».proof.Proof.Gen.Pre_finite_inputs
import proofs.«174165_j62843961475556_2_alg».proof.Proof.KernelArray
import proofs.«174165_j62843961475556_2_alg».proof.Proof.RefRun
import proofs.«174165_j62843961475556_2_alg».proof.Proof.RefRead
import proofs.«174165_j62843961475556_2_alg».proof.Proof.HGroups
import proofs.«174165_j62843961475556_2_alg».proof.Proof.ConstTables
import Idealize.ShloMosaic.Adequacy
import Idealize.ShloMosaic.Init

noncomputable section

namespace Cert.Proof

open Idealize.ShloMosaic Idealize.SL.Sem Idealize.ShloMosaic.StableHlo Cert.RowSpec

/-! ## The two programs' affinity matrices are the same -/

theorem aff0_eq : Cert.RefTerms.a0 = Cert.KernelBlocks.aff0 :=
  funext fun _ => congrArg (FloatOps.ofBits (F := Ideal) .f32) (Cert.ConstTables.lit0_eq _).symm
theorem aff1_eq : Cert.RefTerms.a1 = Cert.KernelBlocks.aff1 :=
  funext fun _ => congrArg (FloatOps.ofBits (F := Ideal) .f32) (Cert.ConstTables.lit1_eq _).symm
theorem aff2_eq : Cert.RefTerms.a2 = Cert.KernelBlocks.aff2 :=
  funext fun _ => congrArg (FloatOps.ofBits (F := Ideal) .f32) (Cert.ConstTables.lit2_eq _).symm
theorem aff3_eq : Cert.RefTerms.a3 = Cert.KernelBlocks.aff3 :=
  funext fun _ => congrArg (FloatOps.ofBits (F := Ideal) .f32) (Cert.ConstTables.lit3_eq _).symm
theorem aff4_eq : Cert.RefTerms.a4 = Cert.KernelBlocks.aff4 :=
  funext fun _ => congrArg (FloatOps.ofBits (F := Ideal) .f32) (Cert.ConstTables.lit4_eq _).symm

/-! ## The claims -/

theorem frame_k : Cert.frame_Kernel := fun m ρ _ => Cert.Kernel.Gen.frame m ρ

theorem frame_ki : Cert.frame_KernelIdeal := fun m ρ _ => Cert.KernelIdeal.Gen.frame m ρ

/-- The reference is a straight line of array operations that never writes an argument. -/
theorem frame_ri : Cert.frame_ReferenceIdeal := fun m ρ _ =>
  (θ_run Cert.ReferenceIdeal.defs _ _).mono (fun _ h c =>
      ⟨(h c Cert.ReferenceIdeal.main_arg0).trans (Cert.RefRun.read_arg0 _),
        (h c Cert.ReferenceIdeal.main_arg1).trans (Cert.RefRun.read_arg1 _),
        (h c Cert.ReferenceIdeal.main_arg2).trans (Cert.RefRun.read_arg2 _),
        (h c Cert.ReferenceIdeal.main_arg3).trans (Cert.RefRun.read_arg3 _),
        (h c Cert.ReferenceIdeal.main_arg4).trans (Cert.RefRun.read_arg4 _),
        (h c Cert.ReferenceIdeal.main_arg5).trans (Cert.RefRun.read_arg5 _)⟩)
    (Cert.RefRun.run_main (F := Ideal) m ρ)

theorem preserves : Cert.preserves_Kernel_KernelIdeal := trivial

/-- Both programs end with the five families' outputs of the same arrays, stacked: the kernel block of rows by block of
    rows, the reference on all rows at once. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c =>
      ⟨?_, (h c Cert.ReferenceIdeal.main_arg0).trans (Cert.RefRun.read_arg0 _),
        (h c Cert.ReferenceIdeal.main_arg1).trans (Cert.RefRun.read_arg1 _),
        (h c Cert.ReferenceIdeal.main_arg2).trans (Cert.RefRun.read_arg2 _),
        (h c Cert.ReferenceIdeal.main_arg3).trans (Cert.RefRun.read_arg3 _),
        (h c Cert.ReferenceIdeal.main_arg4).trans (Cert.RefRun.read_arg4 _),
        (h c Cert.ReferenceIdeal.main_arg5).trans (Cert.RefRun.read_arg5 _)⟩)
    (Cert.RefRun.run_main (F := Ideal) m' ρ')
  obtain ⟨e0, e1, e2, e3, e4, e5⟩ := hagree c
  rw [h c Cert.ReferenceIdeal.main_v150, Cert.RefRun.read_out, Cert.HGroups.refOut_eq, aff0_eq, aff1_eq, aff2_eq, aff3_eq, aff4_eq]
  show out5 (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      Cert.KernelBlocks.aff0 Cert.KernelBlocks.aff1 Cert.KernelBlocks.aff2 Cert.KernelBlocks.aff3 Cert.KernelBlocks.aff4 = _
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
